-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v16)) (v2 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_v18) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_v26) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x262144x3 : Shape := ⟨3, ![32, 262144, 3]⟩
abbrev S_ : Shape := ⟨0, ![]⟩

class Facts : Prop where
  bcast_S_S32x262144x3 : S_.BroadcastsInDim S32x262144x3 (![] : Fin 0 → Fin S32x262144x3.rank)
  reducesTo_S32x262144x3_S_d0_1_2 : S32x262144x3.ReducesTo [0, 1, 2] S_
  h_S_ : 0 < S_.numel

variable [Facts]

def fn {F : FTy → Type} [FloatOps F] (main_arg0 : FVec F S32x262144x3 .f32) : IVec S_ 1 :=
  let main_v0 : FVec F S32x262144x3 .f32 := Host.absf main_arg0
  let main_cst : FVec F S_ .f32 := constant S_ .f32 0x7F800000#32
  let main_v1 : FVec F S32x262144x3 .f32 := broadcastInDim S32x262144x3 ![] bcast_S_S32x262144x3 main_cst
  let main_v2 : IVec S32x262144x3 1 := cmpf .olt main_v0 main_v1
  let main_c : IVec S_ 1 := constantI S_ 1 1#1
  let main_v3 : IVec S_ 1 := (fun x v => Host.reduce IntOp.andi x v reducesTo_S32x262144x3_S_d0_1_2 h_S_) main_v2 main_c
  main_v3
-- ==== Kernel.lean ====
abbrev S32x262144x3 : Shape := ⟨3, ![32, 262144, 3]⟩
abbrev S32x3x262144 : Shape := ⟨3, ![32, 3, 262144]⟩
abbrev S1x3x65536 : Shape := ⟨3, ![1, 3, 65536]⟩
abbrev S32x1x262144 : Shape := ⟨3, ![32, 1, 262144]⟩
abbrev S32x262144 : Shape := ⟨2, ![32, 262144]⟩
abbrev S_ : Shape := ⟨0, ![]⟩
abbrev S32x262144x1 : Shape := ⟨3, ![32, 262144, 1]⟩
abbrev S1 : Shape := ⟨1, ![1]⟩
abbrev S1x1x1 : Shape := ⟨3, ![1, 1, 1]⟩
abbrev S32x3x1 : Shape := ⟨3, ![32, 3, 1]⟩
abbrev S32x3x262143 : Shape := ⟨3, ![32, 3, 262143]⟩
abbrev S32x4x262144 : Shape := ⟨3, ![32, 4, 262144]⟩
abbrev S1x4x65536 : Shape := ⟨3, ![1, 4, 65536]⟩
abbrev S1x1x65536 : Shape := ⟨3, ![1, 1, 65536]⟩
abbrev S1x65536 : Shape := ⟨2, ![1, 65536]⟩
abbrev S32x262144x4 : Shape := ⟨3, ![32, 262144, 4]⟩
abbrev S32 : Shape := ⟨1, ![32]⟩

abbrev nBuf : Space → Nat
  | .hbm => 48
  | .vmem => 12
  | .smem => 0
  | _ => 0

abbrev bufTy : (tb : Table) → Fin (tcTables nBuf tb) → BufTy
  | .hbm, ⟨0, _⟩ => ⟨S32x262144x3, .f32⟩
  | .hbm, ⟨1, _⟩ => ⟨S32x3x262144, .f32⟩
  | .hbm, ⟨2, _⟩ => ⟨S32x3x262144, .i32⟩
  | .hbm, ⟨3, _⟩ => ⟨S32x1x262144, .i32⟩
  | .hbm, ⟨4, _⟩ => ⟨S32x262144, .i32⟩
  | .hbm, ⟨5, _⟩ => ⟨S32x1x262144, .i32⟩
  | .hbm, ⟨6, _⟩ => ⟨S32x262144, .i32⟩
  | .hbm, ⟨7, _⟩ => ⟨S32x1x262144, .i32⟩
  | .hbm, ⟨8, _⟩ => ⟨S32x262144, .i32⟩
  | .hbm, ⟨9, _⟩ => ⟨S32x262144, .i32⟩
  | .hbm, ⟨10, _⟩ => ⟨S32x262144, .i32⟩
  | .hbm, ⟨11, _⟩ => ⟨S32x262144, .i32⟩
  | .hbm, ⟨12, _⟩ => ⟨S32x262144, .i32⟩
  | .hbm, ⟨13, _⟩ => ⟨S32x262144, .i32⟩
  | .hbm, ⟨14, _⟩ => ⟨S32x1x262144, .i32⟩
  | .hbm, ⟨15, _⟩ => ⟨S_, .i32⟩
  | .hbm, ⟨16, _⟩ => ⟨S32x1x262144, .i32⟩
  | .hbm, ⟨17, _⟩ => ⟨S32x1x262144, .i1⟩
  | .hbm, ⟨18, _⟩ => ⟨S_, .i32⟩
  | .hbm, ⟨19, _⟩ => ⟨S32x1x262144, .i32⟩
  | .hbm, ⟨20, _⟩ => ⟨S32x1x262144, .i32⟩
  | .hbm, ⟨21, _⟩ => ⟨S32x1x262144, .i32⟩
  | .hbm, ⟨22, _⟩ => ⟨S32x262144x1, .i32⟩
  | .hbm, ⟨23, _⟩ => ⟨S1, .i32⟩
  | .hbm, ⟨24, _⟩ => ⟨S_, .i32⟩
  | .hbm, ⟨25, _⟩ => ⟨S32x262144x1, .i32⟩
  | .hbm, ⟨26, _⟩ => ⟨S32x262144x1, .i1⟩
  | .hbm, ⟨27, _⟩ => ⟨S1x1x1, .i32⟩
  | .hbm, ⟨28, _⟩ => ⟨S32x262144x1, .i32⟩
  | .hbm, ⟨29, _⟩ => ⟨S32x262144x1, .i1⟩
  | .hbm, ⟨30, _⟩ => ⟨S32x262144x1, .i1⟩
  | .hbm, ⟨31, _⟩ => ⟨S_, .i1⟩
  | .hbm, ⟨32, _⟩ => ⟨S32x262144, .i1⟩
  | .hbm, ⟨33, _⟩ => ⟨S32x3x262144, .i32⟩
  | .hbm, ⟨34, _⟩ => ⟨S32x3x262144, .i1⟩
  | .hbm, ⟨35, _⟩ => ⟨S_, .i32⟩
  | .hbm, ⟨36, _⟩ => ⟨S32x3x262144, .i32⟩
  | .hbm, ⟨37, _⟩ => ⟨S32x3x262144, .i32⟩
  | .hbm, ⟨38, _⟩ => ⟨S32x3x1, .i32⟩
  | .hbm, ⟨39, _⟩ => ⟨S32x3x262143, .i32⟩
  | .hbm, ⟨40, _⟩ => ⟨S32x3x262144, .i32⟩
  | .hbm, ⟨41, _⟩ => ⟨S32x4x262144, .i32⟩
  | .hbm, ⟨42, _⟩ => ⟨S32x1x262144, .f32⟩
  | .hbm, ⟨43, _⟩ => ⟨S32x262144x4, .i32⟩
  | .hbm, ⟨44, _⟩ => ⟨S32x262144x1, .f32⟩
  | .hbm, ⟨45, _⟩ => ⟨S_, .f32⟩
  | .hbm, ⟨46, _⟩ => ⟨S32, .f32⟩
  | .hbm, ⟨47, _⟩ => ⟨S32, .i32⟩
  | .local _ .vmem, ⟨0, _⟩ => ⟨S1x3x65536, .f32⟩
  | .local _ .vmem, ⟨1, _⟩ => ⟨S1x3x65536, .f32⟩
  | .local _ .vmem, ⟨2, _⟩ => ⟨S1x3x65536, .i32⟩
  | .local _ .vmem, ⟨3, _⟩ => ⟨S1x3x65536, .i32⟩
  | .local _ .vmem, ⟨4, _⟩ => ⟨S1x3x65536, .i32⟩
  | .local _ .vmem, ⟨5, _⟩ => ⟨S1x3x65536, .i32⟩
  | .local _ .vmem, ⟨6, _⟩ => ⟨S1x3x65536, .i32⟩
  | .local _ .vmem, ⟨7, _⟩ => ⟨S1x3x65536, .i32⟩
  | .local _ .vmem, ⟨8, _⟩ => ⟨S1x4x65536, .i32⟩
  | .local _ .vmem, ⟨9, _⟩ => ⟨S1x4x65536, .i32⟩
  | .local _ .vmem, ⟨10, _⟩ => ⟨S1x1x65536, .f32⟩
  | .local _ .vmem, ⟨11, _⟩ => ⟨S1x1x65536, .f32⟩
  | _, _ => ⟨S32x262144x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_call0_v0 : Ref sig .tc := ⟨.hbm, 9, rfl⟩
abbrev main_call0_v1_0 : Ref sig .tc := ⟨.hbm, 10, rfl⟩
abbrev main_call0_v1_1 : Ref sig .tc := ⟨.hbm, 11, rfl⟩
abbrev main_call0_v1_2 : Ref sig .tc := ⟨.hbm, 12, rfl⟩
abbrev main_v8 : Ref sig .tc := ⟨.hbm, 13, rfl⟩
abbrev main_v9 : Ref sig .tc := ⟨.hbm, 14, rfl⟩
abbrev main_call1_c : Ref sig .tc := ⟨.hbm, 15, rfl⟩
abbrev main_call1_v0 : Ref sig .tc := ⟨.hbm, 16, rfl⟩
abbrev main_call1_v1 : Ref sig .tc := ⟨.hbm, 17, rfl⟩
abbrev main_call1_c_0 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_call1_v5 : Ref sig .tc := ⟨.hbm, 22, rfl⟩
abbrev main_call1_c_1 : Ref sig .tc := ⟨.hbm, 23, rfl⟩
abbrev main_call1_c_2 : Ref sig .tc := ⟨.hbm, 24, rfl⟩
abbrev main_call1_v6 : Ref sig .tc := ⟨.hbm, 25, rfl⟩
abbrev main_call1_v7 : Ref sig .tc := ⟨.hbm, 26, rfl⟩
abbrev main_call1_v8 : Ref sig .tc := ⟨.hbm, 27, rfl⟩
abbrev main_call1_v9 : Ref sig .tc := ⟨.hbm, 28, rfl⟩
abbrev main_call1_v10 : Ref sig .tc := ⟨.hbm, 29, rfl⟩
abbrev main_call1_v11 : Ref sig .tc := ⟨.hbm, 30, rfl⟩
abbrev main_call1_c_3 : Ref sig .tc := ⟨.hbm, 31, rfl⟩
abbrev main_call1_v12 : Ref sig .tc := ⟨.hbm, 32, rfl⟩
abbrev main_call1_v13 : Ref sig .tc := ⟨.hbm, 33, rfl⟩
abbrev main_call1_v14 : Ref sig .tc := ⟨.hbm, 34, rfl⟩
abbrev main_call1_c_4 : Ref sig .tc := ⟨.hbm, 35, rfl⟩
abbrev main_call1_v15 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14_0 : Ref sig .tc := ⟨.hbm, 41, rfl⟩
abbrev main_v14_1 : Ref sig .tc := ⟨.hbm, 42, rfl⟩
abbrev main_v15 : Ref sig .tc := ⟨.hbm, 43, rfl⟩
abbrev main_v16 : Ref sig .tc := ⟨.hbm, 44, rfl⟩
abbrev main_cst : Ref sig .tc := ⟨.hbm, 45, rfl⟩
abbrev main_v17 : Ref sig .tc := ⟨.hbm, 46, rfl⟩
abbrev main_v18 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x3x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x65536 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![32, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x3x65536 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x3x65536 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x4x65536 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x65536 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  transposes_S32x262144x3_S32x3x262144_0_2_1 : S32x262144x3.Transposes [0, 2, 1] S32x3x262144
  inb_S1x3x65536_S1x3x65536_0_0_0 : ∀ a, (![0, 0, 0] : Fin 3 → Nat) a + S1x3x65536.size a ≤ S1x3x65536.size a
  h_S1x3x65536 : 0 < S1x3x65536.numel
  shapeCasts_S1x3x65536_S1x3x65536 : S1x3x65536.ShapeCasts S1x3x65536
  slices_S32x3x262144_S32x1x262144_0_2_0 : S32x3x262144.Slices ![0, 2, 0] S32x1x262144
  shapeCasts_S32x1x262144_S32x262144 : S32x1x262144.ShapeCasts S32x262144
  slices_S32x3x262144_S32x1x262144_0_1_0 : S32x3x262144.Slices ![0, 1, 0] S32x1x262144
  slices_S32x3x262144_S32x1x262144_0_0_0 : S32x3x262144.Slices ![0, 0, 0] S32x1x262144
  bcast_S32x262144_S32x1x262144_0_2 : S32x262144.BroadcastsInDim S32x1x262144 (![0, 2] : Fin 2 → Fin S32x1x262144.rank)
  bcast_S_S32x1x262144 : S_.BroadcastsInDim S32x1x262144 (![] : Fin 0 → Fin S32x1x262144.rank)
  shapeCasts_S32x1x262144_S32x262144x1 : S32x1x262144.ShapeCasts S32x262144x1
  bcast_S_S32x262144x1 : S_.BroadcastsInDim S32x262144x1 (![] : Fin 0 → Fin S32x262144x1.rank)
  bcast_S1_S1x1x1_2 : S1.BroadcastsInDim S1x1x1 (![2] : Fin 1 → Fin S1x1x1.rank)
  bcast_S1x1x1_S32x262144x1_0_1_2 : S1x1x1.BroadcastsInDim S32x262144x1 (![0, 1, 2] : Fin 3 → Fin S32x262144x1.rank)
  reducesTo_S32x262144x1_S32x262144_d2 : S32x262144x1.ReducesTo [2] S32x262144
  h_S_ : 0 < S_.numel
  bcast_S32x262144_S32x3x262144_0_2 : S32x262144.BroadcastsInDim S32x3x262144 (![0, 2] : Fin 2 → Fin S32x3x262144.rank)
  bcast_S_S32x3x262144 : S_.BroadcastsInDim S32x3x262144 (![] : Fin 0 → Fin S32x3x262144.rank)
  slices_S32x3x262144_S32x3x1_0_0_0 : S32x3x262144.Slices ![0, 0, 0] S32x3x1
  slices_S32x3x262144_S32x3x262143_0_0_0 : S32x3x262144.Slices ![0, 0, 0] S32x3x262143
  concatenates_S32x3x1_S32x3x262143_S32x3x262144_d2 : Shape.Concatenates [S32x3x1, S32x3x262143] S32x3x262144 2
  slices_S1x3x65536_o0_0_0_S1x1x65536 : S1x3x65536.Slices ![0, 0, 0] S1x1x65536
  shapeCasts_S1x1x65536_S1x65536 : S1x1x65536.ShapeCasts S1x65536
  slices_S1x3x65536_o0_1_0_S1x1x65536 : S1x3x65536.Slices ![0, 1, 0] S1x1x65536
  slices_S1x3x65536_o0_2_0_S1x1x65536 : S1x3x65536.Slices ![0, 2, 0] S1x1x65536
  iota_S1x65536_d1_w32 : S1x65536.Iotas .tc 32 [1]
  concatenates_S1x1x65536_S1x3x65536_S1x4x65536_d1 : Shape.Concatenates [S1x1x65536, S1x3x65536] S1x4x65536 1
  inb_S1x4x65536_S1x4x65536_0_0_0 : ∀ a, (![0, 0, 0] : Fin 3 → Nat) a + S1x4x65536.size a ≤ S1x4x65536.size a
  h_S1x4x65536 : 0 < S1x4x65536.numel
  shapeCasts_S1x65536_S1x1x65536 : S1x65536.ShapeCasts S1x1x65536
  natLt_1_32 : 1 < 32
  inb_S1x1x65536_S1x1x65536_0_0_0 : ∀ a, (![0, 0, 0] : Fin 3 → Nat) a + S1x1x65536.size a ≤ S1x1x65536.size a
  h_S1x1x65536 : 0 < S1x1x65536.numel
  transposes_S32x4x262144_S32x262144x4_0_2_1 : S32x4x262144.Transposes [0, 2, 1] S32x262144x4
  transposes_S32x1x262144_S32x262144x1_0_2_1 : S32x1x262144.Transposes [0, 2, 1] S32x262144x1
  reducesTo_S32x1x262144_S32_d1_2 : S32x1x262144.ReducesTo [1, 2] S32
  gather_S32x3x262144_S32x262144x1_S32x3x262144_1_2_0_0_2_2_131_wf : GatherDims.WF S32x3x262144 S32x262144x1 S32x3x262144 [1] [2] [0] [2] [0] 2 ![1, 3, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x65536.size a ≤ S32x3x262144.size a
  hwx0_0 : ∀ i : grid0.Coords, EltTy.bits .f32 = 32 ∨ (Rect.block (s := S32x3x262144) S1x3x65536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x65536.size a ≤ S32x3x262144.size a
  hwx0_1 : ∀ i : grid0.Coords, EltTy.bits .i32 = 32 ∨ (Rect.block (s := S32x3x262144) S1x3x65536.size (cc0_transform_1 i) (hinb0_1 i)).WholeWords (EltTy.packing .i32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x3x65536.size a ≤ S32x3x262144.size a
  hwx1_0 : ∀ i : grid1.Coords, EltTy.bits .i32 = 32 ∨ (Rect.block (s := S32x3x262144) S1x3x65536.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x3x65536.size a ≤ S32x3x262144.size a
  hwx1_1 : ∀ i : grid1.Coords, EltTy.bits .i32 = 32 ∨ (Rect.block (s := S32x3x262144) S1x3x65536.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4x65536.size a ≤ S32x4x262144.size a
  hwx1_2 : ∀ i : grid1.Coords, EltTy.bits .i32 = 32 ∨ (Rect.block (s := S32x4x262144) S1x4x65536.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x65536.size a ≤ S32x1x262144.size a
  hwx1_3 : ∀ i : grid1.Coords, EltTy.bits .f32 = 32 ∨ (Rect.block (s := S32x1x262144) S1x1x65536.size (cc1_transform_3 i) (hinb1_3 i)).WholeWords (EltTy.packing .f32)

variable [Facts₀]

def comparator_i32_i32_i32_i32_d1 : BitVec 32 × BitVec 32 × BitVec 32 × BitVec 32 → BitVec 32 × BitVec 32 × BitVec 32 × BitVec 32 → BitVec 1 :=
  fun l r =>
    let v2 := IntOp.cmpi .slt l.2.2.1 r.2.2.1
    let v3 := IntOp.cmpi .slt l.2.1 r.2.1
    let v4 := IntOp.cmpi .eq l.2.1 r.2.1
    let v5 := IntOp.andi v4 v2
    let v6 := IntOp.ori v3 v5
    let v7 := IntOp.cmpi .slt l.1 r.1
    let v8 := IntOp.cmpi .eq l.1 r.1
    let v9 := IntOp.andi v8 v6
    let v10 := IntOp.ori v7 v9
    v10
def gather_S32x3x262144_S32x262144x1_S32x3x262144_1_2_0_0_2_2_131 : GatherDims S32x3x262144 S32x262144x1 S32x3x262144 where
  offsetDims := [1]
  collapsedSliceDims := [2]
  operandBatchingDims := [0]
  startIndicesBatchingDims := [0]
  startIndexMap := [2]
  indexVectorDim := 2
  sliceSizes := ![1, 3, 1]
  wf := gather_S32x3x262144_S32x262144x1_S32x3x262144_1_2_0_0_2_2_131_wf

abbrev win0_0 : Pipeline.Window sig grid0 :=
  Pipeline.Window.ofSpec (Memref.whole main_v0) S1x3x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x3x65536.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v10) S1x3x65536.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S1x3x65536.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14_0) S1x4x65536.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14_1) S1x1x65536.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S32x262144x3 : Shape := ⟨3, ![32, 262144, 3]⟩
abbrev S_ : Shape := ⟨0, ![]⟩
abbrev S32x262144x1 : Shape := ⟨3, ![32, 262144, 1]⟩
abbrev S32x262144 : Shape := ⟨2, ![32, 262144]⟩
abbrev S1 : Shape := ⟨1, ![1]⟩
abbrev S1x1x1 : Shape := ⟨3, ![1, 1, 1]⟩
abbrev S32x262143x3 : Shape := ⟨3, ![32, 262143, 3]⟩
abbrev S32x262143 : Shape := ⟨2, ![32, 262143]⟩
abbrev S32x1 : Shape := ⟨2, ![32, 1]⟩
abbrev S32 : Shape := ⟨1, ![32]⟩
abbrev S32x1x1 : Shape := ⟨3, ![32, 1, 1]⟩
abbrev S32x262144x4 : Shape := ⟨3, ![32, 262144, 4]⟩

abbrev nBuf : Space → Nat
  | .hbm => 57
  | .vmem => 0
  | .smem => 0
  | _ => 0

abbrev bufTy : (tb : Table) → Fin (tcTables nBuf tb) → BufTy
  | .hbm, ⟨0, _⟩ => ⟨S32x262144x3, .f32⟩
  | .hbm, ⟨1, _⟩ => ⟨S_, .f32⟩
  | .hbm, ⟨2, _⟩ => ⟨S32x262144x3, .f32⟩
  | .hbm, ⟨3, _⟩ => ⟨S32x262144x3, .f32⟩
  | .hbm, ⟨4, _⟩ => ⟨S32x262144x3, .f32⟩
  | .hbm, ⟨5, _⟩ => ⟨S32x262144x3, .i32⟩
  | .hbm, ⟨6, _⟩ => ⟨S32x262144x1, .i32⟩
  | .hbm, ⟨7, _⟩ => ⟨S32x262144, .i32⟩
  | .hbm, ⟨8, _⟩ => ⟨S32x262144x1, .i32⟩
  | .hbm, ⟨9, _⟩ => ⟨S32x262144, .i32⟩
  | .hbm, ⟨10, _⟩ => ⟨S32x262144x1, .i32⟩
  | .hbm, ⟨11, _⟩ => ⟨S32x262144, .i32⟩
  | .hbm, ⟨12, _⟩ => ⟨S32x262144, .i32⟩
  | .hbm, ⟨13, _⟩ => ⟨S32x262144, .i32⟩
  | .hbm, ⟨14, _⟩ => ⟨S32x262144, .i32⟩
  | .hbm, ⟨15, _⟩ => ⟨S32x262144, .i32⟩
  | .hbm, ⟨16, _⟩ => ⟨S32x262144, .i32⟩
  | .hbm, ⟨17, _⟩ => ⟨S32x262144x1, .i32⟩
  | .hbm, ⟨18, _⟩ => ⟨S_, .i32⟩
  | .hbm, ⟨19, _⟩ => ⟨S32x262144x1, .i32⟩
  | .hbm, ⟨20, _⟩ => ⟨S32x262144x1, .i1⟩
  | .hbm, ⟨21, _⟩ => ⟨S_, .i32⟩
  | .hbm, ⟨22, _⟩ => ⟨S32x262144x1, .i32⟩
  | .hbm, ⟨23, _⟩ => ⟨S32x262144x1, .i32⟩
  | .hbm, ⟨24, _⟩ => ⟨S32x262144x1, .i32⟩
  | .hbm, ⟨25, _⟩ => ⟨S1, .i32⟩
  | .hbm, ⟨26, _⟩ => ⟨S_, .i32⟩
  | .hbm, ⟨27, _⟩ => ⟨S32x262144x1, .i32⟩
  | .hbm, ⟨28, _⟩ => ⟨S32x262144x1, .i1⟩
  | .hbm, ⟨29, _⟩ => ⟨S1x1x1, .i32⟩
  | .hbm, ⟨30, _⟩ => ⟨S32x262144x1, .i32⟩
  | .hbm, ⟨31, _⟩ => ⟨S32x262144x1, .i1⟩
  | .hbm, ⟨32, _⟩ => ⟨S32x262144x1, .i1⟩
  | .hbm, ⟨33, _⟩ => ⟨S_, .i1⟩
  | .hbm, ⟨34, _⟩ => ⟨S32x262144, .i1⟩
  | .hbm, ⟨35, _⟩ => ⟨S32x262144x3, .i32⟩
  | .hbm, ⟨36, _⟩ => ⟨S32x262144x3, .i1⟩
  | .hbm, ⟨37, _⟩ => ⟨S_, .i32⟩
  | .hbm, ⟨38, _⟩ => ⟨S32x262144x3, .i32⟩
  | .hbm, ⟨39, _⟩ => ⟨S32x262144x3, .i32⟩
  | .hbm, ⟨40, _⟩ => ⟨S32x262143x3, .i32⟩
  | .hbm, ⟨41, _⟩ => ⟨S32x262143x3, .i32⟩
  | .hbm, ⟨42, _⟩ => ⟨S32x262143x3, .i1⟩
  | .hbm, ⟨43, _⟩ => ⟨S_, .i1⟩
  | .hbm, ⟨44, _⟩ => ⟨S32x262143, .i1⟩
  | .hbm, ⟨45, _⟩ => ⟨S_, .i1⟩
  | .hbm, ⟨46, _⟩ => ⟨S32x1, .i1⟩
  | .hbm, ⟨47, _⟩ => ⟨S32x262144, .i1⟩
  | .hbm, ⟨48, _⟩ => ⟨S32, .i32⟩
  | .hbm, ⟨49, _⟩ => ⟨S32x1x1, .i32⟩
  | .hbm, ⟨50, _⟩ => ⟨S32x262144x1, .i32⟩
  | .hbm, ⟨51, _⟩ => ⟨S32x262144x4, .i32⟩
  | .hbm, ⟨52, _⟩ => ⟨S32x262144x1, .i1⟩
  | .hbm, ⟨53, _⟩ => ⟨S32x262144x1, .f32⟩
  | .hbm, ⟨54, _⟩ => ⟨S32x262144, .i32⟩
  | .hbm, ⟨55, _⟩ => ⟨S_, .i32⟩
  | .hbm, ⟨56, _⟩ => ⟨S32, .i32⟩
  | _, _ => ⟨S32x262144x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_call0_v0 : Ref sig .tc := ⟨.hbm, 12, rfl⟩
abbrev main_call0_v1_0 : Ref sig .tc := ⟨.hbm, 13, rfl⟩
abbrev main_call0_v1_1 : Ref sig .tc := ⟨.hbm, 14, rfl⟩
abbrev main_call0_v1_2 : Ref sig .tc := ⟨.hbm, 15, rfl⟩
abbrev main_v10 : Ref sig .tc := ⟨.hbm, 16, rfl⟩
abbrev main_v11 : Ref sig .tc := ⟨.hbm, 17, rfl⟩
abbrev main_call1_c : Ref sig .tc := ⟨.hbm, 18, rfl⟩
abbrev main_call1_v0 : Ref sig .tc := ⟨.hbm, 19, rfl⟩
abbrev main_call1_v1 : Ref sig .tc := ⟨.hbm, 20, rfl⟩
abbrev main_call1_c_0 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_c_1 : Ref sig .tc := ⟨.hbm, 25, rfl⟩
abbrev main_call1_c_2 : Ref sig .tc := ⟨.hbm, 26, rfl⟩
abbrev main_call1_v5 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_call1_c_3 : Ref sig .tc := ⟨.hbm, 33, rfl⟩
abbrev main_call1_v11 : Ref sig .tc := ⟨.hbm, 34, rfl⟩
abbrev main_call1_v12 : Ref sig .tc := ⟨.hbm, 35, rfl⟩
abbrev main_call1_v13 : Ref sig .tc := ⟨.hbm, 36, rfl⟩
abbrev main_call1_c_4 : Ref sig .tc := ⟨.hbm, 37, rfl⟩
abbrev main_call1_v14 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_c : Ref sig .tc := ⟨.hbm, 43, rfl⟩
abbrev main_v16 : Ref sig .tc := ⟨.hbm, 44, rfl⟩
abbrev main_c_0 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_c_1 : Ref sig .tc := ⟨.hbm, 55, rfl⟩
abbrev main_v26 : Ref sig .tc := ⟨.hbm, 56, rfl⟩

abbrev nD : Nat := 1
abbrev τ : Topo := Topo.v7x

variable {F : FTy → Type} [FloatOps F]

class Facts₀ : Prop where
  bcast_S_S32x262144x3 : S_.BroadcastsInDim S32x262144x3 (![] : Fin 0 → Fin S32x262144x3.rank)
  slices_S32x262144x3_S32x262144x1_0_0_2 : S32x262144x3.Slices ![0, 0, 2] S32x262144x1
  shapeCasts_S32x262144x1_S32x262144 : S32x262144x1.ShapeCasts S32x262144
  slices_S32x262144x3_S32x262144x1_0_0_1 : S32x262144x3.Slices ![0, 0, 1] S32x262144x1
  slices_S32x262144x3_S32x262144x1_0_0_0 : S32x262144x3.Slices ![0, 0, 0] S32x262144x1
  bcast_S32x262144_S32x262144x1_0_1 : S32x262144.BroadcastsInDim S32x262144x1 (![0, 1] : Fin 2 → Fin S32x262144x1.rank)
  bcast_S_S32x262144x1 : S_.BroadcastsInDim S32x262144x1 (![] : Fin 0 → Fin S32x262144x1.rank)
  bcast_S1_S1x1x1_2 : S1.BroadcastsInDim S1x1x1 (![2] : Fin 1 → Fin S1x1x1.rank)
  bcast_S1x1x1_S32x262144x1_0_1_2 : S1x1x1.BroadcastsInDim S32x262144x1 (![0, 1, 2] : Fin 3 → Fin S32x262144x1.rank)
  reducesTo_S32x262144x1_S32x262144_d2 : S32x262144x1.ReducesTo [2] S32x262144
  h_S_ : 0 < S_.numel
  bcast_S32x262144_S32x262144x3_0_1 : S32x262144.BroadcastsInDim S32x262144x3 (![0, 1] : Fin 2 → Fin S32x262144x3.rank)
  slices_S32x262144x3_S32x262143x3_0_1_0 : S32x262144x3.Slices ![0, 1, 0] S32x262143x3
  slices_S32x262144x3_S32x262143x3_0_0_0 : S32x262144x3.Slices ![0, 0, 0] S32x262143x3
  reducesTo_S32x262143x3_S32x262143_d2 : S32x262143x3.ReducesTo [2] S32x262143
  bcast_S_S32x1 : S_.BroadcastsInDim S32x1 (![] : Fin 0 → Fin S32x1.rank)
  concatenates_S32x1_S32x262143_S32x262144_d1 : Shape.Concatenates [S32x1, S32x262143] S32x262144 1
  bcast_S32_S32x1x1_0 : S32.BroadcastsInDim S32x1x1 (![0] : Fin 1 → Fin S32x1x1.rank)
  bcast_S32x1x1_S32x262144x1_0_1_2 : S32x1x1.BroadcastsInDim S32x262144x1 (![0, 1, 2] : Fin 3 → Fin S32x262144x1.rank)
  concatenates_S32x262144x1_S32x262144x3_S32x262144x4_d2 : Shape.Concatenates [S32x262144x1, S32x262144x3] S32x262144x4 2
  natLt_1_32 : 1 < 32
  reducesTo_S32x262144_S32_d1 : S32x262144.ReducesTo [1] S32
  gather_S32x262144x3_S32x262144x1_S32x262144x3_2_1_0_0_1_2_113_wf : GatherDims.WF S32x262144x3 S32x262144x1 S32x262144x3 [2] [1] [0] [1] [0] 2 ![1, 1, 3]

variable [Facts₀]

def comparator_i32_i32_i32_i32_d1 : BitVec 32 × BitVec 32 × BitVec 32 × BitVec 32 → BitVec 32 × BitVec 32 × BitVec 32 × BitVec 32 → BitVec 1 :=
  fun l r =>
    let v2 := IntOp.cmpi .slt l.2.2.1 r.2.2.1
    let v3 := IntOp.cmpi .slt l.2.1 r.2.1
    let v4 := IntOp.cmpi .eq l.2.1 r.2.1
    let v5 := IntOp.andi v4 v2
    let v6 := IntOp.ori v3 v5
    let v7 := IntOp.cmpi .slt l.1 r.1
    let v8 := IntOp.cmpi .eq l.1 r.1
    let v9 := IntOp.andi v8 v6
    let v10 := IntOp.ori v7 v9
    v10
def gather_S32x262144x3_S32x262144x1_S32x262144x3_2_1_0_0_1_2_113 : GatherDims S32x262144x3 S32x262144x1 S32x262144x3 where
  offsetDims := [2]
  collapsedSliceDims := [1]
  operandBatchingDims := [0]
  startIndicesBatchingDims := [0]
  startIndexMap := [1]
  indexVectorDim := 2
  sliceSizes := ![1, 1, 3]
  wf := gather_S32x262144x3_S32x262144x1_S32x262144x3_2_1_0_0_1_2_113_wf

class Facts : Prop extends Facts₀ where

variable [Facts]
-- ==== Proof.Spec.lean ====
/-
  The specification: what both programs compute, as functions of the input array `x : [32, 262144, 3]` of extended
  reals, index by index. Nothing here mentions a program.

  A point `x[b, n, ·]` falls in the voxel `cell x b n k = ⌊x[b, n, k] / 0.01⌋` converted to a 32-bit integer (`vox`; the
  divisor is the binary value of the f32 literal, the same word in both programs). Within a batch `b` the points are put
  in the stable lexicographic order of their voxels (`order`: the argsort, a 32-bit position per rank). `sorted x b n k`
  is coordinate `k` of the voxel of rank `n`, read the way `take_along_axis` reads it (a negative position wraps once, a
  position outside `[0, 262144)` reads the fill word). The three results: `coords` (the batch number in front of the
  sorted voxel), `feature` (1 where a voxel differs from its predecessor in the sorted order, rank 0 always 1) and
  `count` (how many ranks of batch `b` have feature 1).
-/
import Idealize.ShloMosaic.PureOps.Ideal
import Idealize.ShloMosaic.Lib.ValueIdx

noncomputable section

namespace Cert.Spec

open Idealize.ShloMosaic Idealize.ShloMosaic.ValueIdx

/-- The shape of one key array: a voxel coordinate per batch and point. -/
abbrev SBN : Shape := ⟨2, ![32, 262144]⟩
/-- The shape of the input. -/
abbrev SBN3 : Shape := ⟨3, ![32, 262144, 3]⟩

/-- One coordinate's voxel number: `⌊x / 0.01⌋` (the divisor the f32 literal's binary value) as a 32-bit integer. -/
def vox (x : EReal) : BitVec 32 :=
  Ideal.fptosi 32 (Ideal.liftRound Int.floor (Ideal.div x (Ideal.ofBits .f32 0x3C23D70A#32)))

/-- Coordinate `k` of the voxel of point `n` of batch `b`. -/
def cell (x : SBN3.Idx → EReal) (b : Fin 32) (n : Fin 262144) (k : Fin 3) : BitVec 32 := vox (x (ix3 b n k))

/-- The key array of coordinate `k`. -/
def key (x : SBN3.Idx → EReal) (k : Fin 3) : IVec SBN 32 := fun j => cell x (j 0) (j 1) k

/-- The lexicographic comparison of two (key 0, key 1, key 2, position) tuples: strictly before on key 0, or equal
    there and strictly before on key 1, or equal on both and strictly before on key 2 (the position is not compared:
    the sort is stable). -/
def lexLt : BitVec 32 × BitVec 32 × BitVec 32 × BitVec 32 → BitVec 32 × BitVec 32 × BitVec 32 × BitVec 32 → BitVec 1 :=
  fun l r =>
    IntOp.ori (IntOp.cmpi .slt l.1 r.1)
      (IntOp.andi (IntOp.cmpi .eq l.1 r.1)
        (IntOp.ori (IntOp.cmpi .slt l.2.1 r.2.1) (IntOp.andi (IntOp.cmpi .eq l.2.1 r.2.1) (IntOp.cmpi .slt l.2.2.1 r.2.2.1))))

/-- The argsort: at `(b, n)` the position (as a 32-bit word) of the point of rank `n` in batch `b`. -/
def order (x : SBN3.Idx → EReal) : IVec SBN 32 :=
  (Host.sort4 SBN 1 lexLt (key x 0) (key x 1) (key x 2) (iotaInDim SBN 32 1)).2.2.2

/-- A negative position wraps once around the axis. -/
def wrap (i : BitVec 32) : BitVec 32 := Scalar.select (IntOp.cmpi .slt i 0#32) (IntOp.addi i 262144#32) i
/-- Whether a (wrapped) position lies on the axis. -/
def onAxis (i : BitVec 32) : BitVec 1 := IntOp.andi (IntOp.cmpi .sge i 0#32) (IntOp.cmpi .sle i 262143#32)
/-- The point a position reads: the position as a signed integer, clamped onto the axis. -/
def pick (i : BitVec 32) : Fin 262144 := ⟨min i.toInt.toNat 262143, by omega⟩

/-- The wrapped position of rank `n` in batch `b`. -/
def pos (x : SBN3.Idx → EReal) (b : Fin 32) (n : Fin 262144) : BitVec 32 := wrap (order x (ix2 b n))

/-- Coordinate `k` of the voxel of rank `n` in batch `b`: the fill word where the position is off the axis. -/
def sorted (x : SBN3.Idx → EReal) (b : Fin 32) (n : Fin 262144) (k : Fin 3) : BitVec 32 :=
  Scalar.select (onAxis (pos x b n)) (cell x b (pick (pos x b n)) k) 0x80000000#32

/-- The rank before `n` (rank 0 is its own predecessor). -/
def prevRank (n : Fin 262144) : Fin 262144 := ⟨n.val - 1, by omega⟩

/-- Whether the voxel of rank `n` differs from its predecessor's on coordinate `k`. -/
def differs (x : SBN3.Idx → EReal) (b : Fin 32) (n : Fin 262144) (k : Fin 3) : BitVec 1 :=
  IntOp.cmpi .ne (sorted x b n k) (sorted x b (prevRank n) k)

/-- Rank `n` is the first occurrence of its voxel: rank 0, or some coordinate differs from the predecessor's. -/
def first (x : SBN3.Idx → EReal) (b : Fin 32) (n : Fin 262144) : BitVec 1 :=
  if n.val = 0 then 1#1 else IntOp.ori (IntOp.ori (differs x b n 0) (differs x b n 1)) (differs x b n 2)

/-- Result 0 at `(b, n, j)`: the batch number for `j = 0`, else coordinate `j - 1` of the sorted voxel. -/
def coords (x : SBN3.Idx → EReal) (b : Fin 32) (n : Fin 262144) (j : Fin 4) : BitVec 32 :=
  if j.val = 0 then BitVec.ofNat 32 b.val else sorted x b n ⟨j.val - 1, by omega⟩

/-- Result 1 at `(b, n, 0)`: the first-occurrence bit as a real, 0 or 1. -/
def feature (x : SBN3.Idx → EReal) (b : Fin 32) (n : Fin 262144) : EReal := (((first x b n).toNat : ℝ) : EReal)

/-- Result 2 at `b`: the number of first occurrences in batch `b`. -/
def count (x : SBN3.Idx → EReal) (b : Fin 32) : BitVec 32 :=
  BitVec.ofNat 32 (Finset.univ.filter fun n : Fin 262144 => first x b n = 1#1).card

/-- The three result arrays. -/
def outCoords (x : SBN3.Idx → EReal) : IVec ⟨3, ![32, 262144, 4]⟩ 32 := fun j => coords x (j 0) (j 1) (j 2)
def outFeature (x : SBN3.Idx → EReal) : (⟨3, ![32, 262144, 1]⟩ : Shape).Idx → EReal := fun j => feature x (j 0) (j 1)
def outCount (x : SBN3.Idx → EReal) : IVec ⟨1, ![32]⟩ 32 := fun j => count x (j 0)

/-! ## The same data in the kernels' layout `[32, ·, 262144]` (the long axis last) -/

/-- The shape of the sorted voxels in the kernels' layout. -/
abbrev SB3N : Shape := ⟨3, ![32, 3, 262144]⟩

/-- What the second kernel stores as coordinates from the sorted voxels `cs` (layout `[32, 3, 262144]`): row 0 the batch
    number, rows 1 to 3 the voxel. -/
def coordsT (cs : SB3N.Idx → BitVec 32) : (⟨3, ![32, 4, 262144]⟩ : Shape).Idx → BitVec 32 :=
  fun j => if (j 1).val = 0 then BitVec.ofNat 32 (j 0).val
    else cs (ix3 (j 0) ⟨(j 1).val - 1, by have h : (j 1).val < 4 := (j 1).isLt; omega⟩ (j 2))

/-- The first-occurrence bit the second kernel computes from the sorted voxels `cs` and their copy `pv` shifted by one
    rank: some coordinate differs, or the rank is 0. -/
def firstT (cs pv : SB3N.Idx → BitVec 32) (b : Fin 32) (n : Fin 262144) : BitVec 1 :=
  IntOp.ori
    (IntOp.ori
      (IntOp.ori (IntOp.cmpi .ne (cs (ix3 b 0 n)) (pv (ix3 b 0 n))) (IntOp.cmpi .ne (cs (ix3 b 1 n)) (pv (ix3 b 1 n))))
      (IntOp.cmpi .ne (cs (ix3 b 2 n)) (pv (ix3 b 2 n))))
    (if n.val = 0 then 1#1 else 0#1)

/-- That bit as a real (0 or 1), in the layout `[32, 1, 262144]`. -/
def featT (cs pv : SB3N.Idx → BitVec 32) : (⟨3, ![32, 1, 262144]⟩ : Shape).Idx → EReal :=
  fun j => (((firstT cs pv (j 0) (j 2)).toNat : ℝ) : EReal)

end Cert.Spec

end
-- ==== Proof.KRun.lean ====
/- The idealized kernel's run, keeping every unscoped buffer: at the compiled mesh, from any memory with zero
   counters, every weakly fair execution of @main terminates, nothing faulting, and in every final state each unscoped
   TensorCore buffer holds the last segment boundary's contents `W9` (the fold of @main's host stretches and regions
   from the launch memory). The frame certificate states the same run for the argument alone; here the final read is
   kept for all buffers. -/
import proofs.«147239_j10746008174742_1_alg».proof.Proof.FrameKernelIdeal
import proofs.«147239_j10746008174742_1_alg».proof.Proof.Spec

set_option maxRecDepth 16384

noncomputable section

namespace Cert.KernelIdeal.KRun

open Cert.KernelIdeal Cert.KernelIdeal.Gen Cert.KernelIdeal.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

-- the launch lemma's implicit arguments are found by unifying its conclusion with this one, which takes unfolding
-- plain definitions in a metavariable's type
set_option backward.isDefEq.respectTransparency.types false in
/-- The run of the idealized @main with every unscoped buffer read at the end: the launch over @main's segments, the
    last thread state read against the final state, buffer by buffer. -/
theorem run_all (m : (ℓ : Loc nD τ sig) → Buf (Elt Ideal) ℓ) (ρ : Dev nD → PrngReg) :
    θ_run (defs (F := Ideal)) (onTc (τ := τ) (main (F := Ideal))) ⟨m, fun _ => 0, ρ⟩
      (fun r => ∀ c : Dev nD, ∀ b ∈ Pipeline.ucRefs τ sig, r.2.mem (((c : Thread nD τ)).1, b) = GenP.W9 m ρ c b) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

end Cert.KernelIdeal.KRun

end
-- ==== Proof.LibCountBits.lean ====
/-
  A float sum of 0/1 indicators, converted to a 32-bit integer, is the count of the ones (over the extended reals, where
  the sum is exact).

  `sum_bits`: the sum over a finite index type of one-bit words read as reals is the number of words equal to 1.
  `fptosi_natCast`: the conversion of a natural number below 2^31, as a real, to a 32-bit signed integer is that number.
  `fptosi_sum_bits`: the two together, for an index type of fewer than 2^31 elements.
-/
import Idealize.ShloMosaic.PureOps.Ideal

noncomputable section

namespace Cert.LibCountBits

open Idealize.ShloMosaic

/-- A one-bit word as a number is 1 exactly when the word is 1. -/
theorem toNat_bit (a : BitVec 1) : a.toNat = if a = 1#1 then 1 else 0 := by
  revert a; decide

/-- The coercion of naturals into the extended reals (through the reals) commutes with finite sums. -/
theorem ereal_sum_natCast {ι : Type} (s : Finset ι) (f : ι → ℕ) :
    (∑ i ∈ s, (((f i : ℕ) : ℝ) : EReal)) = (((∑ i ∈ s, f i : ℕ) : ℝ) : EReal) := by
  classical
  induction s using Finset.induction_on with
  | empty => simp
  | insert a s ha ih =>
    rw [Finset.sum_insert ha, Finset.sum_insert ha, ih, Nat.cast_add, EReal.coe_add]

/-- The sum of one-bit words read as reals is the number of words equal to 1. -/
theorem sum_bits {ι : Type} [Fintype ι] (p : ι → BitVec 1) :
    (∑ i, ((((p i).toNat : ℕ) : ℝ) : EReal)) = (((Finset.univ.filter fun i => p i = 1#1).card : ℝ) : EReal) := by
  classical
  rw [ereal_sum_natCast]
  congr 2
  simp only [toNat_bit]
  rw [Finset.sum_boole]
  simp

/-- A natural number below 2^31, as a real, converts to itself. -/
theorem fptosi_natCast (k : ℕ) (hk : k < 2 ^ 31) : Ideal.fptosi 32 (((k : ℝ)) : EReal) = BitVec.ofNat 32 k := by
  unfold Ideal.fptosi
  rw [Ideal.toIntClamped_coe, if_pos (Nat.cast_nonneg k), Int.floor_natCast]
  have hk' : ((k : ℕ) : ℤ) < 2 ^ 31 := by exact_mod_cast hk
  have e : max (-(((2 : ℕ) ^ (32 - 1) : ℕ) : ℤ)) (min ((((2 : ℕ) ^ (32 - 1) : ℕ) : ℤ) - 1) (k : ℤ)) = (k : ℤ) := by
    have h2 : (((2 : ℕ) ^ (32 - 1) : ℕ) : ℤ) = 2 ^ 31 := by norm_num
    rw [h2]
    have : (0 : ℤ) ≤ (k : ℤ) := Int.natCast_nonneg k
    omega
  rw [e, BitVec.ofInt_natCast]

/-- The conversion of a sum of indicators over fewer than 2^31 indices is the count of the ones. -/
theorem fptosi_sum_bits {ι : Type} [Fintype ι] (hι : Fintype.card ι < 2 ^ 31) (p : ι → BitVec 1) :
    Ideal.fptosi 32 (∑ i, ((((p i).toNat : ℕ) : ℝ) : EReal)) = BitVec.ofNat 32 (Finset.univ.filter fun i => p i = 1#1).card := by
  rw [sum_bits]
  exact fptosi_natCast _ (lt_of_le_of_lt (Finset.card_filter_le _ _) (by simpa using hι))

end Cert.LibCountBits

end
-- ==== Proof.SpecBridge.lean ====
/-
  From the kernels' layout to the results. Given the sorted voxels `cs` in the layout `[32, 3, 262144]` and their copy `pv`
  shifted by one rank (rank 0 kept), what the second kernel stores (`Cert.Spec.coordsT`, `Cert.Spec.featT`) is, read with the
  two last axes exchanged, the specification's `coords` and `feature`; and the float sum of the stored bits along the ranks,
  converted to a 32-bit integer, is `count`.

  The one point of mathematics: the kernel's bit is `(d0 ∨ d1 ∨ d2) ∨ (rank = 0)` with `dk` the comparison against the shifted
  copy. At rank 0 the shifted copy IS the sorted voxel, so every `dk` is 0 and the bit is 1; at a rank `n > 0` the last disjunct
  is 0 and the shifted copy holds rank `n - 1`: in both cases the specification's first-occurrence bit.
-/
import proofs.«147239_j10746008174742_1_alg».proof.Proof.Spec
import proofs.«147239_j10746008174742_1_alg».proof.Proof.LibCountBits

noncomputable section

namespace Cert.SpecBridge

open Idealize.ShloMosaic Idealize.ShloMosaic.ValueIdx Cert.Spec

/-- A word does not differ from itself. -/
theorem cmpi_ne_self (a : BitVec 32) : IntOp.cmpi .ne a a = 0#1 := by
  simp [IntOp.cmpi]

theorem ori_zero3_one : IntOp.ori (IntOp.ori (IntOp.ori 0#1 0#1) 0#1) 1#1 = 1#1 := by decide

theorem ori_zero_right (a : BitVec 1) : IntOp.ori a 0#1 = a := by
  revert a; decide

/-- Rank 0 is its own predecessor. -/
theorem prevRank_zero (n : Fin 262144) (hn : n.val = 0) : prevRank n = n := by
  apply Fin.ext
  show n.val - 1 = n.val
  omega

variable (x : SBN3.Idx → EReal) (cs pv : SB3N.Idx → BitVec 32)
  (hcs : ∀ (b : Fin 32) (k : Fin 3) (n : Fin 262144), cs (ix3 b k n) = sorted x b n k)
  (hpv : ∀ (b : Fin 32) (k : Fin 3) (n : Fin 262144), pv (ix3 b k n) = sorted x b (prevRank n) k)

include hcs hpv in
/-- The kernel's first-occurrence bit is the specification's. -/
theorem firstT_eq (b : Fin 32) (n : Fin 262144) : firstT cs pv b n = first x b n := by
  unfold firstT first
  rw [hcs, hcs, hcs, hpv, hpv, hpv]
  by_cases hn : n.val = 0
  · rw [if_pos hn, if_pos hn, prevRank_zero n hn, cmpi_ne_self, cmpi_ne_self, cmpi_ne_self]
    exact ori_zero3_one
  · rw [if_neg hn, if_neg hn, ori_zero_right]
    rfl

include hcs in
/-- The stored coordinates, read with the two last axes exchanged. -/
theorem coordsT_eq (b : Fin 32) (n : Fin 262144) (q : Fin 4) : coordsT cs (ix3 b q n) = coords x b n q := by
  unfold coordsT coords
  show (if q.val = 0 then BitVec.ofNat 32 b.val else cs (ix3 b _ n)) = _
  by_cases hq : q.val = 0
  · rw [if_pos hq, if_pos hq]
  · rw [if_neg hq, if_neg hq, hcs]

include hcs hpv in
/-- The stored bit as a real, read with the two last axes exchanged. -/
theorem featT_eq (b : Fin 32) (n : Fin 262144) : featT cs pv (ix3 b (0 : Fin 1) n) = feature x b n := by
  unfold featT feature
  show ((((firstT cs pv b n).toNat : ℕ) : ℝ) : EReal) = _
  rw [firstT_eq x cs pv hcs hpv]

include hcs hpv in
/-- The float sum of the stored bits along the ranks, converted to a 32-bit integer, is the count. -/
theorem count_eq (b : Fin 32) :
    Ideal.fptosi 32 (∑ n : Fin 262144, featT cs pv (ix3 b (0 : Fin 1) n)) = count x b := by
  unfold count
  rw [Finset.sum_congr rfl (fun n _ => featT_eq x cs pv hcs hpv b n)]
  unfold feature
  exact Cert.LibCountBits.fptosi_sum_bits (by simp) (fun n => first x b n)

end Cert.SpecBridge

end
-- ==== Proof.KHostEnds.lean ====
import proofs.«147239_j10746008174742_1_alg».proof.Proof.FrameKernelIdeal
import proofs.«147239_j10746008174742_1_alg».proof.Proof.Spec
import Idealize.ShloMosaic.Lib.ValueIdx
import Idealize.ShloMosaic.Lib.ValueLayout
import Idealize.ShloMosaic.Lib.IdealHost
import Idealize.ShloMosaic.PureOps.Ideal.Laws
import Idealize.ShloMosaic.PureOps.Reduce

/-! The first and the last host stretch of the idealized kernel's `@main`, read at an index.

  The first stretch is one transpose of the point array into the layout region 0 reads. The last stretch transposes
  region 1's two arrays into the returned layout, and counts: the feature array summed over its last two axes from
  the zero word, converted to a signed integer. Each array is read with the buffer contents before the stretch kept
  as opaque terms. -/

noncomputable section

namespace Cert.KernelIdeal.KHostEnds

open Cert.KernelIdeal Cert.KernelIdeal.Gen Cert.KernelIdeal.GenP Idealize.ShloMosaic.ValueIdx
open Idealize.ShloMosaic Idealize.ShloMosaic.TcCoe

variable (m : (ℓ : Loc nD τ sig) → Buf (Elt Ideal) ℓ) (ρ : Dev nD → PrngReg) (c : Dev nD)

/-- The first host stretch is one transpose of the argument: the entry array of region 0 at (b, k, n) is the
    argument at (b, n, k). -/
theorem v0_eq (b : Fin 32) (k : Fin 3) (n : Fin 262144) :
    (GenP.W1 (F := Ideal) m ρ c (Proc.devRef .tc main_v0) : S32x3x262144.Idx → EReal) (ix3 b k n)
      = (m ((c.tc : Thread nD τ).loc main_arg0) : S32x262144x3.Idx → EReal) (ix3 b n k) := by
  have e : (GenP.W1 (F := Ideal) m ρ c (Proc.devRef .tc main_v0) : S32x3x262144.Idx → EReal)
      = transpose S32x3x262144 [0, 2, 1] (m ((c.tc : Thread nD τ).loc main_arg0) : S32x262144x3.Idx → EReal) transposes_S32x262144x3_S32x3x262144_0_2_1 := by
    show StableHlo.after hostOps0 (GenP.W0 m ρ c) (Proc.devRef .tc main_v0) = _
    after_results
  rw [e]
  exact transpose_ix3_021_apply _ _ b k n

/-- The last host stretch transposes region 1's coordinate array: the returned array at (b, n, q) is region 1's
    at (b, q, n). -/
theorem v15_eq (b : Fin 32) (n : Fin 262144) (q : Fin 4) :
    (GenP.W9 (F := Ideal) m ρ c (Proc.devRef .tc main_v15) : S32x262144x4.Idx → BitVec 32) (ix3 b n q)
      = (GenP.W8 (F := Ideal) m ρ c (Proc.devRef .tc main_v14_0) : S32x4x262144.Idx → BitVec 32) (ix3 b q n) := by
  have e : (GenP.W9 (F := Ideal) m ρ c (Proc.devRef .tc main_v15) : S32x262144x4.Idx → BitVec 32)
      = transpose S32x262144x4 [0, 2, 1] (GenP.W8 (F := Ideal) m ρ c (Proc.devRef .tc main_v14_0) : S32x4x262144.Idx → BitVec 32) transposes_S32x4x262144_S32x262144x4_0_2_1 := by
    show StableHlo.after hostOps2 (GenP.W8 m ρ c) (Proc.devRef .tc main_v15) = _
    after_results
  rw [e]
  generalize (GenP.W8 (F := Ideal) m ρ c (Proc.devRef .tc main_v14_0) : S32x4x262144.Idx → BitVec 32) = X
  exact transpose_ix3_021_apply X _ b n q

/-- … and region 1's feature array likewise: the returned array at (b, n, 0) is region 1's at (b, 0, n). -/
theorem v16_eq (b : Fin 32) (n : Fin 262144) :
    (GenP.W9 (F := Ideal) m ρ c (Proc.devRef .tc main_v16) : S32x262144x1.Idx → EReal) (ix3 b n 0)
      = (GenP.W8 (F := Ideal) m ρ c (Proc.devRef .tc main_v14_1) : S32x1x262144.Idx → EReal) (ix3 b 0 n) := by
  have e : (GenP.W9 (F := Ideal) m ρ c (Proc.devRef .tc main_v16) : S32x262144x1.Idx → EReal)
      = transpose S32x262144x1 [0, 2, 1] (GenP.W8 (F := Ideal) m ρ c (Proc.devRef .tc main_v14_1) : S32x1x262144.Idx → EReal) transposes_S32x1x262144_S32x262144x1_0_2_1 := by
    show StableHlo.after hostOps2 (GenP.W8 m ρ c) (Proc.devRef .tc main_v16) = _
    after_results
  rw [e]
  generalize (GenP.W8 (F := Ideal) m ρ c (Proc.devRef .tc main_v14_1) : S32x1x262144.Idx → EReal) = X
  exact transpose_ix3_021_apply X _ b n 0

/-- The host's float sum over the last two axes of a [32, 1, 262144] array, at row `b`: the initial value plus the
    sum along the long axis. The indices that drop to `b` are exactly `(b, 0, n)`, `n` below 262144. -/
theorem hostReduceAdd_rows (h : (⟨3, ![32, 1, 262144]⟩ : Shape).ReducesTo [1, 2] ⟨1, ![32]⟩)
    (x : (⟨3, ![32, 1, 262144]⟩ : Shape).Idx → EReal) (init : EReal) (b : Fin 32) :
    Ideal.hostReduceAdd h x init (ix1 b) = init + ∑ n : Fin 262144, x (ix3 b (0 : Fin 1) n) := by
  unfold Ideal.hostReduceAdd
  refine congrArg (init + ·) ?_
  -- the dropped index keeps the first coordinate
  have hdrop : ∀ i : (⟨3, ![32, 1, 262144]⟩ : Shape).Idx, ((h.drop i (0 : Fin 1) : Fin 32) : Nat) = ((i (0 : Fin 3) : Fin 32) : Nat) :=
    fun i => Shape.ReducesTo.drop_apply_val_of_eq h i (0 : Fin 1) (0 : Fin 3)
  -- an index that drops to `b` is `(b, 0, its last coordinate)`
  have key : ∀ i : (⟨3, ![32, 1, 262144]⟩ : Shape).Idx, h.drop i = ix1 b → ix3 b (0 : Fin 1) (i (2 : Fin 3) : Fin 262144) = i := by
    intro i hi
    have h0 : ((i (0 : Fin 3) : Fin 32) : Nat) = b.val := (hdrop i).symm.trans (congrArg Fin.val (congrFun hi (0 : Fin 1)))
    funext a
    match a with
    | ⟨0, _⟩ => exact (Fin.ext h0).symm
    | ⟨1, _⟩ =>
      have h1 : ((i (1 : Fin 3) : Fin 1) : Nat) < 1 := (i (1 : Fin 3)).isLt
      exact Fin.ext (show (0 : Nat) = ((i (1 : Fin 3) : Fin 1) : Nat) by omega)
    | ⟨2, _⟩ => rfl
  refine Finset.sum_nbij' (fun i => (i (2 : Fin 3) : Fin 262144)) (fun n => ix3 b (0 : Fin 1) n) ?_ ?_ ?_ ?_ ?_
  · intro i _; exact Finset.mem_univ _
  · intro n _
    rw [Finset.mem_filter]; refine ⟨Finset.mem_univ _, ?_⟩
    funext a
    match a with
    | ⟨0, _⟩ => exact Fin.ext (hdrop _)
  · intro i hi
    rw [Finset.mem_filter] at hi
    exact key i hi.2
  · intro n _; rfl
  · intro i hi
    rw [Finset.mem_filter] at hi
    exact congrArg x (key i hi.2).symm

/-- The count: the last host stretch sums region 1's feature array over its last two axes from the zero word and
    converts the sum to a signed integer. -/
theorem v18_eq (b : Fin 32) :
    (GenP.W9 (F := Ideal) m ρ c (Proc.devRef .tc main_v18) : S32.Idx → BitVec 32) (ix1 b)
      = Ideal.fptosi 32 (∑ n : Fin 262144, (GenP.W8 (F := Ideal) m ρ c (Proc.devRef .tc main_v14_1) : S32x1x262144.Idx → EReal) (ix3 b 0 n)) := by
  have e : (GenP.W9 (F := Ideal) m ρ c (Proc.devRef .tc main_v18) : S32.Idx → BitVec 32)
      = fptosi (F := Ideal) 32 (Host.reduceAdd (GenP.W8 (F := Ideal) m ρ c (Proc.devRef .tc main_v14_1) : S32x1x262144.Idx → EReal)
          (constant (F := Ideal) S_ .f32 0x00000000#32) reducesTo_S32x1x262144_S32_d1_2 h_S_) := by
    show StableHlo.after hostOps2 (GenP.W8 m ρ c) (Proc.devRef .tc main_v18) = _
    after_results
  rw [e]
  generalize (GenP.W8 (F := Ideal) m ρ c (Proc.devRef .tc main_v14_1) : S32x1x262144.Idx → EReal) = X
  show Ideal.fptosi 32 (Ideal.hostReduceAdd reducesTo_S32x1x262144_S32_d1_2 X (Ideal.ofBits .f32 0x00000000#32) (ix1 b)) = _
  rw [hostReduceAdd_rows, Ideal.ofBits_zero_f32, zero_add]

end Cert.KernelIdeal.KHostEnds
-- ==== Proof.KRegion0.lean ====
/- Region 0 (the voxel kernel) as one whole-array function: after the region the array of voxel numbers holds, at
   every index, the voxel number of the transposed input at that index. Every grid point writes back its block of that one
   function, and the blocks tile the array. -/
import proofs.«147239_j10746008174742_1_alg».proof.Proof.FrameKernelIdeal
import proofs.«147239_j10746008174742_1_alg».proof.Proof.Spec
import Idealize.ShloMosaic.Lib.Pipeline.Value
import Idealize.ShloMosaic.Lib.ValueIdx

set_option maxRecDepth 16384

noncomputable section

namespace Cert.KernelIdeal.KRegion0

open Cert.KernelIdeal Cert.KernelIdeal.Gen Cert.KernelIdeal.GenP
open Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- The all-zero offset of a whole-block access. -/
theorem off_zero : (![0, 0, 0] : Fin 3 → Nat) = fun _ => 0 := funext fun a => by fin_cases a <;> rfl

/-- The body's stored value, element by element: the voxel number of the loaded element. -/
theorem pay_vox (x : Vec Ideal S1x3x65536 .f32) (y : S1x3x65536.Idx) :
    k0_pay1 (F := Ideal) x y = Cert.Spec.vox (x y) := by
  unfold k0_pay1
  rw [shapeCast_self]
  rfl

/-- The printed index maps over the grid: the input's block moves with the output's, and the output's block indices
    stay in range. -/
theorem idx_facts : ∀ t : Fin cfg0.N, win0_0.index t (0 : Fin 3) = win0_1.index t (0 : Fin 3)
    ∧ win0_0.index t (1 : Fin 3) = win0_1.index t (1 : Fin 3)
    ∧ win0_0.index t (2 : Fin 3) = win0_1.index t (2 : Fin 3)
    ∧ win0_1.index t (0 : Fin 3) ≤ 31 ∧ win0_1.index t (1 : Fin 3) = 0 ∧ win0_1.index t (2 : Fin 3) ≤ 3 :=
  (by decide +kernel : ∀ t : Fin grid0.N, _)

/-- Every block of the array is some point's. -/
theorem idx_onto : ∀ (q0 : Fin 32) (q2 : Fin 4), ∃ t : Fin cfg0.N, win0_1.index t = ![q0.val, 0, q2.val] :=
  (by decide +kernel : ∀ (q0 : Fin 32) (q2 : Fin 4), ∃ t : Fin grid0.N, win0_1.index t = ![q0.val, 0, q2.val])

/-- The array of voxel numbers as one function of the region's input array. -/
abbrev G0 (a0 : S32x3x262144.Idx → EReal) : S32x3x262144.Idx → BitVec 32 := fun j => Cert.Spec.vox (a0 j)

/-- What point `t` writes back is block `t` of `G0` of the input array as the region finds it. -/
theorem flushed_eq (c : Dev nD) (t : Fin cfg0.N) :
    (dat0 (V1 m ρ) c).flushed 1 t = ((cfg0.win 1).blk t).view.read (Elt Ideal) (G0 (V1 m ρ c main_v0)) := by
  show (cfg0.win 1).cut (grid0.coords t) ((dat0 (V1 m ρ) c).after 1 t) = _
  rw [after0_1]
  unfold out0_1
  rw [View.canon_unit_zero off_zero]
  simp only [View.ld_unit_zero (S := S1x3x65536) off_zero]
  obtain ⟨e0, e1, e2, e3, e4, e5⟩ := idx_facts t
  funext j
  show k0_pay1 (F := Ideal) (iblk0 (V1 m ρ) c 0 t) j = Cert.Spec.vox (V1 m ρ c main_v0 (((cfg0.win 1).blk t).view.emb j))
  rw [pay_vox]
  show Cert.Spec.vox (V1 m ρ c main_v0 (((cfg0.win 0).blk t).view.emb j)) = Cert.Spec.vox (V1 m ρ c main_v0 (((cfg0.win 1).blk t).view.emb j))
  have h0 : ((cfg0.win 0).blk t).view.emb j = ((cfg0.win 1).blk t).view.emb j := by
    funext a; apply Fin.ext
    match a with
    | ⟨0, _⟩ => show win0_0.index t (0 : Fin 3) * 1 + 1 * (j 0).val = win0_1.index t (0 : Fin 3) * 1 + 1 * (j 0).val; omega
    | ⟨1, _⟩ => show win0_0.index t (1 : Fin 3) * 3 + 1 * (j 1).val = win0_1.index t (1 : Fin 3) * 3 + 1 * (j 1).val; omega
    | ⟨2, _⟩ => show win0_0.index t (2 : Fin 3) * 65536 + 1 * (j 2).val = win0_1.index t (2 : Fin 3) * 65536 + 1 * (j 2).val; omega
  rw [h0]

/-- An index of the array is in point `t`'s block iff each coordinate is in the block's range on its axis. -/
theorem mem_blk (t : Fin cfg0.N) (i : S32x3x262144.Idx) :
    i ∈ ((cfg0.win 1).blk t).view.set ↔ ∀ a : Fin 3, win0_1.index t a * S1x3x65536.size a ≤ (i a).val ∧ (i a).val < win0_1.index t a * S1x3x65536.size a + S1x3x65536.size a := by
  show i ∈ ((View.whole main_v1).slice (win0_1.rect t)).set ↔ _
  rw [View.set_slice_whole, Rect.mem_set_unit]
  exact Iff.rfl

/-- The blocks tile the array: index `(b, k, n)` is in the block of the point with block indices `(b, 0, n / 65536)`. -/
theorem cover (i : S32x3x262144.Idx) : ∃ t : Fin cfg0.N, (cfg0.win 1).flush t = true ∧ i ∈ ((cfg0.win 1).blk t).view.set := by
  have hi0 : (i 0).val < 32 := (i 0).isLt
  have hi1 : (i 1).val < 3 := (i 1).isLt
  have hi2 : (i 2).val < 262144 := (i 2).isLt
  obtain ⟨t, ht⟩ := idx_onto ⟨(i 0).val, hi0⟩ ⟨(i 2).val / 65536, by omega⟩
  have q0 : win0_1.index t (0 : Fin 3) = (i 0).val := congrFun ht 0
  have q1 : win0_1.index t (1 : Fin 3) = 0 := congrFun ht 1
  have q2 : win0_1.index t (2 : Fin 3) = (i 2).val / 65536 := congrFun ht 2
  refine ⟨t, flush0_1 t, ?_⟩
  rw [mem_blk]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 3 ≤ (i 1).val ∧ (i 1).val < win0_1.index t (1 : Fin 3) * 3 + 3; omega
  | ⟨2, _⟩ => show win0_1.index t (2 : Fin 3) * 65536 ≤ (i 2).val ∧ (i 2).val < win0_1.index t (2 : Fin 3) * 65536 + 65536; omega

/-- The array the region leaves: `G0` of its input array. -/
theorem final (c : Dev nD) : (dat0 (V1 m ρ) c).arrAt 1 cfg0.N = G0 (V1 m ρ c main_v0) :=
  (dat0 (V1 m ρ) c).arrAt_eq_of_cover 1 (G0 (V1 m ρ c main_v0)) (fun t _ => flushed_eq m ρ c t) cover

/-- After region 0 the array of voxel numbers is, index by index, the voxel number of the region's input array (the
    transposed points, which the region does not write). -/
theorem vox_final (c : Dev nD) : (GenP.W2 m ρ c (Proc.devRef .tc main_v1) : S32x3x262144.Idx → BitVec 32)
    = fun j => Cert.Spec.vox ((GenP.W1 m ρ c (Proc.devRef .tc main_v0) : S32x3x262144.Idx → EReal) j) :=
  (W2_arr m ρ c 1).trans (final m ρ c)

end Cert.KernelIdeal.KRegion0

end
-- ==== Proof.KRegion1.lean ====
/- Region 1 (the de-duplication kernel) as whole-array functions: after the region the coordinate array holds the batch
   number in row 0 and the sorted voxels in rows 1 to 3, and the feature array holds the first-occurrence bit as a real.
   Every grid point writes back its block of those functions, and the blocks tile the arrays. -/
import proofs.«147239_j10746008174742_1_alg».proof.Proof.FrameKernelIdeal
import proofs.«147239_j10746008174742_1_alg».proof.Proof.Spec
import Idealize.ShloMosaic.Lib.Pipeline.Value
import Idealize.ShloMosaic.Lib.ValueIdx

set_option maxRecDepth 16384

noncomputable section

namespace Cert.KernelIdeal.KRegion1

open Cert.KernelIdeal Cert.KernelIdeal.Gen Cert.KernelIdeal.GenP
open Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- The all-zero offset of a whole-block access. -/
theorem off_zero : (![0, 0, 0] : Fin 3 → Nat) = fun _ => 0 := funext fun a => by fin_cases a <;> rfl

/-- The printed index maps over the grid: every window's block sits at (grid coordinate 0, 0, grid coordinate 1). -/
theorem idx_facts : ∀ t : Fin cfg1.N,
    (win1_0.index t (0 : Fin 3) = (grid1.coords t (0 : Fin 2)).val ∧ win1_0.index t (1 : Fin 3) = 0 ∧ win1_0.index t (2 : Fin 3) = (grid1.coords t (1 : Fin 2)).val)
    ∧ (win1_1.index t (0 : Fin 3) = (grid1.coords t (0 : Fin 2)).val ∧ win1_1.index t (1 : Fin 3) = 0 ∧ win1_1.index t (2 : Fin 3) = (grid1.coords t (1 : Fin 2)).val)
    ∧ (win1_2.index t (0 : Fin 3) = (grid1.coords t (0 : Fin 2)).val ∧ win1_2.index t (1 : Fin 3) = 0 ∧ win1_2.index t (2 : Fin 3) = (grid1.coords t (1 : Fin 2)).val)
    ∧ (win1_3.index t (0 : Fin 3) = (grid1.coords t (0 : Fin 2)).val ∧ win1_3.index t (1 : Fin 3) = 0 ∧ win1_3.index t (2 : Fin 3) = (grid1.coords t (1 : Fin 2)).val)
    ∧ (grid1.coords t (0 : Fin 2)).val ≤ 31 ∧ (grid1.coords t (1 : Fin 2)).val ≤ 3 :=
  (by decide +kernel : ∀ t : Fin grid1.N, _)

/-- Every block of the coordinate array is some point's. -/
theorem idx_onto2 : ∀ (q0 : Fin 32) (q2 : Fin 4), ∃ t : Fin cfg1.N, win1_2.index t = ![q0.val, 0, q2.val] :=
  (by decide +kernel : ∀ (q0 : Fin 32) (q2 : Fin 4), ∃ t : Fin grid1.N, win1_2.index t = ![q0.val, 0, q2.val])

/-- Every block of the feature array is some point's. -/
theorem idx_onto3 : ∀ (q0 : Fin 32) (q2 : Fin 4), ∃ t : Fin cfg1.N, win1_3.index t = ![q0.val, 0, q2.val] :=
  (by decide +kernel : ∀ (q0 : Fin 32) (q2 : Fin 4), ∃ t : Fin grid1.N, win1_3.index t = ![q0.val, 0, q2.val])

/-- The identity shape cast of a loaded block. -/
theorem pay1_eq (x : Vec Ideal S1x3x65536 .i32) : k1_pay1 (F := Ideal) x = x := by
  unfold k1_pay1
  exact shapeCast_self _ _

/-! ## The coordinate array -/

/-- The stored coordinates, element by element: row 0 the grid's batch coordinate, row `k + 1` row `k` of the loaded block. -/
theorem pay_coords (i : grid1.Coords) (x : Vec Ideal S1x3x65536 .i32) (y : S1x4x65536.Idx) :
    k1_pay2 (F := Ideal) i x y = if (y 1).val = 0 then BitVec.ofNat 32 (i 0).val
      else x (ix3 (n0 := 1) (n1 := 3) (n2 := 65536) (y 0) ⟨(y 1).val - 1, by have h : (y 1).val < 4 := (y 1).isLt; omega⟩ (y 2)) := by
  unfold k1_pay2
  rw [pay1_eq]
  have h1 : (y 1).val < 4 := (y 1).isLt
  by_cases h : (y 1).val = 0
  · rw [if_pos h]
    refine (concatenate_pair_apply_left (t := S1x4x65536) (s₁ := S1x1x65536) (s₂ := S1x3x65536) (1 : Fin 3) _ _ _ y rfl (ix3 (n0 := 1) (n1 := 1) (n2 := 65536) (y 0) ⟨0, by omega⟩ (y 2)) ?_).trans rfl
    intro b
    match b with
    | ⟨0, _⟩ => rfl
    | ⟨1, _⟩ => show 0 = (y 1).val; omega
    | ⟨2, _⟩ => rfl
  · rw [if_neg h]
    refine concatenate_pair_apply_right (t := S1x4x65536) (s₁ := S1x1x65536) (s₂ := S1x3x65536) (1 : Fin 3) _ _ _ y rfl rfl _ ?_ ?_
    · intro b hb
      match b with
      | ⟨0, _⟩ => rfl
      | ⟨1, _⟩ => exact absurd rfl hb
      | ⟨2, _⟩ => rfl
    · show (y 1).val - 1 + 1 = (y 1).val
      omega

/-- One stored coordinate against the array function, at a block element `y` sitting at array index `i`: given that the
    loaded block's rows are the array's rows at `i`'s batch and position, and that `i`'s batch is the grid's and its row is `y`'s. -/
theorem coords_point (cs : S32x3x262144.Idx → BitVec 32) (g : grid1.Coords) (x : Vec Ideal S1x3x65536 .i32)
    (y : S1x4x65536.Idx) (i : S32x4x262144.Idx)
    (hx : ∀ k : Fin 3, x (ix3 (n0 := 1) (n1 := 3) (n2 := 65536) (y 0) k (y 2))
      = cs (ix3 (n0 := 32) (n1 := 3) (n2 := 262144) (i 0) k (i 2)))
    (h0 : (i 0).val = (g 0).val) (h1 : (i 1).val = (y 1).val) :
    k1_pay2 (F := Ideal) g x y = Cert.Spec.coordsT cs i := by
  rw [pay_coords]
  unfold Cert.Spec.coordsT
  by_cases h : (y 1).val = 0
  · rw [if_pos h, if_pos (h1.trans h), h0]
  · rw [if_neg h, if_neg (by rw [h1]; exact h), hx]
    have hy1 : (y 1).val < 4 := (y 1).isLt
    have hi1 : (i 1).val < 4 := (i 1).isLt
    have hk : (⟨(y 1).val - 1, by omega⟩ : Fin 3) = ⟨(i 1).val - 1, by omega⟩ := Fin.ext (by show (y 1).val - 1 = (i 1).val - 1; rw [h1])
    exact congrArg (fun k : Fin 3 => cs (ix3 (n0 := 32) (n1 := 3) (n2 := 262144) (i 0) k (i 2))) hk

section Entry
-- the region's entry contents, as a parameter: nothing below looks inside them
variable (V : (c : Dev nD) → (b : Ref sig .tc) → Buf (Elt Ideal) ((c : Thread nD τ).loc b))

/-- What point `t` writes back to the coordinate array is block `t` of the coordinates of the sorted voxels as the region
    finds them. -/
theorem flushed2_eq (c : Dev nD) (t : Fin cfg1.N) :
    (dat1 V c).flushed 2 t = ((cfg1.win 2).blk t).view.read (Elt Ideal) (Cert.Spec.coordsT (V c main_v10)) := by
  show (cfg1.win 2).cut (grid1.coords t) ((dat1 V c).after 2 t) = _
  rw [after1_2]
  unfold out1_2
  rw [View.canon_unit_zero off_zero]
  simp only [View.ld_unit_zero (S := S1x3x65536) off_zero]
  obtain ⟨⟨a0, a1, a2⟩, -, ⟨c0, c1, c2⟩, -, g0, g1⟩ := idx_facts t
  funext j
  show k1_pay2 (F := Ideal) (grid1.coords t) (iblk1 V c 0 t) j
    = Cert.Spec.coordsT (V c main_v10) (((cfg1.win 2).blk t).view.emb j)
  have hj0 : (j 0).val < 1 := (j 0).isLt
  have hj1 : (j 1).val < 4 := (j 1).isLt
  have hj2 : (j 2).val < 65536 := (j 2).isLt
  refine coords_point (V c main_v10) (grid1.coords t) (iblk1 V c 0 t) j (((cfg1.win 2).blk t).view.emb j) ?_ ?_ ?_
  · intro k
    show V c main_v10 (((cfg1.win 0).blk t).view.emb _) = _
    refine congrArg (V c main_v10) ?_
    funext a; apply Fin.ext
    match a with
    | ⟨0, _⟩ =>
      show win1_0.index t (0 : Fin 3) * 1 + 1 * (j 0).val = win1_2.index t (0 : Fin 3) * 1 + 1 * (j 0).val
      omega
    | ⟨1, _⟩ =>
      show win1_0.index t (1 : Fin 3) * 3 + 1 * k.val = k.val
      omega
    | ⟨2, _⟩ =>
      show win1_0.index t (2 : Fin 3) * 65536 + 1 * (j 2).val = win1_2.index t (2 : Fin 3) * 65536 + 1 * (j 2).val
      omega
  · show win1_2.index t (0 : Fin 3) * 1 + 1 * (j 0).val = (grid1.coords t (0 : Fin 2)).val
    omega
  · show win1_2.index t (1 : Fin 3) * 4 + 1 * (j 1).val = (j 1).val
    omega

/-- An index of the coordinate array is in point `t`'s block iff each coordinate is in the block's range on its axis. -/
theorem mem_blk2 (t : Fin cfg1.N) (i : S32x4x262144.Idx) :
    i ∈ ((cfg1.win 2).blk t).view.set ↔ ∀ a : Fin 3, win1_2.index t a * S1x4x65536.size a ≤ (i a).val ∧ (i a).val < win1_2.index t a * S1x4x65536.size a + S1x4x65536.size a := by
  show i ∈ ((View.whole main_v14_0).slice (win1_2.rect t)).set ↔ _
  rw [View.set_slice_whole, Rect.mem_set_unit]
  exact Iff.rfl

/-- The blocks tile the coordinate array: index `(b, k, n)` is in the block of the point at `(b, 0, n / 65536)`. -/
theorem cover2 (i : S32x4x262144.Idx) : ∃ t : Fin cfg1.N, (cfg1.win 2).flush t = true ∧ i ∈ ((cfg1.win 2).blk t).view.set := by
  have hi0 : (i 0).val < 32 := (i 0).isLt
  have hi1 : (i 1).val < 4 := (i 1).isLt
  have hi2 : (i 2).val < 262144 := (i 2).isLt
  obtain ⟨t, ht⟩ := idx_onto2 ⟨(i 0).val, hi0⟩ ⟨(i 2).val / 65536, by omega⟩
  have q0 : win1_2.index t (0 : Fin 3) = (i 0).val := congrFun ht 0
  have q1 : win1_2.index t (1 : Fin 3) = 0 := congrFun ht 1
  have q2 : win1_2.index t (2 : Fin 3) = (i 2).val / 65536 := congrFun ht 2
  refine ⟨t, flush1_2 t, ?_⟩
  rw [mem_blk2]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 4 ≤ (i 1).val ∧ (i 1).val < win1_2.index t (1 : Fin 3) * 4 + 4; omega
  | ⟨2, _⟩ => show win1_2.index t (2 : Fin 3) * 65536 ≤ (i 2).val ∧ (i 2).val < win1_2.index t (2 : Fin 3) * 65536 + 65536; omega

/-- The coordinate array the region leaves. -/
theorem final2 (c : Dev nD) : (dat1 V c).arrAt 2 cfg1.N = Cert.Spec.coordsT (V c main_v10) :=
  (dat1 V c).arrAt_eq_of_cover 2 (Cert.Spec.coordsT (V c main_v10)) (fun t _ => flushed2_eq V c t) cover2

end Entry

/-- After region 1 the coordinate array holds the batch number in row 0 and the sorted voxels (as the region finds them, and
    which it does not write) in rows 1 to 3. -/
theorem coords_final (c : Dev nD) : (GenP.W8 m ρ c (Proc.devRef .tc main_v14_0) : S32x4x262144.Idx → BitVec 32)
    = Cert.Spec.coordsT (GenP.W7 m ρ c (Proc.devRef .tc main_v10)) :=
  (W8_arr m ρ c 2).trans (final2 (V7 m ρ) c)

/-! ## The feature array -/

/-- Row `k` of a block, read through the slice of that row and the cast that drops the unit axis. -/
theorem row_read (x : IVec S1x3x65536 32) (off : Fin 3 → Nat) (h : S1x3x65536.Slices off S1x1x65536)
    (hc : S1x1x65536.ShapeCasts S1x65536) (k : Fin 3) (hoff : off = ![0, k.val, 0]) (l : Fin 65536) :
    shapeCast S1x65536 (extractStridedSlice S1x1x65536 off x h) hc (ix2 (0 : Fin 1) l) = x (ix3 (0 : Fin 1) k l) := by
  subst hoff
  refine (shapeCast_apply _ hc (ix2 (0 : Fin 1) l) (ix3 (0 : Fin 1) (0 : Fin 1) l) ?_).trans ?_
  · rw [Shape.rowMajor_val_three, Shape.rowMajor_val_two]
    show (0 * 1 + 0) * 65536 + l.val = 0 * 65536 + l.val
    omega
  · refine extractStridedSlice_apply _ x h _ (ix3 (0 : Fin 1) k l) ?_
    intro a
    match a with
    | ⟨0, _⟩ => rfl
    | ⟨1, _⟩ => show k.val = k.val + 0; omega
    | ⟨2, _⟩ => show l.val = 0 + l.val; omega

/-- A one-bit word widened to 32 bits and converted to a real is the bit's value, 0 or 1. -/
theorem bit_real (v : BitVec 1) : FloatOps.sitofp (F := Ideal) .f32 (v.setWidth 32) = (((v.toNat : ℝ)) : EReal) := by
  show ((((v.setWidth 32).toInt : ℤ) : ℝ) : EReal) = _
  have h : (v.setWidth 32).toInt = (v.toNat : ℤ) := by revert v; decide
  rw [h, Int.cast_natCast]

/-- The stored feature's outer layers at an element: the bit vector is read at the element's lane. -/
theorem feat_shape (v : IVec S1x65536 1) (hc : S1x65536.ShapeCasts S1x1x65536) (h32 : 1 < 32) (y : S1x1x65536.Idx) :
    (sitofp (F := Ideal) .f32 (extui 32 (shapeCast S1x1x65536 v hc) h32) : FVec Ideal S1x1x65536 .f32) y
      = (((v (ix2 (0 : Fin 1) (⟨(y 2).val, (y 2).isLt⟩ : Fin 65536))).toNat : ℝ) : EReal) := by
  show FloatOps.sitofp (F := Ideal) .f32 ((shapeCast S1x1x65536 v hc y).setWidth 32) = _
  rw [bit_real]
  have h0 : (y 0).val < 1 := (y 0).isLt
  have h1 : (y 1).val < 1 := (y 1).isLt
  have e : shapeCast S1x1x65536 v hc y = v (ix2 (0 : Fin 1) (⟨(y 2).val, (y 2).isLt⟩ : Fin 65536)) := by
    refine shapeCast_apply _ hc y _ ?_
    rw [Shape.rowMajor_val_three, Shape.rowMajor_val_two]
    show 0 * 65536 + (y 2).val = ((y 0).val * 1 + (y 1).val) * 65536 + (y 2).val
    omega
  rw [e]

/-- "The global column is 0" as a bit: lane `l` of the block at grid coordinate `q` is column `q * 65536 + l`, and the
    32-bit sum does not wrap. -/
theorem col_zero (q l : Nat) (hq : q ≤ 3) (hl : l < 65536) :
    IntOp.cmpi .eq (IntOp.addi (BitVec.ofNat 32 l) (IntOp.muli (BitVec.ofNat 32 q) 65536#32)) 0#32
      = if q * 65536 + l = 0 then 1#1 else 0#1 := by
  have e : IntOp.addi (BitVec.ofNat 32 l) (IntOp.muli (BitVec.ofNat 32 q) 65536#32) = BitVec.ofNat 32 (q * 65536 + l) := by
    unfold IntOp.addi IntOp.muli
    apply BitVec.eq_of_toNat_eq
    simp only [BitVec.toNat_add, BitVec.toNat_mul, BitVec.toNat_ofNat]
    omega
  rw [e]
  by_cases h : q * 65536 + l = 0
  · rw [if_pos h, h]; rfl
  · rw [if_neg h]
    have hne : (BitVec.ofNat 32 (q * 65536 + l) == 0#32) = false := by
      rw [beq_eq_false_iff_ne]
      intro hh
      have h2 := congrArg BitVec.toNat hh
      simp only [BitVec.toNat_ofNat] at h2
      omega
    show BitVec.ofBool (BitVec.ofNat 32 (q * 65536 + l) == 0#32) = 0#1
    rw [hne]; rfl

/-- The stored feature, element by element: some row of the two loaded blocks differs at the element's lane, or the
    element's global column is 0; as a real. -/
theorem pay_feat (i : grid1.Coords) (x0 x1 : Vec Ideal S1x3x65536 .i32) (y : S1x1x65536.Idx) :
    k1_pay3 (F := Ideal) i x0 x1 y
      = (((IntOp.ori (IntOp.ori (IntOp.ori
            (IntOp.cmpi .ne (x0 (ix3 (0 : Fin 1) (0 : Fin 3) (⟨(y 2).val, (y 2).isLt⟩ : Fin 65536))) (x1 (ix3 (0 : Fin 1) (0 : Fin 3) (⟨(y 2).val, (y 2).isLt⟩ : Fin 65536))))
            (IntOp.cmpi .ne (x0 (ix3 (0 : Fin 1) (1 : Fin 3) (⟨(y 2).val, (y 2).isLt⟩ : Fin 65536))) (x1 (ix3 (0 : Fin 1) (1 : Fin 3) (⟨(y 2).val, (y 2).isLt⟩ : Fin 65536)))))
            (IntOp.cmpi .ne (x0 (ix3 (0 : Fin 1) (2 : Fin 3) (⟨(y 2).val, (y 2).isLt⟩ : Fin 65536))) (x1 (ix3 (0 : Fin 1) (2 : Fin 3) (⟨(y 2).val, (y 2).isLt⟩ : Fin 65536)))))
          (IntOp.cmpi .eq (IntOp.addi (BitVec.ofNat 32 (y 2).val) (IntOp.muli (BitVec.ofNat 32 (i 1).val) 65536#32)) 0#32)).toNat : ℝ) : EReal) := by
  unfold k1_pay3
  refine (feat_shape _ _ _ y).trans ?_
  refine congrArg (fun b : BitVec 1 => ((b.toNat : ℝ) : EReal)) ?_
  rw [← row_read x0 ![0, 0, 0] slices_S1x3x65536_o0_0_0_S1x1x65536 shapeCasts_S1x1x65536_S1x65536 0 rfl,
    ← row_read x1 ![0, 0, 0] slices_S1x3x65536_o0_0_0_S1x1x65536 shapeCasts_S1x1x65536_S1x65536 0 rfl,
    ← row_read x0 ![0, 1, 0] slices_S1x3x65536_o0_1_0_S1x1x65536 shapeCasts_S1x1x65536_S1x65536 1 rfl,
    ← row_read x1 ![0, 1, 0] slices_S1x3x65536_o0_1_0_S1x1x65536 shapeCasts_S1x1x65536_S1x65536 1 rfl,
    ← row_read x0 ![0, 2, 0] slices_S1x3x65536_o0_2_0_S1x1x65536 shapeCasts_S1x1x65536_S1x65536 2 rfl,
    ← row_read x1 ![0, 2, 0] slices_S1x3x65536_o0_2_0_S1x1x65536 shapeCasts_S1x1x65536_S1x65536 2 rfl,
    ← iota_single_apply .tc S1x65536 32 1 iota_S1x65536_d1_w32 (ix2 (0 : Fin 1) (⟨(y 2).val, (y 2).isLt⟩ : Fin 65536))]
  rw [pay1_eq, shapeCast_self]
  rfl

/-- One stored feature against the array function, at a block element `y` sitting at array index `i`: given that the two
    loaded blocks' rows at `y`'s lane are the two arrays' rows at `i`'s batch and position, and that `i`'s position is the
    block's global column. -/
theorem feat_point (cs pv : S32x3x262144.Idx → BitVec 32) (g : grid1.Coords) (x0 x1 : Vec Ideal S1x3x65536 .i32)
    (y : S1x1x65536.Idx) (i : S32x1x262144.Idx)
    (h0 : ∀ k : Fin 3, x0 (ix3 (0 : Fin 1) k (⟨(y 2).val, (y 2).isLt⟩ : Fin 65536))
      = cs (ix3 (n0 := 32) (n1 := 3) (n2 := 262144) (i 0) k (i 2)))
    (h1 : ∀ k : Fin 3, x1 (ix3 (0 : Fin 1) k (⟨(y 2).val, (y 2).isLt⟩ : Fin 65536))
      = pv (ix3 (n0 := 32) (n1 := 3) (n2 := 262144) (i 0) k (i 2)))
    (hn : (g 1).val * 65536 + (y 2).val = (i 2).val) (hg : (g 1).val ≤ 3) :
    k1_pay3 (F := Ideal) g x0 x1 y = Cert.Spec.featT cs pv i := by
  rw [pay_feat, h0 0, h0 1, h0 2, h1 0, h1 1, h1 2, col_zero (g 1).val (y 2).val hg (y 2).isLt, hn]
  rfl

section Entry3
-- the region's entry contents, as a parameter: nothing below looks inside them
variable (V : (c : Dev nD) → (b : Ref sig .tc) → Buf (Elt Ideal) ((c : Thread nD τ).loc b))

/-- What point `t` writes back to the feature array is block `t` of the first-occurrence bits of the sorted voxels and
    their shifted copy as the region finds them. -/
theorem flushed3_eq (c : Dev nD) (t : Fin cfg1.N) :
    (dat1 V c).flushed 3 t
      = ((cfg1.win 3).blk t).view.read (Elt Ideal) (Cert.Spec.featT (V c main_v10) (V c main_v13)) := by
  show (cfg1.win 3).cut (grid1.coords t) ((dat1 V c).after 3 t) = _
  rw [after1_3]
  unfold out1_3
  rw [View.canon_unit_zero off_zero]
  simp only [View.ld_unit_zero (S := S1x3x65536) off_zero]
  obtain ⟨⟨a0, a1, a2⟩, ⟨b0, b1, b2⟩, -, ⟨d0, d1, d2⟩, g0, g1⟩ := idx_facts t
  funext j
  show k1_pay3 (F := Ideal) (grid1.coords t) (iblk1 V c 0 t) (iblk1 V c 1 t) j
    = Cert.Spec.featT (V c main_v10) (V c main_v13) (((cfg1.win 3).blk t).view.emb j)
  have hj0 : (j 0).val < 1 := (j 0).isLt
  have hj1 : (j 1).val < 1 := (j 1).isLt
  have hj2 : (j 2).val < 65536 := (j 2).isLt
  refine feat_point (V c main_v10) (V c main_v13) (grid1.coords t) (iblk1 V c 0 t) (iblk1 V c 1 t) j
    (((cfg1.win 3).blk t).view.emb j) ?_ ?_ ?_ g1
  · intro k
    show V c main_v10 (((cfg1.win 0).blk t).view.emb _) = _
    refine congrArg (V c main_v10) ?_
    funext a; apply Fin.ext
    match a with
    | ⟨0, _⟩ =>
      show win1_0.index t (0 : Fin 3) * 1 + 1 * 0 = win1_3.index t (0 : Fin 3) * 1 + 1 * (j 0).val
      omega
    | ⟨1, _⟩ =>
      show win1_0.index t (1 : Fin 3) * 3 + 1 * k.val = k.val
      omega
    | ⟨2, _⟩ =>
      show win1_0.index t (2 : Fin 3) * 65536 + 1 * (j 2).val = win1_3.index t (2 : Fin 3) * 65536 + 1 * (j 2).val
      omega
  · intro k
    show V c main_v13 (((cfg1.win 1).blk t).view.emb _) = _
    refine congrArg (V c main_v13) ?_
    funext a; apply Fin.ext
    match a with
    | ⟨0, _⟩ =>
      show win1_1.index t (0 : Fin 3) * 1 + 1 * 0 = win1_3.index t (0 : Fin 3) * 1 + 1 * (j 0).val
      omega
    | ⟨1, _⟩ =>
      show win1_1.index t (1 : Fin 3) * 3 + 1 * k.val = k.val
      omega
    | ⟨2, _⟩ =>
      show win1_1.index t (2 : Fin 3) * 65536 + 1 * (j 2).val = win1_3.index t (2 : Fin 3) * 65536 + 1 * (j 2).val
      omega
  · show (grid1.coords t (1 : Fin 2)).val * 65536 + (j 2).val = win1_3.index t (2 : Fin 3) * 65536 + 1 * (j 2).val
    omega

/-- An index of the feature array is in point `t`'s block iff each coordinate is in the block's range on its axis. -/
theorem mem_blk3 (t : Fin cfg1.N) (i : S32x1x262144.Idx) :
    i ∈ ((cfg1.win 3).blk t).view.set ↔ ∀ a : Fin 3, win1_3.index t a * S1x1x65536.size a ≤ (i a).val ∧ (i a).val < win1_3.index t a * S1x1x65536.size a + S1x1x65536.size a := by
  show i ∈ ((View.whole main_v14_1).slice (win1_3.rect t)).set ↔ _
  rw [View.set_slice_whole, Rect.mem_set_unit]
  exact Iff.rfl

/-- The blocks tile the feature array: index `(b, 0, n)` is in the block of the point at `(b, 0, n / 65536)`. -/
theorem cover3 (i : S32x1x262144.Idx) : ∃ t : Fin cfg1.N, (cfg1.win 3).flush t = true ∧ i ∈ ((cfg1.win 3).blk t).view.set := by
  have hi0 : (i 0).val < 32 := (i 0).isLt
  have hi1 : (i 1).val < 1 := (i 1).isLt
  have hi2 : (i 2).val < 262144 := (i 2).isLt
  obtain ⟨t, ht⟩ := idx_onto3 ⟨(i 0).val, hi0⟩ ⟨(i 2).val / 65536, by omega⟩
  have q0 : win1_3.index t (0 : Fin 3) = (i 0).val := congrFun ht 0
  have q1 : win1_3.index t (1 : Fin 3) = 0 := congrFun ht 1
  have q2 : win1_3.index t (2 : Fin 3) = (i 2).val / 65536 := congrFun ht 2
  refine ⟨t, flush1_3 t, ?_⟩
  rw [mem_blk3]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 1 ≤ (i 1).val ∧ (i 1).val < win1_3.index t (1 : Fin 3) * 1 + 1; omega
  | ⟨2, _⟩ => show win1_3.index t (2 : Fin 3) * 65536 ≤ (i 2).val ∧ (i 2).val < win1_3.index t (2 : Fin 3) * 65536 + 65536; omega

/-- The feature array the region leaves. -/
theorem final3 (c : Dev nD) : (dat1 V c).arrAt 3 cfg1.N = Cert.Spec.featT (V c main_v10) (V c main_v13) :=
  (dat1 V c).arrAt_eq_of_cover 3 (Cert.Spec.featT (V c main_v10) (V c main_v13)) (fun t _ => flushed3_eq V c t) cover3

end Entry3

/-- After region 1 the feature array holds, as a real, the first-occurrence bit of the sorted voxels and their copy shifted by
    one rank (both as the region finds them; it writes neither). -/
theorem feat_final (c : Dev nD) : (GenP.W8 m ρ c (Proc.devRef .tc main_v14_1) : S32x1x262144.Idx → EReal)
    = Cert.Spec.featT (GenP.W7 m ρ c (Proc.devRef .tc main_v10)) (GenP.W7 m ρ c (Proc.devRef .tc main_v13)) :=
  (W8_arr m ρ c 3).trans (final3 (V7 m ρ) c)

end Cert.KernelIdeal.KRegion1

end
-- ==== Proof.KAssemble.lean ====
/-
  The kernel side assembled: the three returned arrays of the idealized kernel are the specification's results of the
  launch contents of the argument.

  The returned arrays are the second region's two arrays with the two last axes exchanged, and the converted float sum of
  the feature array along the ranks. The second region stores `coordsT` and `featT` of the sorted voxels and their copy
  shifted by one rank; those two are the specification's `sorted` read in the kernels' layout; and `coordsT`, `featT` and
  the sum read back in the returned layout are `coords`, `feature` and `count`.
-/
import proofs.«147239_j10746008174742_1_alg».proof.Proof.FrameKernelIdeal
import proofs.«147239_j10746008174742_1_alg».proof.Proof.Spec
import proofs.«147239_j10746008174742_1_alg».proof.Proof.SpecBridge
import proofs.«147239_j10746008174742_1_alg».proof.Proof.KHostEnds
import proofs.«147239_j10746008174742_1_alg».proof.Proof.KRegion0
import proofs.«147239_j10746008174742_1_alg».proof.Proof.KRegion1

noncomputable section

namespace Cert.KernelIdeal.KValue

open Cert.KernelIdeal Cert.KernelIdeal.Gen Cert.KernelIdeal.GenP Idealize.ShloMosaic.ValueIdx
open Idealize.ShloMosaic Idealize.ShloMosaic.TcCoe

variable (m : (ℓ : Loc nD τ sig) → Buf (Elt Ideal) ℓ) (ρ : Dev nD → PrngReg) (c : Dev nD)

/-- The argument's launch contents: the point array. -/
abbrev X : S32x262144x3.Idx → EReal := (m ((c.tc : Thread nD τ).loc main_arg0) : S32x262144x3.Idx → EReal)

/-- The voxel array after region 0 is the specification's `cell` in the kernels' layout: region 0 takes the voxel number
    of its input array index by index, and its input array is the argument with the two last axes exchanged. -/
theorem cell_of_vox
    (hvox : (GenP.W2 (F := Ideal) m ρ c (Proc.devRef .tc main_v1) : S32x3x262144.Idx → BitVec 32)
      = fun j => Cert.Spec.vox ((GenP.W1 (F := Ideal) m ρ c (Proc.devRef .tc main_v0) : S32x3x262144.Idx → EReal) j))
    (b : Fin 32) (k : Fin 3) (n : Fin 262144) :
    (GenP.W2 (F := Ideal) m ρ c (Proc.devRef .tc main_v1) : S32x3x262144.Idx → BitVec 32) (ix3 b k n) = Cert.Spec.cell (X m c) b n k :=
  (congrFun hvox (ix3 b k n)).trans (congrArg Cert.Spec.vox (KHostEnds.v0_eq m ρ c b k n))

section FromTheRegions

variable
  (hcoords : (GenP.W8 (F := Ideal) m ρ c (Proc.devRef .tc main_v14_0) : S32x4x262144.Idx → BitVec 32)
    = Cert.Spec.coordsT (GenP.W7 (F := Ideal) m ρ c (Proc.devRef .tc main_v10)))
  (hfeat : (GenP.W8 (F := Ideal) m ρ c (Proc.devRef .tc main_v14_1) : S32x1x262144.Idx → EReal)
    = Cert.Spec.featT (GenP.W7 (F := Ideal) m ρ c (Proc.devRef .tc main_v10)) (GenP.W7 (F := Ideal) m ρ c (Proc.devRef .tc main_v13)))
  (hcs : ∀ (b : Fin 32) (k : Fin 3) (n : Fin 262144),
    (GenP.W7 (F := Ideal) m ρ c (Proc.devRef .tc main_v10) : S32x3x262144.Idx → BitVec 32) (ix3 b k n) = Cert.Spec.sorted (X m c) b n k)
  (hpv : ∀ (b : Fin 32) (k : Fin 3) (n : Fin 262144),
    (GenP.W7 (F := Ideal) m ρ c (Proc.devRef .tc main_v13) : S32x3x262144.Idx → BitVec 32) (ix3 b k n)
      = Cert.Spec.sorted (X m c) b (Cert.Spec.prevRank n) k)

include hcoords hcs in
/-- The returned coordinates, from what region 1 stores and what it finds. -/
theorem out_coords_of :
    (GenP.W9 (F := Ideal) m ρ c (Proc.devRef .tc main_v15) : S32x262144x4.Idx → BitVec 32) = Cert.Spec.outCoords (X m c) := by
  funext j
  obtain ⟨b, n, q, rfl⟩ : ∃ (b : Fin 32) (n : Fin 262144) (q : Fin 4), j = ix3 b n q := ⟨j 0, j 1, j 2, eq_ix3 j⟩
  refine (KHostEnds.v15_eq m ρ c b n q).trans ?_
  refine (congrFun hcoords (ix3 b q n)).trans ?_
  exact Cert.SpecBridge.coordsT_eq (X m c) _ hcs b n q

include hfeat hcs hpv in
/-- The returned feature, from what region 1 stores and what it finds. -/
theorem out_feature_of :
    (GenP.W9 (F := Ideal) m ρ c (Proc.devRef .tc main_v16) : S32x262144x1.Idx → EReal) = Cert.Spec.outFeature (X m c) := by
  funext j
  obtain ⟨b, n, u, rfl⟩ : ∃ (b : Fin 32) (n : Fin 262144) (u : Fin 1), j = ix3 b n u := ⟨j 0, j 1, j 2, eq_ix3 j⟩
  obtain rfl : u = 0 := Subsingleton.elim _ _
  refine (KHostEnds.v16_eq m ρ c b n).trans ?_
  refine (congrFun hfeat (ix3 b 0 n)).trans ?_
  exact Cert.SpecBridge.featT_eq (X m c) _ _ hcs hpv b n

include hfeat hcs hpv in
/-- The returned count, from what region 1 stores and what it finds. -/
theorem out_count_of :
    (GenP.W9 (F := Ideal) m ρ c (Proc.devRef .tc main_v18) : S32.Idx → BitVec 32) = Cert.Spec.outCount (X m c) := by
  funext j
  obtain ⟨b, rfl⟩ : ∃ b : Fin 32, j = ix1 b := ⟨j 0, eq_ix1 j⟩
  refine (KHostEnds.v18_eq m ρ c b).trans ?_
  rw [hfeat]
  exact Cert.SpecBridge.count_eq (X m c) _ _ hcs hpv b

end FromTheRegions

/-- The voxel array after region 0 is the specification's `cell` in the kernels' layout. -/
theorem cell_final (b : Fin 32) (k : Fin 3) (n : Fin 262144) :
    (GenP.W2 (F := Ideal) m ρ c (Proc.devRef .tc main_v1) : S32x3x262144.Idx → BitVec 32) (ix3 b k n) = Cert.Spec.cell (X m c) b n k :=
  cell_of_vox m ρ c (KRegion0.vox_final m ρ c) b k n

section FromTheMiddle

variable
  (hcs : ∀ (b : Fin 32) (k : Fin 3) (n : Fin 262144),
    (GenP.W7 (F := Ideal) m ρ c (Proc.devRef .tc main_v10) : S32x3x262144.Idx → BitVec 32) (ix3 b k n) = Cert.Spec.sorted (X m c) b n k)
  (hpv : ∀ (b : Fin 32) (k : Fin 3) (n : Fin 262144),
    (GenP.W7 (F := Ideal) m ρ c (Proc.devRef .tc main_v13) : S32x3x262144.Idx → BitVec 32) (ix3 b k n)
      = Cert.Spec.sorted (X m c) b (Cert.Spec.prevRank n) k)

include hcs in
/-- The returned coordinates are the specification's. -/
theorem out_coords :
    (GenP.W9 (F := Ideal) m ρ c (Proc.devRef .tc main_v15) : S32x262144x4.Idx → BitVec 32) = Cert.Spec.outCoords (X m c) :=
  out_coords_of m ρ c (KRegion1.coords_final m ρ c) hcs

include hcs hpv in
/-- The returned feature is the specification's. -/
theorem out_feature :
    (GenP.W9 (F := Ideal) m ρ c (Proc.devRef .tc main_v16) : S32x262144x1.Idx → EReal) = Cert.Spec.outFeature (X m c) :=
  out_feature_of m ρ c (KRegion1.feat_final m ρ c) hcs hpv

include hcs hpv in
/-- The returned count is the specification's. -/
theorem out_count :
    (GenP.W9 (F := Ideal) m ρ c (Proc.devRef .tc main_v18) : S32.Idx → BitVec 32) = Cert.Spec.outCount (X m c) :=
  out_count_of m ρ c (KRegion1.feat_final m ρ c) hcs hpv

end FromTheMiddle

end Cert.KernelIdeal.KValue

end
-- ==== Proof.KHostMidOps.lean ====
/-
  The host operations between the two kernels, read at an index, each as a statement about arbitrary arrays: a key
  array (one row of the voxel grid, the unit axis dropped), the wrapped positions, the on-axis mask (a reduction by
  `and` over a unit axis), the gather along the long axis, and the two-piece concatenation that shifts the long axis
  by one rank.
-/
import proofs.«147239_j10746008174742_1_alg».proof.Proof.Gen.KernelIdeal
import proofs.«147239_j10746008174742_1_alg».proof.Proof.Spec
import Idealize.ShloMosaic.Lib.Pipeline.Value
import Idealize.ShloMosaic.Lib.ValueIdx
import Idealize.ShloMosaic.Lib.ValueLayout
import Idealize.ShloMosaic.PureOps.Reduce

noncomputable section

namespace Cert.KernelIdeal.KHostMid

open Cert.KernelIdeal Cert.KernelIdeal.Gen Idealize.ShloMosaic Idealize.ShloMosaic.ValueIdx

/-- Row `o` of a `[32, 3, 262144]` array, sliced out and the unit axis dropped, read at `(b, n)`. -/
theorem key_read (o : Nat) (ho : o < 3) (ct : S32x3x262144.Idx → BitVec 32)
    (hs : S32x3x262144.Slices ![0, o, 0] S32x1x262144) (hc : S32x1x262144.ShapeCasts S32x262144)
    (b : Fin 32) (n : Fin 262144) :
    shapeCast S32x262144 (extractStridedSlice S32x1x262144 ![0, o, 0] ct hs) hc (ix2 b n) = ct (ix3 b ⟨o, ho⟩ n) := by
  refine (shapeCast_apply _ hc (ix2 b n) (ix3 b (0 : Fin 1) n) ?_).trans ?_
  · rw [Shape.rowMajor_val_three, Shape.rowMajor_val_two]
    show (b.val * 1 + 0) * 262144 + n.val = b.val * 262144 + n.val
    omega
  · exact extractStridedSlice_apply _ ct hs (ix3 b (0 : Fin 1) n) (ix3 b ⟨o, ho⟩ n) (fun a => match a with
      | ⟨0, _⟩ => by show b.val = 0 + b.val; omega
      | ⟨1, _⟩ => by show o = o + 0; omega
      | ⟨2, _⟩ => by show n.val = 0 + n.val; omega)

/-- The positions broadcast to `[32, 1, 262144]`, read at `(b, 0, n)`. -/
theorem bcast_pos_read (ord : S32x262144.Idx → BitVec 32)
    (h : S32x262144.BroadcastsInDim S32x1x262144 (![0, 2] : Fin 2 → Fin S32x1x262144.rank))
    (b : Fin 32) (n : Fin 262144) :
    broadcastInDim S32x1x262144 ![0, 2] h ord (ix3 b (0 : Fin 1) n) = ord (ix2 b n) :=
  broadcastInDim_apply _ h ord (ix3 b (0 : Fin 1) n) (ix2 b n) (fun a => match a with
    | ⟨0, _⟩ => by show b.val = if (32 : Nat) = 1 then 0 else b.val; rw [if_neg (by decide)]
    | ⟨1, _⟩ => by show n.val = if (262144 : Nat) = 1 then 0 else n.val; rw [if_neg (by decide)])

/-- The wrapped positions (a negative position plus the axis length), recast to `[32, 262144, 1]`, read at
    `(b, n, 0)`. -/
theorem wrap_read (ix : S32x1x262144.Idx → BitVec 32)
    (h0 : S_.BroadcastsInDim S32x1x262144 (![] : Fin 0 → Fin S32x1x262144.rank))
    (hc : S32x1x262144.ShapeCasts S32x262144x1) (b : Fin 32) (n : Fin 262144) :
    shapeCast S32x262144x1
        (select (cmpi .slt ix (broadcastInDim S32x1x262144 ![] h0 (constantI S_ 32 0#32)))
          (addi ix (broadcastInDim S32x1x262144 ![] h0 (constantI S_ 32 262144#32))) ix) hc (ix3 b n (0 : Fin 1))
      = Cert.Spec.wrap (ix (ix3 b (0 : Fin 1) n)) := by
  refine (shapeCast_apply _ hc (ix3 b n (0 : Fin 1)) (ix3 b (0 : Fin 1) n) ?_).trans ?_
  · rw [Shape.rowMajor_val_three, Shape.rowMajor_val_three]
    show (b.val * 1 + 0) * 262144 + n.val = (b.val * 262144 + n.val) * 1 + 0
    omega
  · rfl

/-- On one-bit words, `and` with 1 is the identity. -/
theorem andi_one1 (a : BitVec 1) : IntOp.andi a 1#1 = a := by
  rcases BitVec.eq_zero_or_eq_one a with h | h <;> subst h <;> decide

/-- A fold over a one-element axis is one application. -/
theorem fold_fin_one {α : Type} (op : α → α → α) [Std.Commutative op] [Std.Associative op] (init : α) (f : Fin 1 → α) :
    (Finset.univ : Finset (Fin 1)).fold op init f = op (f 0) init := by
  rw [Finset.univ_unique, Finset.fold_singleton]
  rfl

/-- The on-axis mask of the wrapped positions `w` (`0 ≤ w` and `w ≤ 262143`, reduced by `and` over the unit axis
    from the constant 1), read at `(b, n)`. -/
theorem mask_read (w : S32x262144x1.Idx → BitVec 32)
    (h0 : S_.BroadcastsInDim S32x262144x1 (![] : Fin 0 → Fin S32x262144x1.rank))
    (h1 : S1.BroadcastsInDim S1x1x1 (![2] : Fin 1 → Fin S1x1x1.rank))
    (h2 : S1x1x1.BroadcastsInDim S32x262144x1 (![0, 1, 2] : Fin 3 → Fin S32x262144x1.rank))
    (hr : S32x262144x1.ReducesTo [2] S32x262144) (hu : 0 < S_.numel) (b : Fin 32) (n : Fin 262144) :
    Host.reduce IntOp.andi
        (andi (cmpi .sge w (broadcastInDim S32x262144x1 ![] h0 (constantI S_ 32 0#32)))
          (cmpi .sle w (broadcastInDim S32x262144x1 ![0, 1, 2] h2
            (broadcastInDim S1x1x1 ![2] h1 (constantI S1 32 262143#32)))))
        (constantI S_ 1 1#1) hr hu (ix2 b n)
      = Cert.Spec.onAxis (w (ix3 b n (0 : Fin 1))) := by
  have hR : S32x262144x1.Reduces [2] S32x262144 := by decide
  have hl : hR.lift (ix2 b n) (0 : Fin 1) = ix3 b n (0 : Fin 1) := by
    funext c
    refine Fin.ext ?_
    match c with
    | ⟨0, _⟩ => rfl
    | ⟨1, _⟩ => rfl
    | ⟨2, _⟩ => rfl
  rw [Host.reduce_eq_fold_single IntOp.andi _ _ hr hR hu (ix2 b n)]
  refine (fold_fin_one IntOp.andi _ _).trans ?_
  show IntOp.andi ((andi (cmpi .sge w (broadcastInDim S32x262144x1 ![] h0 (constantI S_ 32 0#32)))
          (cmpi .sle w (broadcastInDim S32x262144x1 ![0, 1, 2] h2
            (broadcastInDim S1x1x1 ![2] h1 (constantI S1 32 262143#32))))) (hR.lift (ix2 b n) (0 : Fin 1))) 1#1 = _
  rw [hl, andi_one1]
  rfl

/-- The gather along the long axis, read at `(b, k, n)`: row `k` of batch `b` at the start position `w (b, n, 0)`
    read as a signed integer and clamped onto the axis. -/
theorem gather_read (ct : S32x3x262144.Idx → BitVec 32) (w : S32x262144x1.Idx → BitVec 32)
    (b : Fin 32) (k : Fin 3) (n : Fin 262144) :
    Host.gather gather_S32x3x262144_S32x262144x1_S32x3x262144_1_2_0_0_2_2_131 ct w (ix3 b k n)
      = ct (ix3 b k (Cert.Spec.pick (w (ix3 b n (0 : Fin 1))))) := by
  -- the batching axis: the batch number
  have e0 : GatherDims.start gather_S32x3x262144_S32x262144x1_S32x3x262144_1_2_0_0_2_2_131 (ix3 b k n) w (0 : Fin 3)
      + GatherDims.batchCoord gather_S32x3x262144_S32x262144x1_S32x3x262144_1_2_0_0_2_2_131 (ix3 b k n) (0 : Fin 3)
      + GatherDims.offCoord gather_S32x3x262144_S32x262144x1_S32x3x262144_1_2_0_0_2_2_131 (ix3 b k n) (0 : Fin 3) = b.val := by
    rw [GatherDims.start_batching _ _ _ _ (by decide), GatherDims.offCoord_eq_zero _ _ _ (by decide)]
    unfold GatherDims.batchCoord
    rw [dif_pos (by decide), Nat.zero_add, Nat.add_zero]
    rfl
  -- the offset axis: the row
  have e1 : GatherDims.start gather_S32x3x262144_S32x262144x1_S32x3x262144_1_2_0_0_2_2_131 (ix3 b k n) w (1 : Fin 3)
      + GatherDims.batchCoord gather_S32x3x262144_S32x262144x1_S32x3x262144_1_2_0_0_2_2_131 (ix3 b k n) (1 : Fin 3)
      + GatherDims.offCoord gather_S32x3x262144_S32x262144x1_S32x3x262144_1_2_0_0_2_2_131 (ix3 b k n) (1 : Fin 3) = k.val := by
    rw [GatherDims.batchCoord_eq_zero _ _ _ (by decide)]
    unfold GatherDims.start GatherDims.offCoord
    rw [dif_neg (by decide), dif_pos (by decide)]
    show 0 + 0 + k.val = k.val
    omega
  -- the collapsed axis: the clamped start position
  have e2 : GatherDims.start gather_S32x3x262144_S32x262144x1_S32x3x262144_1_2_0_0_2_2_131 (ix3 b k n) w (2 : Fin 3)
      + GatherDims.batchCoord gather_S32x3x262144_S32x262144x1_S32x3x262144_1_2_0_0_2_2_131 (ix3 b k n) (2 : Fin 3)
      + GatherDims.offCoord gather_S32x3x262144_S32x262144x1_S32x3x262144_1_2_0_0_2_2_131 (ix3 b k n) (2 : Fin 3)
      = min (w (ix3 b n (0 : Fin 1))).toInt.toNat 262143 := by
    rw [GatherDims.batchCoord_eq_zero _ _ _ (by decide), GatherDims.offCoord_eq_zero _ _ _ (by decide)]
    unfold GatherDims.start
    rw [dif_pos (by decide)]
    have hsi : GatherDims.siIdx gather_S32x3x262144_S32x262144x1_S32x3x262144_1_2_0_0_2_2_131 (ix3 b k n)
        ⟨List.idxOf (2 : Fin 3) gather_S32x3x262144_S32x262144x1_S32x3x262144_1_2_0_0_2_2_131.startIndexMap,
          List.idxOf_lt_length_iff.2 (by decide)⟩ = ix3 b n (0 : Fin 1) := by
      funext c
      refine Fin.ext ?_
      match c with
      | ⟨0, _⟩ => rfl
      | ⟨1, _⟩ => rfl
      | ⟨2, _⟩ => rfl
    rw [hsi]
    rfl
  unfold Host.gather
  refine congrArg ct (funext fun a => Fin.ext ?_)
  match a with
  | ⟨0, _⟩ => exact e0
  | ⟨1, _⟩ => exact e1
  | ⟨2, _⟩ => exact e2

/-- The mask broadcast along the rows, read at `(b, k, n)`. -/
theorem bcast_mask_read (p : S32x262144.Idx → BitVec 1)
    (h : S32x262144.BroadcastsInDim S32x3x262144 (![0, 2] : Fin 2 → Fin S32x3x262144.rank))
    (b : Fin 32) (k : Fin 3) (n : Fin 262144) :
    broadcastInDim S32x3x262144 ![0, 2] h p (ix3 b k n) = p (ix2 b n) :=
  broadcastInDim_apply _ h p (ix3 b k n) (ix2 b n) (fun a => match a with
    | ⟨0, _⟩ => by show b.val = if (32 : Nat) = 1 then 0 else b.val; rw [if_neg (by decide)]
    | ⟨1, _⟩ => by show n.val = if (262144 : Nat) = 1 then 0 else n.val; rw [if_neg (by decide)])

/-- The sorted voxels shifted by one rank along the long axis (rank 0 kept in front), read at `(b, k, n)`. -/
theorem prev_read (cs : S32x3x262144.Idx → BitVec 32)
    (h1 : S32x3x262144.Slices ![0, 0, 0] S32x3x1) (h2 : S32x3x262144.Slices ![0, 0, 0] S32x3x262143)
    (hc : Shape.Concatenates [S32x3x1, S32x3x262143] S32x3x262144 2) (b : Fin 32) (k : Fin 3) (n : Fin 262144) :
    concatenate S32x3x262144 2 [⟨S32x3x1, extractStridedSlice S32x3x1 ![0, 0, 0] cs h1⟩,
        ⟨S32x3x262143, extractStridedSlice S32x3x262143 ![0, 0, 0] cs h2⟩] hc (ix3 b k n)
      = cs (ix3 b k (Cert.Spec.prevRank n)) := by
  by_cases hn : n.val = 0
  · refine (concatenate_pair_apply_left (t := S32x3x262144) (s₁ := S32x3x1) (s₂ := S32x3x262143) 2 _ _ hc (ix3 b k n) rfl (ix3 b k (0 : Fin 1)) ?_).trans ?_
    · intro a
      match a with
      | ⟨0, _⟩ => rfl
      | ⟨1, _⟩ => rfl
      | ⟨2, _⟩ => show 0 = n.val; omega
    · exact extractStridedSlice_apply _ cs h1 (ix3 b k (0 : Fin 1)) (ix3 b k (Cert.Spec.prevRank n)) (fun a => match a with
        | ⟨0, _⟩ => by show b.val = 0 + b.val; omega
        | ⟨1, _⟩ => by show k.val = 0 + k.val; omega
        | ⟨2, _⟩ => by show n.val - 1 = 0 + 0; omega)
  · have hn1 : n.val - 1 < 262143 := by omega
    refine (concatenate_pair_apply_right (t := S32x3x262144) (s₁ := S32x3x1) (s₂ := S32x3x262143) 2 _ _ hc (ix3 b k n) rfl rfl (ix3 b k (⟨n.val - 1, hn1⟩ : Fin 262143)) ?_ ?_).trans ?_
    · intro a ha
      match a with
      | ⟨0, _⟩ => rfl
      | ⟨1, _⟩ => rfl
      | ⟨2, _⟩ => exact absurd rfl ha
    · show (n.val - 1) + 1 = n.val
      omega
    · exact extractStridedSlice_apply _ cs h2 (ix3 b k (⟨n.val - 1, hn1⟩ : Fin 262143)) (ix3 b k (Cert.Spec.prevRank n)) (fun a => match a with
        | ⟨0, _⟩ => by show b.val = 0 + b.val; omega
        | ⟨1, _⟩ => by show k.val = 0 + k.val; omega
        | ⟨2, _⟩ => by show n.val - 1 = 0 + (n.val - 1); omega)

/-- The wrapped positions: a negative position plus the axis length, in the layout `[32, 262144, 1]`. -/
def wrapArr (ix : S32x1x262144.Idx → BitVec 32) : S32x262144x1.Idx → BitVec 32 :=
  shapeCast S32x262144x1
    (select (cmpi .slt ix (broadcastInDim S32x1x262144 ![] bcast_S_S32x1x262144 (constantI S_ 32 0#32)))
      (addi ix (broadcastInDim S32x1x262144 ![] bcast_S_S32x1x262144 (constantI S_ 32 262144#32))) ix)
    shapeCasts_S32x1x262144_S32x262144x1

/-- The gather of the voxel grid `ct` at the wrapped positions `w`, the fill word where a position is off the axis. -/
def takeAt (ct : S32x3x262144.Idx → BitVec 32) (w : S32x262144x1.Idx → BitVec 32) : S32x3x262144.Idx → BitVec 32 :=
  select
    (broadcastInDim S32x3x262144 ![0, 2] bcast_S32x262144_S32x3x262144_0_2
      (Host.reduce IntOp.andi
        (andi
          (cmpi .sge w (broadcastInDim S32x262144x1 ![] bcast_S_S32x262144x1 (constantI S_ 32 0#32)))
          (cmpi .sle w
            (broadcastInDim S32x262144x1 ![0, 1, 2] bcast_S1x1x1_S32x262144x1_0_1_2
              (broadcastInDim S1x1x1 ![2] bcast_S1_S1x1x1_2 (constantI S1 32 262143#32)))))
        (constantI S_ 1 1#1) reducesTo_S32x262144x1_S32x262144_d2 h_S_))
    (Host.gather gather_S32x3x262144_S32x262144x1_S32x3x262144_1_2_0_0_2_2_131 ct w)
    (broadcastInDim S32x3x262144 ![] bcast_S_S32x3x262144 (constantI S_ 32 2147483648#32))

/-- `take_along_axis` of the voxel grid `ct` at the positions `ix` (layout `[32, 1, 262144]`), as the program spells
    it: wrap a negative position, mask the positions off the axis, gather along the long axis, fill where masked. -/
def takeAlong (ct : S32x3x262144.Idx → BitVec 32) (ix : S32x1x262144.Idx → BitVec 32) : S32x3x262144.Idx → BitVec 32 :=
  takeAt ct (wrapArr ix)

/-- `takeAlong` read at `(b, k, n)`: where the wrapped position of `(b, n)` is on the axis, row `k` of batch `b` at
    that position; elsewhere the fill word. -/
theorem takeAlong_read (ct : S32x3x262144.Idx → BitVec 32) (ix : S32x1x262144.Idx → BitVec 32)
    (b : Fin 32) (k : Fin 3) (n : Fin 262144) :
    takeAlong ct ix (ix3 b k n)
      = Scalar.select (Cert.Spec.onAxis (Cert.Spec.wrap (ix (ix3 b (0 : Fin 1) n))))
          (ct (ix3 b k (Cert.Spec.pick (Cert.Spec.wrap (ix (ix3 b (0 : Fin 1) n)))))) 0x80000000#32 := by
  unfold takeAlong takeAt
  refine (select_apply _ _ _ _).trans ?_
  rw [gather_read, bcast_mask_read, mask_read]
  unfold wrapArr
  rw [wrap_read]
  rfl

/-! ## From the voxel grid to the sorted voxels -/

/-- The sorted voxels as the program computes them from the grid `ct`: the three rows as keys, the stable sort's
    positions, `takeAlong` at those positions. -/
def sortedOf (ct : S32x3x262144.Idx → BitVec 32) : S32x3x262144.Idx → BitVec 32 :=
  takeAlong ct (broadcastInDim S32x1x262144 ![0, 2] bcast_S32x262144_S32x1x262144_0_2
    (Host.sort4 S32x262144 1 comparator_i32_i32_i32_i32_d1
      (shapeCast S32x262144 (extractStridedSlice S32x1x262144 ![0, 0, 0] ct slices_S32x3x262144_S32x1x262144_0_0_0)
        shapeCasts_S32x1x262144_S32x262144)
      (shapeCast S32x262144 (extractStridedSlice S32x1x262144 ![0, 1, 0] ct slices_S32x3x262144_S32x1x262144_0_1_0)
        shapeCasts_S32x1x262144_S32x262144)
      (shapeCast S32x262144 (extractStridedSlice S32x1x262144 ![0, 2, 0] ct slices_S32x3x262144_S32x1x262144_0_2_0)
        shapeCasts_S32x1x262144_S32x262144)
      (iotaInDim S32x262144 32 1)).2.2.2)

/-- The sorted voxels shifted by one rank, as the program computes them. -/
def shiftOf (cs : S32x3x262144.Idx → BitVec 32) : S32x3x262144.Idx → BitVec 32 :=
  concatenate S32x3x262144 2
    [⟨S32x3x1, extractStridedSlice S32x3x1 ![0, 0, 0] cs slices_S32x3x262144_S32x3x1_0_0_0⟩,
      ⟨S32x3x262143, extractStridedSlice S32x3x262143 ![0, 0, 0] cs slices_S32x3x262144_S32x3x262143_0_0_0⟩]
    concatenates_S32x3x1_S32x3x262143_S32x3x262144_d2

theorem shiftOf_read (cs : S32x3x262144.Idx → BitVec 32) (b : Fin 32) (k : Fin 3) (n : Fin 262144) :
    shiftOf cs (ix3 b k n) = cs (ix3 b k (Cert.Spec.prevRank n)) :=
  prev_read cs _ _ _ b k n

/-- The program's comparator is the lexicographic comparison of the specification. -/
theorem comparator_eq : comparator_i32_i32_i32_i32_d1 = Cert.Spec.lexLt := rfl

section Grid
variable (x : Cert.Spec.SBN3.Idx → EReal) (ct : S32x3x262144.Idx → BitVec 32)
  (hct : ∀ (b : Fin 32) (k : Fin 3) (n : Fin 262144), ct (ix3 b k n) = Cert.Spec.cell x b n k)
include hct

/-- Row `k` of the transposed voxel grid, the unit axis dropped, is key array `k`. -/
theorem keyRow_eq (k : Fin 3) (o : Nat) (hko : k.val = o)
    (hs : S32x3x262144.Slices ![0, o, 0] S32x1x262144) (hc : S32x1x262144.ShapeCasts S32x262144) :
    shapeCast S32x262144 (extractStridedSlice S32x1x262144 ![0, o, 0] ct hs) hc = Cert.Spec.key x k := by
  subst hko
  funext j
  obtain ⟨b, n, rfl⟩ : ∃ (b : Fin 32) (n : Fin 262144), j = ix2 b n := ⟨j 0, j 1, eq_ix2 j⟩
  rw [key_read k.val k.isLt ct hs hc b n]
  exact hct b k n

set_option maxHeartbeats 400000 in
/-- The sorted voxels of the transposed voxel grid, read at `(b, k, n)`. -/
theorem sortedOf_read (b : Fin 32) (k : Fin 3) (n : Fin 262144) :
    sortedOf ct (ix3 b k n) = Cert.Spec.sorted x b n k := by
  unfold sortedOf
  rw [keyRow_eq x ct hct 0 0 rfl, keyRow_eq x ct hct 1 1 rfl, keyRow_eq x ct hct 2 2 rfl, comparator_eq]
  have ho : (Host.sort4 S32x262144 1 Cert.Spec.lexLt (Cert.Spec.key x 0) (Cert.Spec.key x 1) (Cert.Spec.key x 2)
      (iotaInDim S32x262144 32 1)).2.2.2 = Cert.Spec.order x := rfl
  rw [ho, takeAlong_read, bcast_pos_read, hct]
  rfl

end Grid

end Cert.KernelIdeal.KHostMid

end
-- ==== Proof.KHostMid.lean ====
/-
  The host operations between the two kernels, read through the program: from the voxel grid the first kernel leaves
  (transposed, `[32, 3, 262144]`) to the sorted voxels and their copy shifted by one rank that the second kernel reads.
-/
import proofs.«147239_j10746008174742_1_alg».proof.Proof.FrameKernelIdeal
import proofs.«147239_j10746008174742_1_alg».proof.Proof.Spec
import proofs.«147239_j10746008174742_1_alg».proof.Proof.KHostMidOps

noncomputable section

namespace Cert.KernelIdeal.KHostMid

open Cert.KernelIdeal Cert.KernelIdeal.Gen Cert.KernelIdeal.GenP Idealize.ShloMosaic Idealize.ShloMosaic.TcCoe
open Idealize.SL.Sem Idealize.ShloMosaic.StableHlo Idealize.ShloMosaic.ValueIdx

/-! ## Each stretch of host operations, over arbitrary buffer contents `V` -/

section Stretches
variable (V : Valuation τ sig (Elt Ideal))

-- the reduction is compared by its arguments, never opened (its definition folds over every index of the array)
attribute [local irreducible] Host.reduce

/-- The first stretch leaves key array 0 (row 0 of the grid) … -/
theorem keys_v7 : (StableHlo.after (hostOps1 (F := Ideal)) V (Proc.devRef .tc main_v7) : S32x262144.Idx → BitVec 32)
    = shapeCast S32x262144 (extractStridedSlice S32x1x262144 ![0, 0, 0]
        (V (Proc.devRef .tc main_v1) : S32x3x262144.Idx → BitVec 32) slices_S32x3x262144_S32x1x262144_0_0_0)
        shapeCasts_S32x1x262144_S32x262144 := by
  after_results
  rfl
/-- … key array 1 (row 1) … -/
theorem keys_v5 : (StableHlo.after (hostOps1 (F := Ideal)) V (Proc.devRef .tc main_v5) : S32x262144.Idx → BitVec 32)
    = shapeCast S32x262144 (extractStridedSlice S32x1x262144 ![0, 1, 0]
        (V (Proc.devRef .tc main_v1) : S32x3x262144.Idx → BitVec 32) slices_S32x3x262144_S32x1x262144_0_1_0)
        shapeCasts_S32x1x262144_S32x262144 := by
  after_results
  rfl
/-- … key array 2 (row 2) … -/
theorem keys_v3 : (StableHlo.after (hostOps1 (F := Ideal)) V (Proc.devRef .tc main_v3) : S32x262144.Idx → BitVec 32)
    = shapeCast S32x262144 (extractStridedSlice S32x1x262144 ![0, 2, 0]
        (V (Proc.devRef .tc main_v1) : S32x3x262144.Idx → BitVec 32) slices_S32x3x262144_S32x1x262144_0_2_0)
        shapeCasts_S32x1x262144_S32x262144 := by
  after_results
  rfl
/-- … and the grid where it was. -/
theorem keys_v1 : StableHlo.after (hostOps1 (F := Ideal)) V (Proc.devRef .tc main_v1) = V (Proc.devRef .tc main_v1) := by
  after_results

/-- The sort leaves the sorted positions: the fourth component of the four-operand stable sort. -/
theorem sort_v8 : (StableHlo.after (hostOps1_1 (F := Ideal)) V (Proc.devRef .tc main_v8) : S32x262144.Idx → BitVec 32)
    = (Host.sort4 S32x262144 1 comparator_i32_i32_i32_i32_d1
        (V (Proc.devRef .tc main_v7) : S32x262144.Idx → BitVec 32) (V (Proc.devRef .tc main_v5) : S32x262144.Idx → BitVec 32)
        (V (Proc.devRef .tc main_v3) : S32x262144.Idx → BitVec 32) (iotaInDim S32x262144 32 1)).2.2.2 := by
  after_results
  rfl
theorem sort_v1 : StableHlo.after (hostOps1_1 (F := Ideal)) V (Proc.devRef .tc main_v1) = V (Proc.devRef .tc main_v1) := by
  after_results

/-- The positions broadcast to `[32, 1, 262144]`. -/
theorem bcast_v9 : (StableHlo.after (hostOps1_2 (F := Ideal)) V (Proc.devRef .tc main_v9) : S32x1x262144.Idx → BitVec 32)
    = broadcastInDim S32x1x262144 ![0, 2] bcast_S32x262144_S32x1x262144_0_2
        (V (Proc.devRef .tc main_v8) : S32x262144.Idx → BitVec 32) := by
  after_results
theorem bcast_v1 : StableHlo.after (hostOps1_2 (F := Ideal)) V (Proc.devRef .tc main_v1) = V (Proc.devRef .tc main_v1) := by
  after_results

/-- A fold over a list in two parts. -/
theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih _

/-- `take_along_axis`, first part: the positions wrapped and recast. -/
abbrev takeOpsA : List (HloOp τ sig (Elt Ideal)) :=
  [ StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S32x1x262144, .i32⟩) (broadcastInDim S32x1x262144 ![] bcast_S_S32x1x262144),
    StableHlo.TRef.binary (.of main_v9 : StableHlo.TRef sig ⟨S32x1x262144, .i32⟩) (.of main_call1_v0 : StableHlo.TRef sig ⟨S32x1x262144, .i32⟩) (.of main_call1_v1 : StableHlo.TRef sig ⟨S32x1x262144, .i1⟩) (cmpi .slt),
    StableHlo.TRef.nullary (.of main_call1_c_0 : StableHlo.TRef sig ⟨S_, .i32⟩) (constantI S_ 32 262144#32),
    StableHlo.TRef.unary (.of main_call1_c_0 : StableHlo.TRef sig ⟨S_, .i32⟩) (.of main_call1_v2 : StableHlo.TRef sig ⟨S32x1x262144, .i32⟩) (broadcastInDim S32x1x262144 ![] bcast_S_S32x1x262144),
    StableHlo.TRef.binary (.of main_v9 : StableHlo.TRef sig ⟨S32x1x262144, .i32⟩) (.of main_call1_v2 : StableHlo.TRef sig ⟨S32x1x262144, .i32⟩) (.of main_call1_v3 : StableHlo.TRef sig ⟨S32x1x262144, .i32⟩) addi,
    StableHlo.TRef.ternary (.of main_call1_v1 : StableHlo.TRef sig ⟨S32x1x262144, .i1⟩) (.of main_call1_v3 : StableHlo.TRef sig ⟨S32x1x262144, .i32⟩) (.of main_v9 : StableHlo.TRef sig ⟨S32x1x262144, .i32⟩) (.of main_call1_v4 : StableHlo.TRef sig ⟨S32x1x262144, .i32⟩) select,
    StableHlo.TRef.reshape (.of main_call1_v4 : StableHlo.TRef sig ⟨S32x1x262144, .i32⟩) (.of main_call1_v5 : StableHlo.TRef sig ⟨S32x262144x1, .i32⟩) rfl shapeCasts_S32x1x262144_S32x262144x1 ]
/-- `take_along_axis`, second part: the mask and the gather. -/
abbrev takeOpsB1 : List (HloOp τ sig (Elt Ideal)) :=
  [ StableHlo.TRef.nullary (.of main_call1_c_1 : StableHlo.TRef sig ⟨S1, .i32⟩) (constantI S1 32 262143#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v6 : StableHlo.TRef sig ⟨S32x262144x1, .i32⟩) (broadcastInDim S32x262144x1 ![] bcast_S_S32x262144x1),
    StableHlo.TRef.binary (.of main_call1_v5 : StableHlo.TRef sig ⟨S32x262144x1, .i32⟩) (.of main_call1_v6 : StableHlo.TRef sig ⟨S32x262144x1, .i32⟩) (.of main_call1_v7 : StableHlo.TRef sig ⟨S32x262144x1, .i1⟩) (cmpi .sge),
    StableHlo.TRef.unary (.of main_call1_c_1 : StableHlo.TRef sig ⟨S1, .i32⟩) (.of main_call1_v8 : StableHlo.TRef sig ⟨S1x1x1, .i32⟩) (broadcastInDim S1x1x1 ![2] bcast_S1_S1x1x1_2),
    StableHlo.TRef.unary (.of main_call1_v8 : StableHlo.TRef sig ⟨S1x1x1, .i32⟩) (.of main_call1_v9 : StableHlo.TRef sig ⟨S32x262144x1, .i32⟩) (broadcastInDim S32x262144x1 ![0, 1, 2] bcast_S1x1x1_S32x262144x1_0_1_2),
    StableHlo.TRef.binary (.of main_call1_v5 : StableHlo.TRef sig ⟨S32x262144x1, .i32⟩) (.of main_call1_v9 : StableHlo.TRef sig ⟨S32x262144x1, .i32⟩) (.of main_call1_v10 : StableHlo.TRef sig ⟨S32x262144x1, .i1⟩) (cmpi .sle),
    StableHlo.TRef.binary (.of main_call1_v7 : StableHlo.TRef sig ⟨S32x262144x1, .i1⟩) (.of main_call1_v10 : StableHlo.TRef sig ⟨S32x262144x1, .i1⟩) (.of main_call1_v11 : StableHlo.TRef sig ⟨S32x262144x1, .i1⟩) andi,
    StableHlo.TRef.nullary (.of main_call1_c_3 : StableHlo.TRef sig ⟨S_, .i1⟩) (constantI S_ 1 1#1),
    StableHlo.TRef.binary (.of main_call1_v11 : StableHlo.TRef sig ⟨S32x262144x1, .i1⟩) (.of main_call1_c_3 : StableHlo.TRef sig ⟨S_, .i1⟩) (.of main_call1_v12 : StableHlo.TRef sig ⟨S32x262144, .i1⟩) (fun x v => Host.reduce IntOp.andi x v reducesTo_S32x262144x1_S32x262144_d2 h_S_),
    StableHlo.TRef.binary (.of main_v1 : StableHlo.TRef sig ⟨S32x3x262144, .i32⟩) (.of main_call1_v5 : StableHlo.TRef sig ⟨S32x262144x1, .i32⟩) (.of main_call1_v13 : StableHlo.TRef sig ⟨S32x3x262144, .i32⟩) (fun x i => Host.gather gather_S32x3x262144_S32x262144x1_S32x3x262144_1_2_0_0_2_2_131 x i) ]
/-- `take_along_axis`, last part: the fill where masked. -/
abbrev takeOpsB2 : List (HloOp τ sig (Elt Ideal)) :=
  [ StableHlo.TRef.unary (.of main_call1_v12 : StableHlo.TRef sig ⟨S32x262144, .i1⟩) (.of main_call1_v14 : StableHlo.TRef sig ⟨S32x3x262144, .i1⟩) (broadcastInDim S32x3x262144 ![0, 2] bcast_S32x262144_S32x3x262144_0_2),
    StableHlo.TRef.nullary (.of main_call1_c_4 : StableHlo.TRef sig ⟨S_, .i32⟩) (constantI S_ 32 2147483648#32),
    StableHlo.TRef.unary (.of main_call1_c_4 : StableHlo.TRef sig ⟨S_, .i32⟩) (.of main_call1_v15 : StableHlo.TRef sig ⟨S32x3x262144, .i32⟩) (broadcastInDim S32x3x262144 ![] bcast_S_S32x3x262144),
    StableHlo.TRef.ternary (.of main_call1_v14 : StableHlo.TRef sig ⟨S32x3x262144, .i1⟩) (.of main_call1_v13 : StableHlo.TRef sig ⟨S32x3x262144, .i32⟩) (.of main_call1_v15 : StableHlo.TRef sig ⟨S32x3x262144, .i32⟩) (.of main_v10 : StableHlo.TRef sig ⟨S32x3x262144, .i32⟩) select ]
theorem take_split : hostOps1_3 (F := Ideal) = takeOpsA ++ (takeOpsB1 ++ takeOpsB2) := rfl

set_option maxHeartbeats 400000 in
theorem takeA_v5 : (StableHlo.after takeOpsA V (Proc.devRef .tc main_call1_v5) : S32x262144x1.Idx → BitVec 32)
    = wrapArr (V (Proc.devRef .tc main_v9) : S32x1x262144.Idx → BitVec 32) := by
  after_results
  rfl
theorem takeA_v1 : StableHlo.after takeOpsA V (Proc.devRef .tc main_v1) = V (Proc.devRef .tc main_v1) := by
  after_results

set_option maxHeartbeats 400000 in
theorem takeB1_v12 : (StableHlo.after takeOpsB1 V (Proc.devRef .tc main_call1_v12) : S32x262144.Idx → BitVec 1)
    = Host.reduce IntOp.andi
        (andi
          (cmpi .sge (V (Proc.devRef .tc main_call1_v5) : S32x262144x1.Idx → BitVec 32)
            (broadcastInDim S32x262144x1 ![] bcast_S_S32x262144x1 (constantI S_ 32 0#32)))
          (cmpi .sle (V (Proc.devRef .tc main_call1_v5) : S32x262144x1.Idx → BitVec 32)
            (broadcastInDim S32x262144x1 ![0, 1, 2] bcast_S1x1x1_S32x262144x1_0_1_2
              (broadcastInDim S1x1x1 ![2] bcast_S1_S1x1x1_2 (constantI S1 32 262143#32)))))
        (constantI S_ 1 1#1) reducesTo_S32x262144x1_S32x262144_d2 h_S_ := by
  after_results
  rfl

set_option maxHeartbeats 400000 in
theorem takeB1_v13 : (StableHlo.after takeOpsB1 V (Proc.devRef .tc main_call1_v13) : S32x3x262144.Idx → BitVec 32)
    = Host.gather gather_S32x3x262144_S32x262144x1_S32x3x262144_1_2_0_0_2_2_131
        (V (Proc.devRef .tc main_v1) : S32x3x262144.Idx → BitVec 32)
        (V (Proc.devRef .tc main_call1_v5) : S32x262144x1.Idx → BitVec 32) := by
  after_results
  rfl

set_option maxHeartbeats 400000 in
theorem takeB2_v10 : (StableHlo.after takeOpsB2 V (Proc.devRef .tc main_v10) : S32x3x262144.Idx → BitVec 32)
    = select
        (broadcastInDim S32x3x262144 ![0, 2] bcast_S32x262144_S32x3x262144_0_2
          (V (Proc.devRef .tc main_call1_v12) : S32x262144.Idx → BitVec 1))
        (V (Proc.devRef .tc main_call1_v13) : S32x3x262144.Idx → BitVec 32)
        (broadcastInDim S32x3x262144 ![] bcast_S_S32x3x262144 (constantI S_ 32 2147483648#32)) := by
  after_results
  rfl

set_option maxHeartbeats 400000 in
/-- `take_along_axis` leaves `takeAlong` of the grid at the broadcast positions. -/
theorem take_v10 : (StableHlo.after (hostOps1_3 (F := Ideal)) V (Proc.devRef .tc main_v10) : S32x3x262144.Idx → BitVec 32)
    = takeAlong (V (Proc.devRef .tc main_v1) : S32x3x262144.Idx → BitVec 32)
        (V (Proc.devRef .tc main_v9) : S32x1x262144.Idx → BitVec 32) := by
  rw [take_split, after_append, after_append, takeB2_v10, takeB1_v12, takeB1_v13, takeA_v1, takeA_v5]
  unfold takeAlong takeAt
  rfl

/-- The last stretch leaves the sorted voxels where they were … -/
theorem shift_v10 : StableHlo.after (hostOps1_4 (F := Ideal)) V (Proc.devRef .tc main_v10) = V (Proc.devRef .tc main_v10) := by
  after_results
/-- … and their copy shifted by one rank. -/
theorem shift_v13 : (StableHlo.after (hostOps1_4 (F := Ideal)) V (Proc.devRef .tc main_v13) : S32x3x262144.Idx → BitVec 32)
    = concatenate S32x3x262144 2
        [⟨S32x3x1, extractStridedSlice S32x3x1 ![0, 0, 0] (V (Proc.devRef .tc main_v10) : S32x3x262144.Idx → BitVec 32)
            slices_S32x3x262144_S32x3x1_0_0_0⟩,
          ⟨S32x3x262143, extractStridedSlice S32x3x262143 ![0, 0, 0] (V (Proc.devRef .tc main_v10) : S32x3x262144.Idx → BitVec 32)
            slices_S32x3x262144_S32x3x262143_0_0_0⟩]
        concatenates_S32x3x1_S32x3x262143_S32x3x262144_d2 := by
  after_results

end Stretches

/-! ## Through the program: from the first kernel's exit to the second kernel's entry -/

section Through
variable (m : (ℓ : Loc nD τ sig) → Buf (Elt Ideal) ℓ) (ρ : Dev nD → PrngReg) (c : Dev nD)

/-- The sorted voxels the second kernel reads are `sortedOf` of the grid the first kernel leaves. -/
theorem w7_v10 : (GenP.W7 (F := Ideal) m ρ c (Proc.devRef .tc main_v10) : S32x3x262144.Idx → BitVec 32)
    = sortedOf (GenP.W2 (F := Ideal) m ρ c (Proc.devRef .tc main_v1) : S32x3x262144.Idx → BitVec 32) := by
  dsimp only [GenP.W7, GenP.W6, GenP.W5, GenP.W4, GenP.W3]
  rw [shift_v10, take_v10, bcast_v1, bcast_v9, sort_v1, sort_v8, keys_v1, keys_v7, keys_v5, keys_v3]
  rfl

/-- Their shifted copy is `shiftOf` of them. -/
theorem w7_v13 : (GenP.W7 (F := Ideal) m ρ c (Proc.devRef .tc main_v13) : S32x3x262144.Idx → BitVec 32)
    = shiftOf (GenP.W7 (F := Ideal) m ρ c (Proc.devRef .tc main_v10) : S32x3x262144.Idx → BitVec 32) := by
  rw [w7_v10]
  dsimp only [GenP.W7, GenP.W6, GenP.W5, GenP.W4, GenP.W3]
  rw [shift_v13, take_v10, bcast_v1, bcast_v9, sort_v1, sort_v8, keys_v1, keys_v7, keys_v5, keys_v3]
  rfl

variable (x : Cert.Spec.SBN3.Idx → EReal)
  (hct : ∀ (b : Fin 32) (k : Fin 3) (n : Fin 262144),
    (GenP.W2 (F := Ideal) m ρ c (Proc.devRef .tc main_v1) : S32x3x262144.Idx → BitVec 32) (ix3 b k n) = Cert.Spec.cell x b n k)
include hct

/-- The second kernel's first input is the sorted voxels of the specification, in the layout `[32, 3, 262144]`. -/
theorem sorted_v10 (b : Fin 32) (k : Fin 3) (n : Fin 262144) :
    (GenP.W7 (F := Ideal) m ρ c (Proc.devRef .tc main_v10) : S32x3x262144.Idx → BitVec 32) (ix3 b k n)
      = Cert.Spec.sorted x b n k := by
  rw [w7_v10]
  exact sortedOf_read x _ hct b k n

/-- Its second input is the sorted voxels of the preceding rank. -/
theorem prev_v13 (b : Fin 32) (k : Fin 3) (n : Fin 262144) :
    (GenP.W7 (F := Ideal) m ρ c (Proc.devRef .tc main_v13) : S32x3x262144.Idx → BitVec 32) (ix3 b k n)
      = Cert.Spec.sorted x b (Cert.Spec.prevRank n) k := by
  rw [w7_v13, shiftOf_read]
  exact sorted_v10 m ρ c x hct b k (Cert.Spec.prevRank n)

end Through

end Cert.KernelIdeal.KHostMid

end
-- ==== Proof.KFinal.lean ====
/-
  The idealized kernel's three returned arrays are the specification's three results of the argument's launch contents:
  the sorted voxels and their shifted copy that the second region finds are the specification's `sorted` (the host stretch
  between the regions, from the voxel grid the first region leaves), and what the second region stores and the last host
  stretch returns from them are `coords`, `feature` and `count`.
-/
import proofs.«147239_j10746008174742_1_alg».proof.Proof.KAssemble
import proofs.«147239_j10746008174742_1_alg».proof.Proof.KHostMid

noncomputable section

namespace Cert.KernelIdeal.KFinal

open Cert.KernelIdeal Cert.KernelIdeal.Gen Cert.KernelIdeal.GenP Idealize.ShloMosaic.ValueIdx
open Idealize.ShloMosaic Idealize.ShloMosaic.TcCoe

variable (m : (ℓ : Loc nD τ sig) → Buf (Elt Ideal) ℓ) (ρ : Dev nD → PrngReg) (c : Dev nD)

/-- The sorted voxels the second region finds. -/
theorem sorted_found (b : Fin 32) (k : Fin 3) (n : Fin 262144) :
    (GenP.W7 (F := Ideal) m ρ c (Proc.devRef .tc main_v10) : S32x3x262144.Idx → BitVec 32) (ix3 b k n)
      = Cert.Spec.sorted (KValue.X m c) b n k :=
  KHostMid.sorted_v10 m ρ c (KValue.X m c) (KValue.cell_final m ρ c) b k n

/-- Their copy shifted by one rank. -/
theorem shifted_found (b : Fin 32) (k : Fin 3) (n : Fin 262144) :
    (GenP.W7 (F := Ideal) m ρ c (Proc.devRef .tc main_v13) : S32x3x262144.Idx → BitVec 32) (ix3 b k n)
      = Cert.Spec.sorted (KValue.X m c) b (Cert.Spec.prevRank n) k :=
  KHostMid.prev_v13 m ρ c (KValue.X m c) (KValue.cell_final m ρ c) b k n

theorem out_coords :
    (GenP.W9 (F := Ideal) m ρ c (Proc.devRef .tc main_v15) : S32x262144x4.Idx → BitVec 32) = Cert.Spec.outCoords (KValue.X m c) :=
  KValue.out_coords m ρ c (sorted_found m ρ c)

theorem out_feature :
    (GenP.W9 (F := Ideal) m ρ c (Proc.devRef .tc main_v16) : S32x262144x1.Idx → EReal) = Cert.Spec.outFeature (KValue.X m c) :=
  KValue.out_feature m ρ c (sorted_found m ρ c) (shifted_found m ρ c)

theorem out_count :
    (GenP.W9 (F := Ideal) m ρ c (Proc.devRef .tc main_v18) : S32.Idx → BitVec 32) = Cert.Spec.outCount (KValue.X m c) :=
  KValue.out_count m ρ c (sorted_found m ρ c) (shifted_found m ρ c)

end Cert.KernelIdeal.KFinal

end
-- ==== Proof.RefRunHand.lean ====
/-
  The reference's run: every weakly fair execution of its @main terminates, nothing faulting, with every buffer at the fold
  of the 56 host operations' results over the launch contents (the library's run of a straight-line @main), and that fold
  read at the three result buffers and at the argument: each result is its stage `val_main_vN` of the argument array, the
  argument is as launched.
-/
import proofs.«147239_j10746008174742_1_alg».proof.Proof.RefRead

noncomputable section

namespace Cert.ReferenceIdeal.RunHand

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The run, every buffer at the fold of the operations over the launch contents. -/
theorem run_fold (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after (ops (F := F)) (launchContents m c) (Proc.devRef .tc b) :=
  run_seq scopedRefs_eq scopedSems_eq defs main (fun _ => ops) main_eq (fun _ => ops_sub) m ρ

set_option maxHeartbeats 1000000 in
/-- The argument is never written. -/
theorem fold_arg0 (m : (ℓ : Loc nD τ sig) → Buf (Elt F) ℓ) (c : Dev nD) :
    after (ops (F := F)) (launchContents m c) (Proc.devRef .tc main_arg0) = m ((c.tc : Thread nD τ).loc main_arg0) := by
  after_results_simp <;> rfl

end Cert.ReferenceIdeal.RunHand

end
-- ==== Proof.RefCut.lean ====
/-
  The fold of the reference's operations, read at a buffer, is that buffer's stage of the argument array. The fold is
  unfolded operation by operation (each operation's result at its own buffer is its function of its operands' contents,
  at any other buffer what was there), and as soon as a stage's defining operation appears over the stages of its
  operands it is folded back into the stage's name, so that the term never grows: one rewriting equation per stage,
  `<the operation over the operands' stages> = <the stage>`, each by unfolding one definition.
-/
import proofs.«147239_j10746008174742_1_alg».proof.Proof.RefRead

noncomputable section

namespace Cert.ReferenceIdeal.RunHand

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- A two-piece concatenation with the two pieces as arguments of their own (inside the list of shape-and-piece pairs a
    piece cannot be rewritten). -/
def cat2 {α : Type} (t : Shape) (a : Fin t.rank) (s₁ s₂ : Shape) (x : s₁.Idx → α) (y : s₂.Idx → α)
    (h : Shape.Concatenates [s₁, s₂] t a) : t.Idx → α :=
  concatenate t a [⟨s₁, x⟩, ⟨s₂, y⟩] h

theorem cat2_intro {α : Type} (t : Shape) (a : Fin t.rank) (s₁ s₂ : Shape) (x : s₁.Idx → α) (y : s₂.Idx → α)
    (h : Shape.Concatenates [s₁, s₂] t a) : concatenate t a [⟨s₁, x⟩, ⟨s₂, y⟩] h = cat2 t a s₁ s₂ x y h := rfl

/-! ## One equation per stage that depends on the argument

The constants a stage reads are written out (they are not stages of the argument); the parts of a pattern that only the
unifier should look at are marked `no_index`. -/

theorem fd_main_v1 (x0 : (⟨S32x262144x3, .f32⟩ : BufTy).Contents (Elt F)) :
    (Host.divf (x0) (no_index (broadcastInDim S32x262144x3 ![] bcast_S_S32x262144x3 (constant S_ .f32 0x3C23D70A#32))) : (⟨S32x262144x3, .f32⟩ : BufTy).Contents (Elt F)) = val_main_v1 (F := F) x0 := rfl
theorem fd_main_v2 (x0 : (⟨S32x262144x3, .f32⟩ : BufTy).Contents (Elt F)) :
    (Host.floor (val_main_v1 (F := F) x0) : (⟨S32x262144x3, .f32⟩ : BufTy).Contents (Elt F)) = val_main_v2 (F := F) x0 := rfl
theorem fd_main_v3 (x0 : (⟨S32x262144x3, .f32⟩ : BufTy).Contents (Elt F)) :
    (fptosi 32 (val_main_v2 (F := F) x0) : (⟨S32x262144x3, .i32⟩ : BufTy).Contents (Elt F)) = val_main_v3 (F := F) x0 := rfl
theorem fd_main_v4 (x0 : (⟨S32x262144x3, .f32⟩ : BufTy).Contents (Elt F)) :
    (extractStridedSlice (α := (no_index _)) (no_index S32x262144x1) (no_index ![0, 0, 2]) (val_main_v3 (F := F) x0) slices_S32x262144x3_S32x262144x1_0_0_2 : (⟨S32x262144x1, .i32⟩ : BufTy).Contents (Elt F)) = val_main_v4 (F := F) x0 := rfl
theorem fd_main_v5 (x0 : (⟨S32x262144x3, .f32⟩ : BufTy).Contents (Elt F)) :
    (shapeCast (α := (no_index _)) (no_index main_v5.ty.shape) (val_main_v4 (F := F) x0) shapeCasts_S32x262144x1_S32x262144 : (⟨S32x262144, .i32⟩ : BufTy).Contents (Elt F)) = val_main_v5 (F := F) x0 := rfl
theorem fd_main_v6 (x0 : (⟨S32x262144x3, .f32⟩ : BufTy).Contents (Elt F)) :
    (extractStridedSlice (α := (no_index _)) (no_index S32x262144x1) (no_index ![0, 0, 1]) (val_main_v3 (F := F) x0) slices_S32x262144x3_S32x262144x1_0_0_1 : (⟨S32x262144x1, .i32⟩ : BufTy).Contents (Elt F)) = val_main_v6 (F := F) x0 := rfl
theorem fd_main_v7 (x0 : (⟨S32x262144x3, .f32⟩ : BufTy).Contents (Elt F)) :
    (shapeCast (α := (no_index _)) (no_index main_v7.ty.shape) (val_main_v6 (F := F) x0) shapeCasts_S32x262144x1_S32x262144 : (⟨S32x262144, .i32⟩ : BufTy).Contents (Elt F)) = val_main_v7 (F := F) x0 := rfl
theorem fd_main_v8 (x0 : (⟨S32x262144x3, .f32⟩ : BufTy).Contents (Elt F)) :
    (extractStridedSlice (α := (no_index _)) (no_index S32x262144x1) (no_index ![0, 0, 0]) (val_main_v3 (F := F) x0) slices_S32x262144x3_S32x262144x1_0_0_0 : (⟨S32x262144x1, .i32⟩ : BufTy).Contents (Elt F)) = val_main_v8 (F := F) x0 := rfl
theorem fd_main_v9 (x0 : (⟨S32x262144x3, .f32⟩ : BufTy).Contents (Elt F)) :
    (shapeCast (α := (no_index _)) (no_index main_v9.ty.shape) (val_main_v8 (F := F) x0) shapeCasts_S32x262144x1_S32x262144 : (⟨S32x262144, .i32⟩ : BufTy).Contents (Elt F)) = val_main_v9 (F := F) x0 := rfl
theorem fd_main_v10 (x0 : (⟨S32x262144x3, .f32⟩ : BufTy).Contents (Elt F)) :
    (Host.sort4 (α := BitVec 32) (β := BitVec 32) (γ := BitVec 32) (δ := BitVec 32) (no_index S32x262144) 1 (no_index comparator_i32_i32_i32_i32_d1) (no_index (fun (i : main_v9.ty.shape.Idx) => val_main_v9 (F := F) x0 i)) (no_index (fun (i : main_v7.ty.shape.Idx) => val_main_v7 (F := F) x0 i)) (no_index (fun (i : main_v5.ty.shape.Idx) => val_main_v5 (F := F) x0 i)) (no_index (iotaInDim S32x262144 32 1))).2.2.2 = val_main_v10 (F := F) x0 := rfl
theorem fd_main_v11 (x0 : (⟨S32x262144x3, .f32⟩ : BufTy).Contents (Elt F)) :
    (broadcastInDim (α := (no_index _)) (no_index S32x262144x1) (no_index ![0, 1]) bcast_S32x262144_S32x262144x1_0_1 (val_main_v10 (F := F) x0) : (⟨S32x262144x1, .i32⟩ : BufTy).Contents (Elt F)) = val_main_v11 (F := F) x0 := rfl
theorem fd_main_call1_v1 (x0 : (⟨S32x262144x3, .f32⟩ : BufTy).Contents (Elt F)) :
    (cmpi .slt (val_main_v11 (F := F) x0) (no_index (broadcastInDim S32x262144x1 ![] bcast_S_S32x262144x1 (constantI S_ 32 0#32))) : (⟨S32x262144x1, .i1⟩ : BufTy).Contents (Elt F)) = val_main_call1_v1 (F := F) x0 := rfl
theorem fd_main_call1_v3 (x0 : (⟨S32x262144x3, .f32⟩ : BufTy).Contents (Elt F)) :
    (addi (val_main_v11 (F := F) x0) (no_index (broadcastInDim S32x262144x1 ![] bcast_S_S32x262144x1 (constantI S_ 32 262144#32))) : (⟨S32x262144x1, .i32⟩ : BufTy).Contents (Elt F)) = val_main_call1_v3 (F := F) x0 := rfl
theorem fd_main_call1_v4 (x0 : (⟨S32x262144x3, .f32⟩ : BufTy).Contents (Elt F)) :
    (select (α := (no_index _)) (val_main_call1_v1 (F := F) x0) (val_main_call1_v3 (F := F) x0) (val_main_v11 (F := F) x0) : (⟨S32x262144x1, .i32⟩ : BufTy).Contents (Elt F)) = val_main_call1_v4 (F := F) x0 := rfl
theorem fd_main_call1_v6 (x0 : (⟨S32x262144x3, .f32⟩ : BufTy).Contents (Elt F)) :
    (cmpi .sge (val_main_call1_v4 (F := F) x0) (no_index (broadcastInDim S32x262144x1 ![] bcast_S_S32x262144x1 (constantI S_ 32 0#32))) : (⟨S32x262144x1, .i1⟩ : BufTy).Contents (Elt F)) = val_main_call1_v6 (F := F) x0 := rfl
theorem fd_main_call1_v9 (x0 : (⟨S32x262144x3, .f32⟩ : BufTy).Contents (Elt F)) :
    (cmpi .sle (val_main_call1_v4 (F := F) x0) (no_index (broadcastInDim S32x262144x1 ![0, 1, 2] bcast_S1x1x1_S32x262144x1_0_1_2 (broadcastInDim S1x1x1 ![2] bcast_S1_S1x1x1_2 (constantI S1 32 262143#32)))) : (⟨S32x262144x1, .i1⟩ : BufTy).Contents (Elt F)) = val_main_call1_v9 (F := F) x0 := rfl
theorem fd_main_call1_v10 (x0 : (⟨S32x262144x3, .f32⟩ : BufTy).Contents (Elt F)) :
    (andi (val_main_call1_v6 (F := F) x0) (val_main_call1_v9 (F := F) x0) : (⟨S32x262144x1, .i1⟩ : BufTy).Contents (Elt F)) = val_main_call1_v10 (F := F) x0 := rfl
theorem fd_main_call1_v11 (x0 : (⟨S32x262144x3, .f32⟩ : BufTy).Contents (Elt F)) :
    (Host.reduce (α := (no_index _)) IntOp.andi (val_main_call1_v10 (F := F) x0) (no_index (constantI S_ 1 1#1)) reducesTo_S32x262144x1_S32x262144_d2 h_S_ : (⟨S32x262144, .i1⟩ : BufTy).Contents (Elt F)) = val_main_call1_v11 (F := F) x0 := rfl
theorem fd_main_call1_v12 (x0 : (⟨S32x262144x3, .f32⟩ : BufTy).Contents (Elt F)) :
    (Host.gather (α := (no_index _)) gather_S32x262144x3_S32x262144x1_S32x262144x3_2_1_0_0_1_2_113 (val_main_v3 (F := F) x0) (val_main_call1_v4 (F := F) x0) : (⟨S32x262144x3, .i32⟩ : BufTy).Contents (Elt F)) = val_main_call1_v12 (F := F) x0 := rfl
theorem fd_main_call1_v13 (x0 : (⟨S32x262144x3, .f32⟩ : BufTy).Contents (Elt F)) :
    (broadcastInDim (α := (no_index _)) (no_index S32x262144x3) (no_index ![0, 1]) bcast_S32x262144_S32x262144x3_0_1 (val_main_call1_v11 (F := F) x0) : (⟨S32x262144x3, .i1⟩ : BufTy).Contents (Elt F)) = val_main_call1_v13 (F := F) x0 := rfl
theorem fd_main_v12 (x0 : (⟨S32x262144x3, .f32⟩ : BufTy).Contents (Elt F)) :
    (select (α := (no_index _)) (val_main_call1_v13 (F := F) x0) (val_main_call1_v12 (F := F) x0) (no_index (broadcastInDim S32x262144x3 ![] bcast_S_S32x262144x3 (constantI S_ 32 2147483648#32))) : (⟨S32x262144x3, .i32⟩ : BufTy).Contents (Elt F)) = val_main_v12 (F := F) x0 := rfl
theorem fd_main_v13 (x0 : (⟨S32x262144x3, .f32⟩ : BufTy).Contents (Elt F)) :
    (extractStridedSlice (α := (no_index _)) (no_index S32x262143x3) (no_index ![0, 1, 0]) (val_main_v12 (F := F) x0) slices_S32x262144x3_S32x262143x3_0_1_0 : (⟨S32x262143x3, .i32⟩ : BufTy).Contents (Elt F)) = val_main_v13 (F := F) x0 := rfl
theorem fd_main_v14 (x0 : (⟨S32x262144x3, .f32⟩ : BufTy).Contents (Elt F)) :
    (extractStridedSlice (α := (no_index _)) (no_index S32x262143x3) (no_index ![0, 0, 0]) (val_main_v12 (F := F) x0) slices_S32x262144x3_S32x262143x3_0_0_0 : (⟨S32x262143x3, .i32⟩ : BufTy).Contents (Elt F)) = val_main_v14 (F := F) x0 := rfl
theorem fd_main_v15 (x0 : (⟨S32x262144x3, .f32⟩ : BufTy).Contents (Elt F)) :
    (cmpi .ne (val_main_v13 (F := F) x0) (val_main_v14 (F := F) x0) : (⟨S32x262143x3, .i1⟩ : BufTy).Contents (Elt F)) = val_main_v15 (F := F) x0 := rfl
theorem fd_main_v16 (x0 : (⟨S32x262144x3, .f32⟩ : BufTy).Contents (Elt F)) :
    (Host.reduce (α := (no_index _)) IntOp.ori (val_main_v15 (F := F) x0) (no_index (constantI S_ 1 0#1)) reducesTo_S32x262143x3_S32x262143_d2 h_S_ : (⟨S32x262143, .i1⟩ : BufTy).Contents (Elt F)) = val_main_v16 (F := F) x0 := rfl
theorem fd_main_v18 (x0 : (⟨S32x262144x3, .f32⟩ : BufTy).Contents (Elt F)) :
    (cat2 (α := no_index _) (no_index S32x262144) 1 (no_index S32x1) (no_index S32x262143) (no_index (broadcastInDim S32x1 ![] bcast_S_S32x1 (constantI S_ 1 1#1))) (val_main_v16 (F := F) x0) concatenates_S32x1_S32x262143_S32x262144_d1 : (⟨S32x262144, .i1⟩ : BufTy).Contents (Elt F)) = val_main_v18 (F := F) x0 := rfl
theorem fd_main_v22 (x0 : (⟨S32x262144x3, .f32⟩ : BufTy).Contents (Elt F)) :
    (cat2 (α := no_index _) (no_index S32x262144x4) 2 (no_index S32x262144x1) (no_index S32x262144x3) (no_index (broadcastInDim S32x262144x1 ![0, 1, 2] bcast_S32x1x1_S32x262144x1_0_1_2 (broadcastInDim S32x1x1 ![0] bcast_S32_S32x1x1_0 (iotaInDim S32 32 0)))) (val_main_v12 (F := F) x0) concatenates_S32x262144x1_S32x262144x3_S32x262144x4_d2 : (⟨S32x262144x4, .i32⟩ : BufTy).Contents (Elt F)) = val_main_v22 (F := F) x0 := rfl
theorem fd_main_v23 (x0 : (⟨S32x262144x3, .f32⟩ : BufTy).Contents (Elt F)) :
    (broadcastInDim (α := (no_index _)) (no_index S32x262144x1) (no_index ![0, 1]) bcast_S32x262144_S32x262144x1_0_1 (val_main_v18 (F := F) x0) : (⟨S32x262144x1, .i1⟩ : BufTy).Contents (Elt F)) = val_main_v23 (F := F) x0 := rfl
theorem fd_main_v24 (x0 : (⟨S32x262144x3, .f32⟩ : BufTy).Contents (Elt F)) :
    (uitofp .f32 (val_main_v23 (F := F) x0) : (⟨S32x262144x1, .f32⟩ : BufTy).Contents (Elt F)) = val_main_v24 (F := F) x0 := rfl
theorem fd_main_v25 (x0 : (⟨S32x262144x3, .f32⟩ : BufTy).Contents (Elt F)) :
    (extui 32 (val_main_v18 (F := F) x0) natLt_1_32 : (⟨S32x262144, .i32⟩ : BufTy).Contents (Elt F)) = val_main_v25 (F := F) x0 := rfl
theorem fd_main_v26 (x0 : (⟨S32x262144x3, .f32⟩ : BufTy).Contents (Elt F)) :
    (Host.reduce (α := (no_index _)) IntOp.addi (val_main_v25 (F := F) x0) (no_index (constantI S_ 32 0#32)) reducesTo_S32x262144_S32_d1 h_S_ : (⟨S32, .i32⟩ : BufTy).Contents (Elt F)) = val_main_v26 (F := F) x0 := rfl

/-- The launch contents at the argument's buffer are the launch memory's. -/
theorem launch_arg0 (m : (ℓ : Loc nD τ sig) → Buf (Elt F) ℓ) (c : Dev nD) :
    launchContents m c (Proc.devRef .tc main_arg0) = m ((c.tc : Thread nD τ).loc main_arg0) := rfl

/-! ## The fold at the three results -/

set_option maxHeartbeats 4000000 in
/-- The fold of the operations read at `main_v22` is the stage `val_main_v22` of the argument array. -/
theorem fold_v22 (m : (ℓ : Loc nD τ sig) → Buf (Elt F) ℓ) (c : Dev nD) :
    after (ops (F := F)) (launchContents m c) (Proc.devRef .tc main_v22) = val_main_v22 (F := F) (m ((c.tc : Thread nD τ).loc main_arg0)) := by
  rw [← launch_arg0 m c]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.toBuf, TRef.ofBuf, cast_eq, ↓cat2_intro, fd_main_v1, fd_main_v2, fd_main_v3, fd_main_v4, fd_main_v5, fd_main_v6, fd_main_v7, fd_main_v8, fd_main_v9, fd_main_v10, fd_main_v11, fd_main_call1_v1, fd_main_call1_v3, fd_main_call1_v4, fd_main_call1_v6, fd_main_call1_v9, fd_main_call1_v10, fd_main_call1_v11, fd_main_call1_v12, fd_main_call1_v13, fd_main_v12, fd_main_v13, fd_main_v14, fd_main_v15, fd_main_v16, fd_main_v18, fd_main_v22, fd_main_v23, fd_main_v24, fd_main_v25, fd_main_v26]

set_option maxHeartbeats 4000000 in
/-- The fold of the operations read at `main_v24` is the stage `val_main_v24` of the argument array. -/
theorem fold_v24 (m : (ℓ : Loc nD τ sig) → Buf (Elt F) ℓ) (c : Dev nD) :
    after (ops (F := F)) (launchContents m c) (Proc.devRef .tc main_v24) = val_main_v24 (F := F) (m ((c.tc : Thread nD τ).loc main_arg0)) := by
  rw [← launch_arg0 m c]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.toBuf, TRef.ofBuf, cast_eq, ↓cat2_intro, fd_main_v1, fd_main_v2, fd_main_v3, fd_main_v4, fd_main_v5, fd_main_v6, fd_main_v7, fd_main_v8, fd_main_v9, fd_main_v10, fd_main_v11, fd_main_call1_v1, fd_main_call1_v3, fd_main_call1_v4, fd_main_call1_v6, fd_main_call1_v9, fd_main_call1_v10, fd_main_call1_v11, fd_main_call1_v12, fd_main_call1_v13, fd_main_v12, fd_main_v13, fd_main_v14, fd_main_v15, fd_main_v16, fd_main_v18, fd_main_v22, fd_main_v23, fd_main_v24, fd_main_v25, fd_main_v26]

set_option maxHeartbeats 4000000 in
/-- The fold of the operations read at `main_v26` is the stage `val_main_v26` of the argument array. -/
theorem fold_v26 (m : (ℓ : Loc nD τ sig) → Buf (Elt F) ℓ) (c : Dev nD) :
    after (ops (F := F)) (launchContents m c) (Proc.devRef .tc main_v26) = val_main_v26 (F := F) (m ((c.tc : Thread nD τ).loc main_arg0)) := by
  rw [← launch_arg0 m c]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.toBuf, TRef.ofBuf, cast_eq, ↓cat2_intro, fd_main_v1, fd_main_v2, fd_main_v3, fd_main_v4, fd_main_v5, fd_main_v6, fd_main_v7, fd_main_v8, fd_main_v9, fd_main_v10, fd_main_v11, fd_main_call1_v1, fd_main_call1_v3, fd_main_call1_v4, fd_main_call1_v6, fd_main_call1_v9, fd_main_call1_v10, fd_main_call1_v11, fd_main_call1_v12, fd_main_call1_v13, fd_main_v12, fd_main_v13, fd_main_v14, fd_main_v15, fd_main_v16, fd_main_v18, fd_main_v22, fd_main_v23, fd_main_v24, fd_main_v25, fd_main_v26]

end Cert.ReferenceIdeal.RunHand

end
-- ==== Proof.RefSort.lean ====
/-
  The reference's first stages, read at an index: the voxel array, the three key arrays and the argsort.

  `val_main_v3` is the voxel array: at every index `⌊x / 0.01⌋` as a 32-bit integer (`Cert.Spec.vox`). The key arrays
  `val_main_v9 / v7 / v5` are its slices `[:, :, k]` for `k = 0, 1, 2` with the unit axis dropped: `Cert.Spec.key x k`. The
  sort compares with the lexicographic comparator on (key 0, key 1, key 2) and carries the positions along, so its fourth
  component is `Cert.Spec.order x`; the sort itself is never opened.
-/
import proofs.«147239_j10746008174742_1_alg».proof.Proof.RefRead
import proofs.«147239_j10746008174742_1_alg».proof.Proof.Spec

noncomputable section

namespace Cert.ReferenceIdeal.RefValue

open Cert.ReferenceIdeal Cert.ReferenceIdeal.ReadP Idealize.ShloMosaic Idealize.ShloMosaic.ValueIdx

/-- The voxel array at an index. -/
theorem vox_eq (x0 : S32x262144x3.Idx → EReal) (i : S32x262144x3.Idx) :
    val_main_v3 (F := Ideal) x0 i = Cert.Spec.vox (x0 i) := rfl

/-- Row-major position `(b, n)` of a `[32, 262144]` array, split back into its coordinates. -/
theorem split_bn (b n : Nat) (hn : n < 262144) : (b * 262144 + n) / 262144 = b ∧ (b * 262144 + n) / 1 % 262144 = n := by
  constructor <;> omega

/-- The slice `[:, :, k]` of the voxel array with its unit axis dropped, at `j = (b, n)`, reads the voxel array at `(b, n, k)`. -/
theorem key0_eq (x0 : S32x262144x3.Idx → EReal) : val_main_v9 (F := Ideal) x0 = Cert.Spec.key x0 0 := by
  funext j
  rw [val_main_v9_apply, val_main_v8_apply, vox_eq]
  show Cert.Spec.vox (x0 _) = Cert.Spec.vox (x0 (ix3 (j 0) (j 1) 0))
  have hn : (j 1).val < 262144 := (j 1).isLt
  obtain ⟨h0, h1⟩ := split_bn (j 0).val (j 1).val hn
  refine congrArg (fun i => Cert.Spec.vox (x0 i)) (funext fun a => Fin.ext ?_)
  match a with
  | ⟨0, _⟩ => exact h0
  | ⟨1, _⟩ => exact h1
  | ⟨2, _⟩ => rfl

theorem key1_eq (x0 : S32x262144x3.Idx → EReal) : val_main_v7 (F := Ideal) x0 = Cert.Spec.key x0 1 := by
  funext j
  rw [val_main_v7_apply, val_main_v6_apply, vox_eq]
  show Cert.Spec.vox (x0 _) = Cert.Spec.vox (x0 (ix3 (j 0) (j 1) 1))
  have hn : (j 1).val < 262144 := (j 1).isLt
  obtain ⟨h0, h1⟩ := split_bn (j 0).val (j 1).val hn
  refine congrArg (fun i => Cert.Spec.vox (x0 i)) (funext fun a => Fin.ext ?_)
  match a with
  | ⟨0, _⟩ => exact h0
  | ⟨1, _⟩ => exact h1
  | ⟨2, _⟩ => rfl

theorem key2_eq (x0 : S32x262144x3.Idx → EReal) : val_main_v5 (F := Ideal) x0 = Cert.Spec.key x0 2 := by
  funext j
  rw [val_main_v5_apply, val_main_v4_apply, vox_eq]
  show Cert.Spec.vox (x0 _) = Cert.Spec.vox (x0 (ix3 (j 0) (j 1) 2))
  have hn : (j 1).val < 262144 := (j 1).isLt
  obtain ⟨h0, h1⟩ := split_bn (j 0).val (j 1).val hn
  refine congrArg (fun i => Cert.Spec.vox (x0 i)) (funext fun a => Fin.ext ?_)
  match a with
  | ⟨0, _⟩ => exact h0
  | ⟨1, _⟩ => exact h1
  | ⟨2, _⟩ => rfl

/-- The printed comparator is the lexicographic comparison on the three keys. -/
theorem cmp_eq : comparator_i32_i32_i32_i32_d1 = Cert.Spec.lexLt := rfl

/-- The positions the sort carries along. -/
theorem iota_eq : val_main_call0_v0 (F := Ideal) = iotaInDim Cert.Spec.SBN 32 1 := rfl

/-- The argsort: the sort's fourth component, the sort applied to equal operands. -/
theorem order_eq (x0 : S32x262144x3.Idx → EReal) : val_main_v10 (F := Ideal) x0 = Cert.Spec.order x0 := by
  unfold val_main_v10 Cert.Spec.order
  rw [key0_eq, key1_eq, key2_eq, cmp_eq, iota_eq]

end Cert.ReferenceIdeal.RefValue

end
-- ==== Proof.RefGatherRows.lean ====
/-
  The reference's gather, read at an index (a general fact about this gather's dimension numbers, for any operand and any
  start indices): offset axis 2, collapsed indexed axis 1, batching axis 0, slices `[1, 1, 3]`. At `(b, n, k)` it reads the
  operand at `(b, p, k)` where `p` is the start index at `(b, n, 0)` read as a signed integer and clamped onto the axis.
-/
import proofs.«147239_j10746008174742_1_alg».proof.Proof.RefRead
import proofs.«147239_j10746008174742_1_alg».proof.Proof.Spec

noncomputable section

namespace Cert.ReferenceIdeal.RefValue

open Cert.ReferenceIdeal Cert.ReferenceIdeal.Gen Idealize.ShloMosaic Idealize.ShloMosaic.ValueIdx

local notation "D" => gather_S32x262144x3_S32x262144x1_S32x262144x3_2_1_0_0_1_2_113

/-- THE GATHER READ AT `(b, n, k)`: the operand at `(b, p, k)`, `p` the start index at `(b, n, 0)` read signed and clamped
    onto the axis. -/
theorem gather_rows (x : S32x262144x3.Idx → BitVec 32) (idx : IVec S32x262144x1 32) (b : Fin 32) (n : Fin 262144) (k : Fin 3) :
    Host.gather gather_S32x262144x3_S32x262144x1_S32x262144x3_2_1_0_0_1_2_113 x idx (ix3 b n k)
      = x (ix3 b (Cert.Spec.pick (idx (ix3 b n (0 : Fin 1)))) k) := by
  -- the dimension numbers' memberships, read off the record
  have m0 : (0 : Fin 3) ∈ (D).operandBatchingDims := List.mem_singleton.mpr rfl
  have m1 : (1 : Fin 3) ∈ (D).startIndexMap := List.mem_singleton.mpr rfl
  have c1 : (1 : Fin 3) ∈ (D).collapsedSliceDims := List.mem_singleton.mpr rfl
  have n1b : (1 : Fin 3) ∉ (D).operandBatchingDims := by decide
  have n2b : (2 : Fin 3) ∉ (D).operandBatchingDims := by decide
  have n2m : (2 : Fin 3) ∉ (D).startIndexMap := by decide
  have k2 : (2 : Fin 3) ∈ (D).sKept := by decide
  -- axis 0 is the batching axis: no start, no offset, the result's batch coordinate
  have h0 : (D).start (ix3 b n k) idx (0 : Fin 3) + (D).batchCoord (ix3 b n k) (0 : Fin 3) + (D).offCoord (ix3 b n k) (0 : Fin 3) = b.val := by
    rw [(D).start_batching _ _ _ m0, (D).offCoord_eq_zero _ _ (fun h => (((D).mem_sKept _).mp h).2 m0)]
    unfold GatherDims.batchCoord
    rw [dif_pos m0]
    rw [Nat.zero_add, Nat.add_zero]
    rfl
  -- axis 1 is the indexed, collapsed axis: the start index read signed and clamped, nothing else
  have h1 : (D).start (ix3 b n k) idx (1 : Fin 3) + (D).batchCoord (ix3 b n k) (1 : Fin 3) + (D).offCoord (ix3 b n k) (1 : Fin 3)
      = (Cert.Spec.pick (idx (ix3 b n (0 : Fin 1)))).val := by
    rw [(D).batchCoord_eq_zero _ _ n1b, (D).offCoord_eq_zero _ _ (fun h => (((D).mem_sKept _).mp h).1 c1)]
    unfold GatherDims.start
    rw [dif_pos m1]
    have hsi : (D).siIdx (ix3 b n k) ⟨List.idxOf (1 : Fin 3) (D).startIndexMap, List.idxOf_lt_length_iff.2 m1⟩ = ix3 b n (0 : Fin 1) := by
      funext c; refine Fin.ext ?_
      match c with
      | ⟨0, _⟩ => rfl
      | ⟨1, _⟩ => rfl
      | ⟨2, _⟩ => rfl
    rw [hsi]
    rfl
  -- axis 2 is the offset axis: no start, no batch coordinate, the result's offset coordinate
  have h2 : (D).start (ix3 b n k) idx (2 : Fin 3) + (D).batchCoord (ix3 b n k) (2 : Fin 3) + (D).offCoord (ix3 b n k) (2 : Fin 3) = k.val := by
    rw [(D).batchCoord_eq_zero _ _ n2b]
    unfold GatherDims.start GatherDims.offCoord
    rw [dif_neg n2m, dif_pos k2]
    rw [Nat.zero_add]
    rfl
  unfold Host.gather
  refine congrArg x (funext fun a => Fin.ext ?_)
  show (D).start (ix3 b n k) idx a + (D).batchCoord (ix3 b n k) a + (D).offCoord (ix3 b n k) a = _
  match a with
  | ⟨0, _⟩ => exact h0
  | ⟨1, _⟩ => exact h1
  | ⟨2, _⟩ => exact h2

end Cert.ReferenceIdeal.RefValue

end
-- ==== Proof.RefGather.lean ====
/-
  The reference's `take_along_axis`, read at an index: the sorted voxels.

  The argsort is broadcast to `[32, 262144, 1]`; a negative position wraps once (`Cert.Spec.wrap`), giving the position
  `Cert.Spec.pos x b n` of rank `n` in batch `b`. The in-range mask is "0 ≤ position ≤ 262143", reduced by `and` over the unit
  axis from the constant 1: one term, so the mask itself (`Cert.Spec.onAxis`). The gather reads, at `(b, n, k)`, the voxel
  array at `(b, p, k)` where `p` is the position read as a signed integer and clamped to the axis (`Cert.Spec.pick`): batch
  axis 0 is carried, axis 1 is the collapsed indexed axis, axis 2 the offset axis. The final select puts the fill word where
  the mask is 0: `Cert.Spec.sorted x b n k`.
-/
import proofs.«147239_j10746008174742_1_alg».proof.Proof.RefSort
import proofs.«147239_j10746008174742_1_alg».proof.Proof.RefGatherRows
import Idealize.ShloMosaic.PureOps.Reduce

noncomputable section

namespace Cert.ReferenceIdeal.RefValue

open Cert.ReferenceIdeal Cert.ReferenceIdeal.Gen Cert.ReferenceIdeal.ReadP Idealize.ShloMosaic Idealize.ShloMosaic.ValueIdx

/-- The broadcast along a new unit axis reads `(b, n, 0)` at `(b, n)`. -/
theorem idx11 (b : Fin 32) (n : Fin 262144) : idx_main_v11 (ix3 b n (0 : Fin 1)) = ix2 b n := by
  funext a
  match a with
  | ⟨0, _⟩ => rfl
  | ⟨1, _⟩ => rfl

/-- The wrapped position of rank `n` in batch `b`. -/
theorem pos_eq (x0 : S32x262144x3.Idx → EReal) (b : Fin 32) (n : Fin 262144) :
    val_main_call1_v4 (F := Ideal) x0 (ix3 b n (0 : Fin 1)) = Cert.Spec.pos x0 b n := by
  rw [val_main_call1_v4_apply, val_main_call1_v1_apply, val_main_call1_v3_apply, val_main_v11_apply, idx11, order_eq]
  rfl

/-- `and` with the constant 1 changes nothing. -/
theorem andi_one (a : BitVec 1) : IntOp.andi a 1#1 = a := by
  revert a; decide

/-- The source index over `(b, n)` with coordinate 0 on the dropped unit axis. -/
theorem lift_unit (h : S32x262144x1.Reduces [2] S32x262144) (b : Fin 32) (n : Fin 262144) (k : Fin (S32x262144x1.size 2)) :
    h.lift (ix2 b n) k = ix3 b n (0 : Fin 1) := by
  funext c
  refine Fin.ext ?_
  rw [Shape.Reduces.lift_val]
  match c with
  | ⟨0, _⟩ => rfl
  | ⟨1, _⟩ => rfl
  | ⟨2, _⟩ =>
    have hk : k.val < 1 := k.isLt
    show k.val = 0
    omega

/-- The in-range mask of rank `n` in batch `b`: the reduce by `and` over the unit axis has one term. -/
theorem mask_eq (x0 : S32x262144x3.Idx → EReal) (b : Fin 32) (n : Fin 262144) :
    val_main_call1_v11 (F := Ideal) x0 (ix2 b n) = Cert.Spec.onAxis (Cert.Spec.pos x0 b n) := by
  unfold val_main_call1_v11
  have hR : S32x262144x1.Reduces [2] S32x262144 := by decide
  rw [Host.reduce_eq_fold_single IntOp.andi _ _ _ hR _ (ix2 b n)]
  have hu : (Finset.univ : Finset (Fin (S32x262144x1.size 2))) = {⟨0, Nat.one_pos⟩} := rfl
  rw [hu, Finset.fold_singleton]
  show IntOp.andi (val_main_call1_v10 (F := Ideal) x0 (hR.lift (ix2 b n) ⟨0, Nat.one_pos⟩)) 1#1 = _
  rw [lift_unit, andi_one, val_main_call1_v10_apply, val_main_call1_v6_apply, val_main_call1_v9_apply, pos_eq]
  rfl

/-- The sorted voxels: coordinate `k` of the voxel of rank `n` in batch `b`. -/
theorem sorted_eq (x0 : S32x262144x3.Idx → EReal) (b : Fin 32) (n : Fin 262144) (k : Fin 3) :
    val_main_v12 (F := Ideal) x0 (ix3 b n k) = Cert.Spec.sorted x0 b n k := by
  rw [val_main_v12_apply, val_main_call1_v13_apply]
  have hi : idx_main_call1_v13 (ix3 b n k) = ix2 b n := by
    funext a
    match a with
    | ⟨0, _⟩ => rfl
    | ⟨1, _⟩ => rfl
  rw [hi, mask_eq]
  unfold val_main_call1_v12
  rw [gather_rows, pos_eq, vox_eq]
  rfl

end Cert.ReferenceIdeal.RefValue

end
-- ==== Proof.RefFirst.lean ====
/-
  The reference's three results, read at an index.

  The first-occurrence mask `val_main_v18` is a column of ones joined in front of the "differs from the predecessor" bits of
  ranks 1 … 262143: at rank 0 it is 1, at rank `n > 0` it is the `or` over the three coordinates of "the sorted voxel of rank
  `n` differs from that of rank `n - 1`" (a reduce by `or` over an axis of three terms from 0): `Cert.Spec.first`. Result 0 joins
  the batch number in front of the sorted voxel (`Cert.Spec.coords`), result 1 is the mask as a real (`Cert.Spec.feature`), and
  result 2 adds the mask's bits, widened to 32 bits, along the ranks: a sum of 0/1 indicators is the count of the ones
  (`Cert.Spec.count`).
-/
import proofs.«147239_j10746008174742_1_alg».proof.Proof.RefGather
import Idealize.ShloMosaic.Lib.IndicatorCount
import Idealize.ShloMosaic.Lib.Pipeline.Value

noncomputable section

namespace Cert.ReferenceIdeal.RefValue

open Cert.ReferenceIdeal Cert.ReferenceIdeal.Gen Cert.ReferenceIdeal.ReadP Idealize.ShloMosaic Idealize.ShloMosaic.ValueIdx

/-- A fold over the three coordinates of an axis, spelt out. -/
theorem fold_fin3 {α : Type} (op : α → α → α) [Std.Commutative op] [Std.Associative op] (z : α) (f : Fin 3 → α) :
    (Finset.univ : Finset (Fin 3)).fold op z f = op (f 0) (op (f 1) (op (f 2) z)) := rfl

/-- `or` of three bits from 0, regrouped. -/
theorem ori3 (a b c : BitVec 1) : IntOp.ori a (IntOp.ori b (IntOp.ori c 0#1)) = IntOp.ori (IntOp.ori a b) c := by
  revert a b c; decide

/-- The source index over `(b, n)` of the compared slices, with coordinate `k` on the dropped axis. -/
theorem lift_k (h : S32x262143x3.Reduces [2] S32x262143) (b : Fin 32) (n : Fin 262143) (k : Fin (S32x262143x3.size 2)) :
    h.lift (ix2 b n) k = ix3 b n (⟨k.val, k.isLt⟩ : Fin 3) := by
  funext c
  refine Fin.ext ?_
  rw [Shape.Reduces.lift_val]
  match c with
  | ⟨0, _⟩ => rfl
  | ⟨1, _⟩ => rfl
  | ⟨2, _⟩ => rfl

/-- A reduce by `or` from 0 over the last axis of three terms, at `(b, n)`, for any array of bits. -/
theorem reduce_or3 (v : S32x262143x3.Idx → BitVec 1) (init : S_.Idx → BitVec 1)
    (h' : S32x262143x3.ReducesTo [2] S32x262143) (hu : 0 < S_.numel) (hinit : init (Shape.Idx.first hu) = 0#1)
    (b : Fin 32) (n : Fin 262143) :
    Host.reduce IntOp.ori v init h' hu (ix2 b n)
      = IntOp.ori (IntOp.ori (v (ix3 b n (0 : Fin 3))) (v (ix3 b n (1 : Fin 3)))) (v (ix3 b n (2 : Fin 3))) := by
  have hR : S32x262143x3.Reduces [2] S32x262143 := by decide
  refine (Host.reduce_eq_fold_single IntOp.ori v init h' hR hu (ix2 b n)).trans ?_
  refine (fold_fin3 IntOp.ori _ _).trans ?_
  rw [hinit]
  show IntOp.ori (v (hR.lift (ix2 b n) (0 : Fin 3))) (IntOp.ori (v (hR.lift (ix2 b n) (1 : Fin 3)))
    (IntOp.ori (v (hR.lift (ix2 b n) (2 : Fin 3))) 0#1)) = _
  rw [lift_k hR b n (0 : Fin 3), lift_k hR b n (1 : Fin 3), lift_k hR b n (2 : Fin 3)]
  exact ori3 _ _ _

/-- One compared bit: the sorted voxel of rank `n + 1` against that of rank `n`, on coordinate `k`. -/
theorem ne_eq (x0 : S32x262144x3.Idx → EReal) (b : Fin 32) (n : Fin 262144) (hn : n.val ≠ 0) (k : Fin 3) :
    val_main_v15 (F := Ideal) x0 (ix3 b (⟨n.val - 1, by omega⟩ : Fin 262143) k) = Cert.Spec.differs x0 b n k := by
  rw [val_main_v15_apply, val_main_v13_apply, val_main_v14_apply]
  have h13 : idx_main_v13 (ix3 b (⟨n.val - 1, by omega⟩ : Fin 262143) k) = ix3 b n k := by
    funext a; refine Fin.ext ?_
    match a with
    | ⟨0, _⟩ => rfl
    | ⟨1, _⟩ => show 1 + (n.val - 1) = n.val; omega
    | ⟨2, _⟩ => rfl
  have h14 : idx_main_v14 (ix3 b (⟨n.val - 1, by omega⟩ : Fin 262143) k) = ix3 b (Cert.Spec.prevRank n) k := by
    funext a; refine Fin.ext ?_
    match a with
    | ⟨0, _⟩ => rfl
    | ⟨1, _⟩ => rfl
    | ⟨2, _⟩ => rfl
  rw [h13, h14, sorted_eq, sorted_eq]
  rfl

/-- The first-occurrence mask. -/
theorem first_eq (x0 : S32x262144x3.Idx → EReal) (b : Fin 32) (n : Fin 262144) :
    val_main_v18 (F := Ideal) x0 (ix2 b n) = Cert.Spec.first x0 b n := by
  unfold val_main_v18 Cert.Spec.first
  by_cases hn : n.val = 0
  · rw [if_pos hn]
    refine (concatenate_pair_apply_left (t := S32x262144) (s₁ := S32x1) (s₂ := S32x262143) (1 : Fin 2) _ _ _ (ix2 b n) rfl
      (ix2 b (0 : Fin 1)) (fun c => by match c with | ⟨0, _⟩ => rfl | ⟨1, _⟩ => exact hn.symm)).trans ?_
    rfl
  · rw [if_neg hn]
    have hlt : n.val - 1 < 262143 := by omega
    refine (concatenate_pair_apply_right (t := S32x262144) (s₁ := S32x1) (s₂ := S32x262143) (1 : Fin 2) _ _ _ (ix2 b n) rfl rfl
      (ix2 b (⟨n.val - 1, hlt⟩ : Fin 262143))
      (fun c hc => by match c with | ⟨0, _⟩ => rfl | ⟨1, _⟩ => exact absurd rfl hc)
      (by show n.val - 1 + 1 = n.val; omega)).trans ?_
    unfold val_main_v16
    refine (reduce_or3 _ _ _ _ rfl b ⟨n.val - 1, hlt⟩).trans ?_
    rw [ne_eq x0 b n hn 0, ne_eq x0 b n hn 1, ne_eq x0 b n hn 2]

/-- Result 0 at `(b, n, q)`. -/
theorem coords_eq (x0 : S32x262144x3.Idx → EReal) (b : Fin 32) (n : Fin 262144) (q : Fin 4) :
    val_main_v22 (F := Ideal) x0 (ix3 b n q) = Cert.Spec.coords x0 b n q := by
  unfold val_main_v22 Cert.Spec.coords
  by_cases hq : q.val = 0
  · rw [if_pos hq]
    refine (concatenate_pair_apply_left (t := S32x262144x4) (s₁ := S32x262144x1) (s₂ := S32x262144x3) (2 : Fin 3) _ _ _ (ix3 b n q) rfl
      (ix3 b n (0 : Fin 1)) (fun c => by match c with | ⟨0, _⟩ => rfl | ⟨1, _⟩ => rfl | ⟨2, _⟩ => exact hq.symm)).trans ?_
    rw [val_main_v21_apply, val_main_v20_apply]
    rfl
  · rw [if_neg hq]
    refine (concatenate_pair_apply_right (t := S32x262144x4) (s₁ := S32x262144x1) (s₂ := S32x262144x3) (2 : Fin 3) _ _ _ (ix3 b n q) rfl rfl
      (ix3 b n (⟨q.val - 1, by omega⟩ : Fin 3))
      (fun c hc => by match c with | ⟨0, _⟩ => rfl | ⟨1, _⟩ => rfl | ⟨2, _⟩ => exact absurd rfl hc)
      (by show q.val - 1 + 1 = q.val; omega)).trans ?_
    exact sorted_eq x0 b n _

/-- Result 1 at `(b, n, 0)`. -/
theorem feature_eq (x0 : S32x262144x3.Idx → EReal) (b : Fin 32) (n : Fin 262144) :
    val_main_v24 (F := Ideal) x0 (ix3 b n (0 : Fin 1)) = Cert.Spec.feature x0 b n := by
  rw [val_main_v24_apply, val_main_v23_apply]
  have hi : idx_main_v23 (ix3 b n (0 : Fin 1)) = ix2 b n := by
    funext a
    match a with
    | ⟨0, _⟩ => rfl
    | ⟨1, _⟩ => rfl
  rw [hi, first_eq]
  rfl

/-- The source index over `b` with rank `n` on the dropped axis. -/
theorem lift_n (h : S32x262144.Reduces [1] S32) (b : Fin 32) (n : Fin (S32x262144.size 1)) :
    h.lift (ix1 b) n = ix2 b (⟨n.val, n.isLt⟩ : Fin 262144) := by
  funext c
  refine Fin.ext ?_
  rw [Shape.Reduces.lift_val]
  match c with
  | ⟨0, _⟩ => rfl
  | ⟨1, _⟩ => rfl

/-- A reduce by addition from 0 along the ranks of an array holding one-bit words widened to 32 bits is the count of the
    ones, for any such array. -/
theorem reduce_add_bits (v : S32x262144.Idx → BitVec 32) (p : Fin 262144 → BitVec 1) (init : S_.Idx → BitVec 32)
    (h' : S32x262144.ReducesTo [1] S32) (hu : 0 < S_.numel) (hinit : init (Shape.Idx.first hu) = 0#32) (b : Fin 32)
    (hv : ∀ n : Fin 262144, v (ix2 b n) = (p n).setWidth 32) :
    Host.reduce IntOp.addi v init h' hu (ix1 b) = BitVec.ofNat 32 (Finset.univ.filter fun n => p n = 1#1).card := by
  have hR : S32x262144.Reduces [1] S32 := by decide
  refine (Host.reduce_eq_fold_single IntOp.addi v init h' hR hu (ix1 b)).trans ?_
  rw [hinit]
  refine (Finset.fold_congr (g := fun n : Fin 262144 => (p n).setWidth 32) (fun n _ => ?_)).trans ?_
  · exact (congrArg v (lift_n hR b n)).trans (hv n)
  · exact IndicatorCount.fold_addi_setWidth_eq_card p Finset.univ

/-- Result 2 at `b`: the sum of the mask's bits is the count of the ones. -/
theorem count_eq (x0 : S32x262144x3.Idx → EReal) (b : Fin 32) :
    val_main_v26 (F := Ideal) x0 (ix1 b) = Cert.Spec.count x0 b := by
  have hv : ∀ n : Fin 262144, val_main_v25 (F := Ideal) x0 (ix2 b n) = (Cert.Spec.first x0 b n).setWidth 32 := fun n =>
    (val_main_v25_apply (F := Ideal) x0 (ix2 b n)).trans (congrArg (BitVec.setWidth 32) (first_eq x0 b n))
  unfold val_main_v26 Cert.Spec.count
  generalize val_main_v25 (F := Ideal) x0 = v at hv ⊢
  exact reduce_add_bits v (fun n => Cert.Spec.first x0 b n) (val_main_c_1 (F := Ideal)) _ _ rfl b hv

end Cert.ReferenceIdeal.RefValue

end
-- ==== Proof.RefResults.lean ====
/-
  The reference's three result stages are the specification's three arrays.
-/
import proofs.«147239_j10746008174742_1_alg».proof.Proof.RefFirst

noncomputable section

namespace Cert.ReferenceIdeal.RefValue

open Cert.ReferenceIdeal Cert.ReferenceIdeal.Gen Cert.ReferenceIdeal.ReadP Idealize.ShloMosaic Idealize.ShloMosaic.ValueIdx

theorem out_coords (x0 : S32x262144x3.Idx → EReal) : val_main_v22 (F := Ideal) x0 = Cert.Spec.outCoords x0 := by
  funext j
  obtain ⟨b, n, q, rfl⟩ : ∃ (b : Fin 32) (n : Fin 262144) (q : Fin 4), j = ix3 b n q := ⟨j 0, j 1, j 2, eq_ix3 j⟩
  exact coords_eq x0 b n q

theorem out_feature (x0 : S32x262144x3.Idx → EReal) : val_main_v24 (F := Ideal) x0 = Cert.Spec.outFeature x0 := by
  funext j
  obtain ⟨b, n, z, rfl⟩ : ∃ (b : Fin 32) (n : Fin 262144) (z : Fin 1), j = ix3 b n z := ⟨j 0, j 1, j 2, eq_ix3 j⟩
  obtain rfl : z = 0 := Subsingleton.elim _ _
  exact feature_eq x0 b n

theorem out_count (x0 : S32x262144x3.Idx → EReal) : val_main_v26 (F := Ideal) x0 = Cert.Spec.outCount x0 := by
  funext j
  obtain ⟨b, rfl⟩ : ∃ b : Fin 32, j = ix1 b := ⟨j 0, eq_ix1 j⟩
  exact count_eq x0 b

end Cert.ReferenceIdeal.RefValue

end
-- ==== Proof.lean ====
/-
  The proof of `Cert.Claim` for the voxelization kernel.

  Both programs compute, from a point cloud `x : [32, 262144, 3]`, the voxel `⌊x / 0.01⌋` of every point as 32-bit integers,
  sort each batch's voxels lexicographically (a stable sort on three integer keys, the positions carried along), gather the
  voxels in sorted order, and return the batch number joined to the sorted voxels, the bit "this rank is the first
  occurrence of its voxel" as a real, and the number of such ranks per batch. The kernel works in the layout
  `[32, 3, 262144]` with two pipelined regions (the voxel numbers; the first-occurrence bits and the joined coordinates) and
  counts by a float sum converted to an integer; the reference works in the layout `[32, 262144, 3]` and counts by an
  integer sum. Over the extended reals every float operation is exact, a sum of 0/1 values is the count, and the two
  layouts are one array read with two axes exchanged, so both programs end with the three arrays of `Cert.Spec`
  (`outCoords`, `outFeature`, `outCount`) of the argument: `algebraic`. The sort is applied to equal keys on both sides and is
  never opened; no finiteness of the input is used. The idealization pass rewrote nothing, so `preserves` is `True`.
-/
import proofs.«147239_j10746008174742_1_alg».proof.Defs
import proofs.«147239_j10746008174742_1_alg».proof.Proof.Gen.Kernel
import proofs.«147239_j10746008174742_1_alg».proof.Proof.Gen.KernelIdeal
import proofs.«147239_j10746008174742_1_alg».proof.Proof.Gen.ReferenceIdeal
import proofs.«147239_j10746008174742_1_alg».proof.Proof.Gen.Pre_finite_inputs
import proofs.«147239_j10746008174742_1_alg».proof.Proof.FrameKernel
import proofs.«147239_j10746008174742_1_alg».proof.Proof.FrameKernelIdeal
import proofs.«147239_j10746008174742_1_alg».proof.Proof.KRun
import proofs.«147239_j10746008174742_1_alg».proof.Proof.KFinal
import proofs.«147239_j10746008174742_1_alg».proof.Proof.RefRunHand
import proofs.«147239_j10746008174742_1_alg».proof.Proof.RefCut
import proofs.«147239_j10746008174742_1_alg».proof.Proof.RefResults
import Idealize.ShloMosaic.Adequacy
import Idealize.ShloMosaic.Init

noncomputable section

namespace Cert.Proof

open Idealize.ShloMosaic Idealize.ShloMosaic.TcCoe Idealize.SL.Sem

/-- The word-level kernel's frame: the two regions' frame certificate. -/
theorem frame_k : Cert.frame_Kernel := fun m ρ _ => Cert.Kernel.GenP.frame m ρ

/-- The idealized kernel's frame. -/
theorem frame_ki : Cert.frame_KernelIdeal := fun m ρ _ => Cert.KernelIdeal.GenP.frame m ρ

/-- The idealized reference's frame: its run, the argument read back through the fold of the operations. -/
theorem frame_ri : Cert.frame_ReferenceIdeal := fun m ρ _ =>
  (θ_run Cert.ReferenceIdeal.defs _ _).mono
    (fun _ h c => (h c Cert.ReferenceIdeal.main_arg0).trans (Cert.ReferenceIdeal.RunHand.fold_arg0 m c))
    (Cert.ReferenceIdeal.RunHand.run_fold (F := Ideal) m ρ)

/-- The idealization pass rewrote no operation. -/
theorem preserves : Cert.preserves_Kernel_KernelIdeal := trivial

/-- Both idealized programs end with the specification's three arrays of the argument. -/
theorem algebraic : Cert.algebraic_KernelIdeal_ReferenceIdeal := by
  intro m ρ m' ρ' _ hagree
  refine ⟨fun c => Cert.Spec.outCoords (m ((c.tc : Thread Cert.KernelIdeal.nD Cert.KernelIdeal.τ).loc Cert.KernelIdeal.main_arg0)),
    fun c => Cert.Spec.outFeature (m ((c.tc : Thread Cert.KernelIdeal.nD Cert.KernelIdeal.τ).loc Cert.KernelIdeal.main_arg0)),
    fun c => Cert.Spec.outCount (m ((c.tc : Thread Cert.KernelIdeal.nD Cert.KernelIdeal.τ).loc Cert.KernelIdeal.main_arg0)), ?_, ?_⟩
  · refine (θ_run Cert.KernelIdeal.defs _ _).mono (fun r h c => ⟨?_, ?_, ?_, ?_⟩) (Cert.KernelIdeal.KRun.run_all m ρ)
    · exact (h c _ (Cert.KernelIdeal.GenP.mem_uc Cert.KernelIdeal.main_v15 (by decide))).trans (Cert.KernelIdeal.KFinal.out_coords m ρ c)
    · exact (h c _ (Cert.KernelIdeal.GenP.mem_uc Cert.KernelIdeal.main_v16 (by decide))).trans (Cert.KernelIdeal.KFinal.out_feature m ρ c)
    · exact (h c _ (Cert.KernelIdeal.GenP.mem_uc Cert.KernelIdeal.main_v18 (by decide))).trans (Cert.KernelIdeal.KFinal.out_count m ρ c)
    · exact (h c _ (Cert.KernelIdeal.GenP.mem_uc Cert.KernelIdeal.main_arg0 (by decide))).trans (Cert.KernelIdeal.GenP.W9_main_arg0 m ρ c)
  · refine (θ_run Cert.ReferenceIdeal.defs _ _).mono (fun r h c => ⟨?_, ?_, ?_, ?_⟩)
      (Cert.ReferenceIdeal.RunHand.run_fold (F := Ideal) m' ρ')
    · refine (h c Cert.ReferenceIdeal.main_v22).trans ((Cert.ReferenceIdeal.RunHand.fold_v22 m' c).trans ?_)
      rw [hagree c]
      exact Cert.ReferenceIdeal.RefValue.out_coords _
    · refine (h c Cert.ReferenceIdeal.main_v24).trans ((Cert.ReferenceIdeal.RunHand.fold_v24 m' c).trans ?_)
      rw [hagree c]
      exact Cert.ReferenceIdeal.RefValue.out_feature _
    · refine (h c Cert.ReferenceIdeal.main_v26).trans ((Cert.ReferenceIdeal.RunHand.fold_v26 m' c).trans ?_)
      rw [hagree c]
      exact Cert.ReferenceIdeal.RefValue.out_count _
    · exact (h c Cert.ReferenceIdeal.main_arg0).trans (Cert.ReferenceIdeal.RunHand.fold_arg0 m' c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
